-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x64 : Shape := ⟨3, ![4, 2048, 64]⟩
abbrev S1024x64 : Shape := ⟨2, ![1024, 64]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x64 : S_.BroadcastsInDim S4x2048x64 (![] : Fin 0 → Fin S4x2048x64.rank)
  reducesTo_S4x2048x64_S_d0_1_2 : S4x2048x64.ReducesTo [0, 1, 2] S_
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S4x2048x64 .f32) (main_arg2 : FVec F S1024x64 .f32) (main_arg3 : FVec F S1024x64 .f32) (main_arg4 : FVec F S1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x64 .f32 := Host.absf main_arg1
  let main_cst_0 : FVec F S_ .f32 := constant S_ .f32 0x7F800000#32
  let main_v5 : FVec F S4x2048x64 .f32 := broadcastInDim S4x2048x64 ![] bcast_S_S4x2048x64 main_cst_0
  let main_v6 : IVec S4x2048x64 1 := cmpf .olt main_v4 main_v5
  let main_c_1 : IVec S_ 1 := constantI S_ 1 1#1
  let main_v7 : IVec S_ 1 := (fun x v => Host.reduce IntOp.andi x v reducesTo_S4x2048x64_S_d0_1_2 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_v13 main_v16
-- ==== Kernel.lean ====
abbrev S4x2048x1024 : Shape := ⟨3, ![4, 2048, 1024]⟩
abbrev S4x2048x64 : Shape := ⟨3, ![4, 2048, 64]⟩
abbrev S1024x64 : Shape := ⟨2, ![1024, 64]⟩
abbrev S1024 : Shape := ⟨1, ![1024]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024x1 : Shape := ⟨2, ![1024, 1]⟩
abbrev S1x512x64 : Shape := ⟨3, ![1, 512, 64]⟩
abbrev S1x512x1024 : Shape := ⟨3, ![1, 512, 1024]⟩
abbrev S512x64 : Shape := ⟨2, ![512, 64]⟩
abbrev S64x512 : Shape := ⟨2, ![64, 512]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 10
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S4x2048x64, .f32⟩
  | .hbm, ⟨2, _⟩ => ⟨S1024x64, .f32⟩
  | .hbm, ⟨3, _⟩ => ⟨S1024x64, .f32⟩
  | .hbm, ⟨4, _⟩ => ⟨S1024, .f32⟩
  | .hbm, ⟨5, _⟩ => ⟨S1024, .f32⟩
  | .hbm, ⟨6, _⟩ => ⟨S4x2048x64, .bf16⟩
  | .hbm, ⟨7, _⟩ => ⟨S4x2048x64, .bf16⟩
  | .hbm, ⟨8, _⟩ => ⟨S4x2048x1024, .bf16⟩
  | .hbm, ⟨9, _⟩ => ⟨S4x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x64, .f32⟩
  | .local _ .vmem, ⟨3, _⟩ => ⟨S1x1024x64, .f32⟩
  | .local _ .vmem, ⟨4, _⟩ => ⟨S1024x64, .f32⟩
  | .local _ .vmem, ⟨5, _⟩ => ⟨S1024x64, .f32⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x1024x1024, .f32⟩
  | .local _ .vmem, ⟨19, _⟩ => ⟨S1x1024x1024, .f32⟩
  | .local _ .vmem, ⟨20, _⟩ => ⟨S1024, .f32⟩
  | .local _ .vmem, ⟨21, _⟩ => ⟨S1024, .f32⟩
  | .local _ .vmem, ⟨22, _⟩ => ⟨S1x1024x1024, .f32⟩
  | .local _ .vmem, ⟨23, _⟩ => ⟨S1x1024x1024, .f32⟩
  | .local _ .vmem, ⟨24, _⟩ => ⟨S1024x1024, .f32⟩
  | .local _ .vmem, ⟨25, _⟩ => ⟨S1024x1, .f32⟩
  | .local _ .vmem, ⟨26, _⟩ => ⟨S1024x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_24 : BitVec 32 := 0#32
  let v42 : BitVec 1 := Scalar.cmpi .ne v41 c0_i32_24
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  reduces_S1024x64_S1024 : S1024x64.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  reduces_S1024x512_S1024 : S1024x512.Reduces [1] S1024
  broadcasts_S1024x1_S1024x512 : S1024x1.Broadcasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1024x1_S1024x1024 : S1024x1.Broadcasts S1024x1024
  reduces_S1024x1024_S1024 : S1024x1024.Reduces [1] S1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x64_S1024x64_1_0_0_1_n_n_wf : DotDims.WF S1024x1024 S1024x64 S1024x64 [1] [0] [0] [1] [] []
  dot_S1024x64_S64x512_S1024x512_1_0_0_1_n_n_wf : DotDims.WF S1024x64 S64x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x2048x64.size a
  hwx0_1 : ∀ i : grid0.Coords, EltTy.bits .f32 = 32 ∨ (Rect.block (s := S4x2048x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x2048x64.size a
  hwx0_4 : ∀ i : grid0.Coords, EltTy.bits .bf16 = 32 ∨ (Rect.block (s := S4x2048x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S4x2048x64.size a
  hwx0_5 : ∀ i : grid0.Coords, EltTy.bits .bf16 = 32 ∨ (Rect.block (s := S4x2048x64) S1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S4x2048x1024.size a
  hwx0_6 : ∀ i : grid0.Coords, EltTy.bits .bf16 = 32 ∨ (Rect.block (s := S4x2048x1024) S1x1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x2048x64.size a
  hwx1_0 : ∀ i : grid1.Coords, EltTy.bits .bf16 = 32 ∨ (Rect.block (s := S4x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S4x2048x64.size a
  hwx1_1 : ∀ i : grid1.Coords, EltTy.bits .bf16 = 32 ∨ (Rect.block (s := S4x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x1024.size a ≤ S4x2048x1024.size a
  hwx1_6 : ∀ i : grid1.Coords, EltTy.bits .f32 = 32 ∨ (Rect.block (s := S4x2048x1024) S1x1024x1024.size (cc1_transform_6 i) (hinb1_6 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x64 : Shape := ⟨3, ![4, 2048, 64]⟩
abbrev S1024x64 : Shape := ⟨2, ![1024, 64]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S4x2048x2048 : Shape := ⟨3, ![4, 2048, 2048]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x64, .f32⟩
  | .hbm, ⟨2, _⟩ => ⟨S1024x64, .f32⟩
  | .hbm, ⟨3, _⟩ => ⟨S1024x64, .f32⟩
  | .hbm, ⟨4, _⟩ => ⟨S1024, .f32⟩
  | .hbm, ⟨5, _⟩ => ⟨S1024, .f32⟩
  | .hbm, ⟨6, _⟩ => ⟨S4x2048x64, .f32⟩
  | .hbm, ⟨7, _⟩ => ⟨S4x2048x64, .f32⟩
  | .hbm, ⟨8, _⟩ => ⟨S4x2048x64, .f32⟩
  | .hbm, ⟨9, _⟩ => ⟨S4x2048x64, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S4x2048x1, .f32⟩
  | .hbm, ⟨57, _⟩ => ⟨S4x2048x1024, .f32⟩
  | .hbm, ⟨58, _⟩ => ⟨S4x2048x1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S1x1x1024, .f32⟩
  | .hbm, ⟨63, _⟩ => ⟨S4x2048x1024, .f32⟩
  | .hbm, ⟨64, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  reducesTo_S4x2048x64_S4x2048_d2 : S4x2048x64.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  reducesTo_S4x2048x2048_S4x2048_d2 : S4x2048x2048.ReducesTo [2] S4x2048
  bcast_S_S4x2048 : S_.BroadcastsInDim S4x2048 (![] : Fin 0 → Fin S4x2048.rank)
  reducesTo_S4x2048x1024_S4x2048_d2 : S4x2048x1024.ReducesTo [2] S4x2048
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KReg0.lean ====
import proofs.«101722_j472446402583_2_alg».proof.Proof.Gen.Kernel.Launch
import proofs.«101722_j472446402583_2_alg».proof.Proof.Gen.Kernel.Skeleton
import proofs.«101722_j472446402583_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection stage, point by point

The first stage of the layer runs on a grid of 4 × 2 points: point `(b, h)` sees rows `1024·h … 1024·h + 1023` of
batch `b` of `x` and of the mask, and the two bases `U`, `V` whole. It writes the same rows of three arrays: the gated
query projection, the gated key projection, and a copy of `x`. Everything is stated at a parameter `V`: the
contents of the core's arrays when the stage starts.

Each of the three results is written by one store that covers the window's whole block, so what the body leaves
in an output window is a function of the four input blocks alone (`out0_4`, `out0_5`, `out0_6`). The two bases
are brought in once, at the first point, and their block index never moves: their staging buffers hold the whole
base at every point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`: the part of its array, as the stage finds it, that the point sees. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, brought in there or not (where it
    is not, the block index has not moved since it was): for any proof data over the arrays `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The two bases: one block, the whole array, at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

abbrev r0_0 : Rect S1x1024x1024 := Rect.unit (s := S1x1024x1024) ![0, 0, 0] S1x1024x1024.size inb_S1x1024x1024_S1x1024x1024_0_0_0
abbrev r0_1 : Rect S1x1024x64 := Rect.unit (s := S1x1024x64) ![0, 0, 0] S1x1024x64.size inb_S1x1024x64_S1x1024x64_0_0_0
abbrev r0_2 : Rect S1024x64 := Rect.unit (s := S1024x64) ![0, 0] S1024x64.size inb_S1024x64_S1024x64_0_0

/-! ## What the body leaves in each output window -/

/-- The query projection's block: one store of the whole block, its value a function of the blocks of `x`, of the
    mask and of the first base. -/
def out0_4 (x0 : Vec F S1x1024x1024 .f32) (x1 : Vec F S1x1024x64 .f32) (x2 : Vec F S1024x64 .f32) (x3 : Vec F S1024x64 .f32) : Vec F S1x1024x64 .bf16 :=
  View.canon [⟨r0_1, k0_pay3 (View.ld x0 r0_0) (View.ld x1 r0_1) (View.ld x2 r0_2)⟩]

/-- The key projection's block: the same with the second base, and no rank factor. -/
def out0_5 (x0 : Vec F S1x1024x1024 .f32) (x1 : Vec F S1x1024x64 .f32) (x2 : Vec F S1024x64 .f32) (x3 : Vec F S1024x64 .f32) : Vec F S1x1024x64 .bf16 :=
  View.canon [⟨r0_1, k0_pay4 (View.ld x0 r0_0) (View.ld x1 r0_1) (View.ld x3 r0_2)⟩]

/-- The copy of `x`'s block, in the narrower format. -/
def out0_6 (x0 : Vec F S1x1024x1024 .f32) (x1 : Vec F S1x1024x64 .f32) (x2 : Vec F S1024x64 .f32) (x3 : Vec F S1024x64 .f32) : Vec F S1x1024x1024 .bf16 :=
  View.canon [⟨r0_0, k0_pay5 (View.ld x0 r0_0)⟩]

/-- One store of the whole block covers the block. -/
theorem cover0_4 (p0 : Vec F S1x1024x64 .bf16) (y : S1x1024x64.Idx) :
    ∃ pc ∈ ([⟨r0_1, p0⟩] : List (View.Piece (Elt F) S1x1024x64 .bf16)), y ∈ pc.1.set :=
  View.cover_of_tiled [⟨r0_1, p0⟩] S1x1024x64.size (by rfl) y
theorem cover0_6 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The body on whole staging buffers — the four inputs' at contents `x0 … x3`, the three outputs' at anything —
    ends with the inputs' as they were and each output's at its function of the inputs. -/
theorem sound_kernel0 (c : Dev nD) (E : Set ℕ) (i : grid0.Coords) (arg0 : Memref sig .tc .vmem S1x1024x1024 .f32) (harg0 : arg0.IsWhole) (arg1 : Memref sig .tc .vmem S1x1024x64 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .bf16) (harg6 : arg6.IsWhole)
    (x0 : Vec F S1x1024x1024 .f32) (x1 : Vec F S1x1024x64 .f32) (x2 : Vec F S1024x64 .f32) (x3 : Vec F S1024x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3)) -∗ K ⟨⟩))
      ⊢ wp frame (wpE (defs₀ (F := F)) Variants.none c none) E (cc0__project_kernel i arg0 harg0 arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_6 _)

/-! ## The stage's proof data -/

/-- The proof data of the stage on core `c`: the arrays as the stage finds them; after the body at point `t` each
    input's buffer still at its block and each output's at its function of the four input blocks; nothing else of
    the core is touched, nothing is owed, and every buffer is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the contents the stage starts from. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the rest of the
    core passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the stage, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1Base.lean ====
import proofs.«101722_j472446402583_2_alg».proof.Proof.Gen.Kernel.Launch
import proofs.«101722_j472446402583_2_alg».proof.Proof.Gen.Kernel.Skeleton
import proofs.«101722_j472446402583_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call (the attention stage): what its runs share

The call visits the grid (batch, query tile, key tile) = 4 × 2 × 4 in row-major order, so a point `t` is at key
tile `t % 4`.  Three scratch buffers — the running numerator [1024, 1024], the running reference point [1024, 1]
and the running denominator [1024, 1] — are reset at key tile 0, updated at every key tile and read out at key
tile 3, where the output block is stored; at the other points the output's staging buffer is left alone and is
not written back. -/

section Region1

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- "This is the first key tile": the body's first `scf.if`, from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the body's second `scf.if`. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Off the last key tile the output's staging buffer is idle and is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last key tile it is live. -/
theorem liveAt1_6 : ∀ t : Fin cfg1.N, cond1_1 (grid1.coords t) → cfg1.idle 6 (grid1.coords t) = false := by decide +kernel

/-! ## The memrefs the body is called with -/

/-- One staging buffer of the output window, through which its contents are stated. -/
abbrev VO1_6 : View sig .tc .vmem S1x1024x1024 .f32 := (Memref.whole cc1_stg6_0 : Memref sig .tc .vmem S1x1024x1024 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1024 .f32 := win1_6.stage (cfg1.slots t 6)
abbrev hs1_6 (t : Fin cfg1.N) : (ms1_6 t).IsWhole := hstage1_6 ((cfg1.slots t 6).cast nbuf1_6)
/-- The three scratch buffers: whole scoped buffers of the call's own. -/
abbrev scM1_0 : Memref sig .tc .vmem S1024x1024 .f32 := Memref.whole cc1_scratch0
abbrev scM1_1 : Memref sig .tc .vmem S1024x1 .f32 := Memref.whole cc1_scratch1
abbrev scM1_2 : Memref sig .tc .vmem S1024x1 .f32 := Memref.whole cc1_scratch2
abbrev VS1_0 : View sig .tc .vmem S1024x1024 .f32 := scM1_0.view
abbrev VS1_1 : View sig .tc .vmem S1024x1 .f32 := scM1_1.view
abbrev VS1_2 : View sig .tc .vmem S1024x1 .f32 := scM1_2.view

/-- The scoped buffers of the core that are neither a staging buffer of this call nor its scratch (the first call's
    staging buffers), each at some contents: carried unopened. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three scratch buffers split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]
  rfl

end Cert.Kernel.Hand

end
-- ==== Proof.KReg1RunA.lean ====
import proofs.«101722_j472446402583_2_alg».proof.Proof.KReg1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage's body at the first key tile

What the body's stores leave in the output's staging buffer and in the three scratch buffers, as lists of written
pieces (last first), together with the proof that on whole memrefs — the six inputs at their contents, the output's handed back untouched, the scratch at anything (all three are stored whole before they are read) — the body runs to a
continuation holding the inputs as they were and each written buffer with its pieces written. The pieces are found
by running the body symbolically. -/

set_option maxHeartbeats 4000000 in
noncomputable def kernelRun1_A (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) :
    Σ' (L6 : List (View.Piece (Elt F) S1x1024x1024 .f32)) (LS0 : List (View.Piece (Elt F) S1024x1024 .f32)) (LS1 : List (View.Piece (Elt F) S1024x1 .f32)), { LS2 : List (View.Piece (Elt F) S1024x1 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.KReg1RunB.lean ====
import proofs.«101722_j472446402583_2_alg».proof.Proof.KReg1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage's body at a middle key tile

What the body's stores leave in the output's staging buffer and in the three scratch buffers, as lists of written
pieces (last first), together with the proof that on whole memrefs — the six inputs at their contents, the output's handed back untouched, the scratch at what the point before left — the body runs to a
continuation holding the inputs as they were and each written buffer with its pieces written. The pieces are found
by running the body symbolically. -/

set_option maxHeartbeats 4000000 in
noncomputable def kernelRun1_B (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    Σ' (L6 : List (View.Piece (Elt F) S1x1024x1024 .f32)) (LS0 : List (View.Piece (Elt F) S1024x1024 .f32)) (LS1 : List (View.Piece (Elt F) S1024x1 .f32)), { LS2 : List (View.Piece (Elt F) S1024x1 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.KReg1RunC.lean ====
import proofs.«101722_j472446402583_2_alg».proof.Proof.KReg1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage's body at the last key tile

What the body's stores leave in the output's staging buffer and in the three scratch buffers, as lists of written
pieces (last first), together with the proof that on whole memrefs — the six inputs at their contents, the output's at anything, the scratch at what the point before left — the body runs to a
continuation holding the inputs as they were and each written buffer with its pieces written. The pieces are found
by running the body symbolically. -/

set_option maxHeartbeats 4000000 in
noncomputable def kernelRun1_C (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    Σ' (L6 : List (View.Piece (Elt F) S1x1024x1024 .f32)) (LS0 : List (View.Piece (Elt F) S1024x1024 .f32)) (LS1 : List (View.Piece (Elt F) S1024x1 .f32)), { LS2 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.Kernel.Hand

end
-- ==== Proof.KReg1.lean ====
import proofs.«101722_j472446402583_2_alg».proof.Proof.KReg1RunA
import proofs.«101722_j472446402583_2_alg».proof.Proof.KReg1RunB
import proofs.«101722_j472446402583_2_alg».proof.Proof.KReg1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage: what its buffers hold point by point, its proof data and its body obligation -/

/-- The output block and the three scratch buffers after a point. -/
abbrev St1 : Type := Vec F S1x1024x1024 .f32 × Vec F S1024x1024 .f32 × Vec F S1024x1 .f32 × Vec F S1024x1 .f32

/-! ## Each case's stores cover the buffers they write -/

theorem scover1_A_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (y : S1024x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.1 S1024x1024.size (by sl_kernel_rfl) y

theorem scover1_A_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.1 S1024x1.size (by sl_kernel_rfl) y

theorem scover1_A_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.2.1 S1024x1.size (by sl_kernel_rfl) y

theorem scover1_B_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1024.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1024x1024.size (by sl_kernel_rfl) y

theorem scover1_B_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x1.size (by sl_kernel_rfl) y

theorem scover1_B_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x1.size (by sl_kernel_rfl) y

theorem scover1_C_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1024x1024.size (by sl_kernel_rfl) y

theorem scover1_C_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x1.size (by sl_kernel_rfl) y

theorem scover1_C_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x1.size (by sl_kernel_rfl) y

theorem cover1_C_6 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1x1024x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1 S1x1024x1024.size (by sl_kernel_rfl) y

/-! ## The two conditions from a point's position -/

theorem c0_of (t : Fin cfg1.N) (h : t.val % 4 = 0) : cond1_0 (grid1.coords t) := (hcond1_0 t).mpr h
theorem nc0_of (t : Fin cfg1.N) (h : ¬t.val % 4 = 0) : ¬cond1_0 (grid1.coords t) := fun hc => h ((hcond1_0 t).mp hc)
theorem c1_of (t : Fin cfg1.N) (h : t.val % 4 = 3) : cond1_1 (grid1.coords t) := (hcond1_1 t).mpr h
theorem nc1_of (t : Fin cfg1.N) (h : ¬t.val % 4 = 3) : ¬cond1_1 (grid1.coords t) := fun hc => h ((hcond1_1 t).mp hc)
theorem nc1_of0 (t : Fin cfg1.N) (h : t.val % 4 = 0) : ¬cond1_1 (grid1.coords t) := fun hc => by
  have := (hcond1_1 t).mp hc; omega

section Region1

variable (V : (c : Dev nD) → (b : Ref sig .tc) → Buf (Elt F) ((c : Thread nD τ).loc b))

/-- What the body leaves at a point of this case: each buffer's pieces read back. -/
def leaves1_A (c : Dev nD) (t : Fin cfg1.N) (hc0 : cond1_0 (grid1.coords t)) (hc1 : ¬cond1_1 (grid1.coords t)) : St1 (F := F) :=
  (VO1_6.read (Elt F) (VO1_6.writes (Elt F) VO1_6.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)).2.2.2.1))

/-- What the body leaves at a point of this case: each buffer's pieces read back. -/
def leaves1_B (c : Dev nD) (t : Fin cfg1.N) (hc0 : ¬cond1_0 (grid1.coords t)) (hc1 : ¬cond1_1 (grid1.coords t)) (p : St1 (F := F)) : St1 (F := F) :=
  (VO1_6.read (Elt F) (VO1_6.writes (Elt F) VO1_6.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.2.2.1))

/-- What the body leaves at a point of this case: each buffer's pieces read back. -/
def leaves1_C (c : Dev nD) (t : Fin cfg1.N) (hc0 : ¬cond1_0 (grid1.coords t)) (hc1 : cond1_1 (grid1.coords t)) (p : St1 (F := F)) : St1 (F := F) :=
  (VO1_6.read (Elt F) (VO1_6.writes (Elt F) VO1_6.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.2.2.1))

/-- THE ACCUMULATION: what the output's staging buffer and the three scratch buffers hold after the body at position
    `n`: at a first key tile the reset-and-update, at a middle tile the update of what the point before left, at a last
    tile the update and the read-out. -/
def outsAt1 (c : Dev nD) : (n : ℕ) → n < cfg1.N → St1 (F := F)
  | 0, hn => leaves1_A V c ⟨0, hn⟩ (c0_of ⟨0, hn⟩ (Nat.zero_mod _)) (nc1_of0 ⟨0, hn⟩ (Nat.zero_mod _))
  | n + 1, hn =>
    if h0 : (n + 1) % 4 = 0 then
      leaves1_A V c ⟨n + 1, hn⟩ (c0_of ⟨n + 1, hn⟩ h0) (nc1_of0 ⟨n + 1, hn⟩ h0)
    else if h1 : (n + 1) % 4 = 3 then
      leaves1_C V c ⟨n + 1, hn⟩ (nc0_of ⟨n + 1, hn⟩ h0) (c1_of ⟨n + 1, hn⟩ h1) (outsAt1 c n (Nat.lt_of_succ_lt hn))
    else
      leaves1_B V c ⟨n + 1, hn⟩ (nc0_of ⟨n + 1, hn⟩ h0) (nc1_of ⟨n + 1, hn⟩ h1) (outsAt1 c n (Nat.lt_of_succ_lt hn))

theorem outsAt1_A (c : Dev nD) (t : Fin cfg1.N) (h0 : t.val % 4 = 0) :
    outsAt1 V c t.val t.isLt = leaves1_A V c t (c0_of t h0) (nc1_of0 t h0) := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 V c t.val t.isLt = leaves1_B V c t (nc0_of t h0) (nc1_of t h1) (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans (dif_neg h1)

theorem outsAt1_C (c : Dev nD) (t : Fin cfg1.N) (h0 : ¬t.val % 4 = 0) (h1 : t.val % 4 = 3) :
    outsAt1 V c t.val t.isLt = leaves1_C V c t (nc0_of t h0) (c1_of t h1) (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans (dif_pos h1)

/-- The call's invariant before position `n`: before the first point the class's (every scratch at anything);
    afterwards the three scratch buffers at what the point before left in them, the other scoped buffers at anything
    and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ others1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ others1 c) ∗ (∃ r, prngReg c r)) := by
  cases n with
  | zero => exact absurd rfl hz
  | succ n => rfl

/-! ## The proof data -/

/-- The arrays as the call finds them; after the body each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the point's position says which case it is in; the
    invariant hands the body the three scratch buffers at what the point before left (at anything before the first
    point) and takes them back at this point's contents; off the last key tile the output's buffer is handed back as
    found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 4 = 0
  · skip
    rw [Dat.leavesExact_idle (dat1 V c) 6 t (idleAt1_6 t (nc1_of0 t h0)) (noFlush1_6 t (nc1_of0 t h0))]
    rw [outsAt1_A V c t h0]
    unfold leaves1_A; (try dsimp only)
    by_cases hz : t.val = 0
    · rw [PhiS1_castSucc V c t, PhiS1_zero V c _ _ hz, PhiA1_eq]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ (c0_of t h0) (nc1_of0 t h0) (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ (c0_of t h0) (nc1_of0 t h0) (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 4 = 3
    · skip
      rw [show (dat1 V c).leavesExact 6 t = owns (c : Thread nD τ) (ms1_6 t) fullShare ((dat1 V c).after 6 t) from by
        unfold Dat.leavesExact; rw [liveAt1_6 t (c1_of t h1)], after1_6]
      rw [outsAt1_C V c t h0 h1]
      unfold leaves1_C; (try dsimp only)
      have hz : t.val ≠ 0 := fun hz => h0 (by rw [hz])
      rw [PhiS1_castSucc V c t, PhiS1_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (nc0_of t h0) (c1_of t h1) (iblk1 V c 0 t) (iblk1 V c 1 t) (iblk1 V c 2 t) (iblk1 V c 3 t) (iblk1 V c 4 t) (iblk1 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _ _ _)
    · skip
      rw [Dat.leavesExact_idle (dat1 V c) 6 t (idleAt1_6 t (nc1_of t h1)) (noFlush1_6 t (nc1_of t h1))]
      rw [outsAt1_B V c t h0 h1]
      unfold leaves1_B; (try dsimp only)
      have hz : t.val ≠ 0 := fun hz => h0 (by rw [hz])
      rw [PhiS1_castSucc V c t, PhiS1_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (nc0_of t h0) (nc1_of t h1) (iblk1 V c 0 t) (iblk1 V c 1 t) (iblk1 V c 2 t) (iblk1 V c 3 t) (iblk1 V c 4 t) (iblk1 V c 5 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the call (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class invariant back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

end Region1

end Cert.Kernel.Hand

end
-- ==== Proof.KRun.lean ====
import proofs.«101722_j472446402583_2_alg».proof.Proof.KReg0
import proofs.«101722_j472446402583_2_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the two calls, one after the other

The buffer contents at each boundary: as launched; after the projection call its three result arrays at what its
write-backs leave; after the attention call its result array at what its write-backs leave. Every other buffer is
carried through unchanged, so each argument array reaches the end as launched, and the result array ends at the
attention call's folded write-backs. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection call. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the attention call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 3).trans (((dat1 (V1 m ρ) c).arrAt_in 3 rfl _).trans (A_eq1 (V1 m ρ) c 3))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := (W2_arr m ρ c 4).trans (((dat1 (V1 m ρ) c).arrAt_in 4 rfl _).trans (A_eq1 (V1 m ρ) c 4))
    _ = W0 m ρ c (Proc.devRef .tc main_arg4) := W1_of_ne m ρ c main_arg4 (by decide)
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := (W2_arr m ρ c 5).trans (((dat1 (V1 m ρ) c).arrAt_in 5 rfl _).trans (A_eq1 (V1 m ρ) c 5))
    _ = W0 m ρ c (Proc.devRef .tc main_arg5) := W1_of_ne m ρ c main_arg5 (by decide)
    _ = m ((c : Thread nD τ).loc main_arg5) := rfl

/-- The result array ends at the attention call's folded write-backs. -/
theorem W2_main_v1 (c : Dev nD) : W2 m ρ c (Proc.devRef .tc main_v1) = (dat1 (V1 m ρ) c).arrAt 6 cfg1.N := W2_arr m ρ c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two calls as segments -/

set_option backward.isDefEq.respectTransparency.types false in
/-- The projection call: entered from every unscoped buffer as launched, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from `W1`, left at `W2`. Its three scratch buffers go into the call's invariant with
    the other scoped buffers and come back out at anything. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin1 (V1 m ρ) c
    rw [show (pdats m ρ 1 c).Φ 0 = (dat1 (V1 m ρ) c).Φ 0 from rfl]
    unfold Pipeline.ΦA at h1
    iintro ⟨Hp, -, Hr⟩
    iapply h1
    isplitl [Hr]; · iexact Hr
    iexact Hp
  hout c := by
    have h1 := hout1 (V1 m ρ) c
    rw [Pipeline.ownSems0_none, show (pdats m ρ 1 c).Φ (Fin.last _) = (dat1 (V1 m ρ) c).Φ (Fin.last cfg1.N) from rfl]
    unfold Pipeline.ΦA at h1
    exact h1.trans (by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- From any memory with zero counters every weakly fair execution of the two calls terminates, nothing faulting, and
    in every final state every unscoped buffer of every core holds the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c)⟩) (run_all m ρ)

/-- THE RUN WITH THE RESULT NAMED: the frame, and the result array at the attention call's folded write-backs. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c)⟩) (run_all m ρ)

end Cert.Kernel.Hand

end
-- ==== Proof.KIReg0.lean ====
import proofs.«101722_j472446402583_2_alg».proof.Proof.Gen.KernelIdeal.Launch
import proofs.«101722_j472446402583_2_alg».proof.Proof.Gen.KernelIdeal.Skeleton
import proofs.«101722_j472446402583_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection stage, point by point

The first stage of the layer runs on a grid of 4 × 2 points: point `(b, h)` sees rows `1024·h … 1024·h + 1023` of
batch `b` of `x` and of the mask, and the two bases `U`, `V` whole. It writes the same rows of three arrays: the gated
query projection, the gated key projection, and a copy of `x`. Everything is stated at a parameter `V`: the
contents of the core's arrays when the stage starts.

Each of the three results is written by one store that covers the window's whole block, so what the body leaves
in an output window is a function of the four input blocks alone (`out0_4`, `out0_5`, `out0_6`). The two bases
are brought in once, at the first point, and their block index never moves: their staging buffers hold the whole
base at every point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`: the part of its array, as the stage finds it, that the point sees. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, brought in there or not (where it
    is not, the block index has not moved since it was): for any proof data over the arrays `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The two bases: one block, the whole array, at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole block -/

abbrev r0_0 : Rect S1x1024x1024 := Rect.unit (s := S1x1024x1024) ![0, 0, 0] S1x1024x1024.size inb_S1x1024x1024_S1x1024x1024_0_0_0
abbrev r0_1 : Rect S1x1024x64 := Rect.unit (s := S1x1024x64) ![0, 0, 0] S1x1024x64.size inb_S1x1024x64_S1x1024x64_0_0_0
abbrev r0_2 : Rect S1024x64 := Rect.unit (s := S1024x64) ![0, 0] S1024x64.size inb_S1024x64_S1024x64_0_0

/-! ## What the body leaves in each output window -/

/-- The query projection's block: one store of the whole block, its value a function of the blocks of `x`, of the
    mask and of the first base. -/
def out0_4 (x0 : Vec F S1x1024x1024 .f32) (x1 : Vec F S1x1024x64 .f32) (x2 : Vec F S1024x64 .f32) (x3 : Vec F S1024x64 .f32) : Vec F S1x1024x64 .bf16 :=
  View.canon [⟨r0_1, k0_pay3 (View.ld x0 r0_0) (View.ld x1 r0_1) (View.ld x2 r0_2)⟩]

/-- The key projection's block: the same with the second base, and no rank factor. -/
def out0_5 (x0 : Vec F S1x1024x1024 .f32) (x1 : Vec F S1x1024x64 .f32) (x2 : Vec F S1024x64 .f32) (x3 : Vec F S1024x64 .f32) : Vec F S1x1024x64 .bf16 :=
  View.canon [⟨r0_1, k0_pay4 (View.ld x0 r0_0) (View.ld x1 r0_1) (View.ld x3 r0_2)⟩]

/-- The copy of `x`'s block, in the narrower format. -/
def out0_6 (x0 : Vec F S1x1024x1024 .f32) (x1 : Vec F S1x1024x64 .f32) (x2 : Vec F S1024x64 .f32) (x3 : Vec F S1024x64 .f32) : Vec F S1x1024x1024 .bf16 :=
  View.canon [⟨r0_0, k0_pay5 (View.ld x0 r0_0)⟩]

/-- One store of the whole block covers the block. -/
theorem cover0_4 (p0 : Vec F S1x1024x64 .bf16) (y : S1x1024x64.Idx) :
    ∃ pc ∈ ([⟨r0_1, p0⟩] : List (View.Piece (Elt F) S1x1024x64 .bf16)), y ∈ pc.1.set :=
  View.cover_of_tiled [⟨r0_1, p0⟩] S1x1024x64.size (by rfl) y
theorem cover0_6 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The body on whole staging buffers — the four inputs' at contents `x0 … x3`, the three outputs' at anything —
    ends with the inputs' as they were and each output's at its function of the inputs. -/
theorem sound_kernel0 (c : Dev nD) (E : Set ℕ) (i : grid0.Coords) (arg0 : Memref sig .tc .vmem S1x1024x1024 .f32) (harg0 : arg0.IsWhole) (arg1 : Memref sig .tc .vmem S1x1024x64 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x1024 .bf16) (harg6 : arg6.IsWhole)
    (x0 : Vec F S1x1024x1024 .f32) (x1 : Vec F S1x1024x64 .f32) (x2 : Vec F S1024x64 .f32) (x3 : Vec F S1024x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3) ∗ owns (c : Thread nD τ) arg5 fullShare (out0_5 x0 x1 x2 x3) ∗ owns (c : Thread nD τ) arg6 fullShare (out0_6 x0 x1 x2 x3)) -∗ K ⟨⟩))
      ⊢ wp frame (wpE (defs₀ (F := F)) Variants.none c none) E (cc0__project_kernel i arg0 harg0 arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_6 _)

/-! ## The stage's proof data -/

/-- The proof data of the stage on core `c`: the arrays as the stage finds them; after the body at point `t` each
    input's buffer still at its block and each output's at its function of the four input blocks; nothing else of
    the core is touched, nothing is owed, and every buffer is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the contents the stage starts from. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the rest of the
    core passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the stage, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIReg1Base.lean ====
import proofs.«101722_j472446402583_2_alg».proof.Proof.Gen.KernelIdeal.Launch
import proofs.«101722_j472446402583_2_alg».proof.Proof.Gen.KernelIdeal.Skeleton
import proofs.«101722_j472446402583_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call (the attention stage): what its runs share

The call visits the grid (batch, query tile, key tile) = 4 × 2 × 4 in row-major order, so a point `t` is at key
tile `t % 4`.  Three scratch buffers — the running numerator [1024, 1024], the running reference point [1024, 1]
and the running denominator [1024, 1] — are reset at key tile 0, updated at every key tile and read out at key
tile 3, where the output block is stored; at the other points the output's staging buffer is left alone and is
not written back. -/

section Region1

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- "This is the first key tile": the body's first `scf.if`, from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the body's second `scf.if`. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Off the last key tile the output's staging buffer is idle and is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last key tile it is live. -/
theorem liveAt1_6 : ∀ t : Fin cfg1.N, cond1_1 (grid1.coords t) → cfg1.idle 6 (grid1.coords t) = false := by decide +kernel

/-! ## The memrefs the body is called with -/

/-- One staging buffer of the output window, through which its contents are stated. -/
abbrev VO1_6 : View sig .tc .vmem S1x1024x1024 .f32 := (Memref.whole cc1_stg6_0 : Memref sig .tc .vmem S1x1024x1024 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1024 .f32 := win1_6.stage (cfg1.slots t 6)
abbrev hs1_6 (t : Fin cfg1.N) : (ms1_6 t).IsWhole := hstage1_6 ((cfg1.slots t 6).cast nbuf1_6)
/-- The three scratch buffers: whole scoped buffers of the call's own. -/
abbrev scM1_0 : Memref sig .tc .vmem S1024x1024 .f32 := Memref.whole cc1_scratch0
abbrev scM1_1 : Memref sig .tc .vmem S1024x1 .f32 := Memref.whole cc1_scratch1
abbrev scM1_2 : Memref sig .tc .vmem S1024x1 .f32 := Memref.whole cc1_scratch2
abbrev VS1_0 : View sig .tc .vmem S1024x1024 .f32 := scM1_0.view
abbrev VS1_1 : View sig .tc .vmem S1024x1 .f32 := scM1_1.view
abbrev VS1_2 : View sig .tc .vmem S1024x1 .f32 := scM1_2.view

/-- The scoped buffers of the core that are neither a staging buffer of this call nor its scratch (the first call's
    staging buffers), each at some contents: carried unopened. -/
abbrev others1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three scratch buffers split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]
  rfl

end Cert.KernelIdeal.Hand

end
-- ==== Proof.KIReg1RunA.lean ====
import proofs.«101722_j472446402583_2_alg».proof.Proof.KIReg1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage's body at the first key tile

What the body's stores leave in the output's staging buffer and in the three scratch buffers, as lists of written
pieces (last first), together with the proof that on whole memrefs — the six inputs at their contents, the output's handed back untouched, the scratch at anything (all three are stored whole before they are read) — the body runs to a
continuation holding the inputs as they were and each written buffer with its pieces written. The pieces are found
by running the body symbolically. -/

set_option maxHeartbeats 4000000 in
noncomputable def kernelRun1_A (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) :
    Σ' (L6 : List (View.Piece (Elt F) S1x1024x1024 .f32)) (LS0 : List (View.Piece (Elt F) S1024x1024 .f32)) (LS1 : List (View.Piece (Elt F) S1024x1 .f32)), { LS2 : List (View.Piece (Elt F) S1024x1 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.KIReg1RunB.lean ====
import proofs.«101722_j472446402583_2_alg».proof.Proof.KIReg1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage's body at a middle key tile

What the body's stores leave in the output's staging buffer and in the three scratch buffers, as lists of written
pieces (last first), together with the proof that on whole memrefs — the six inputs at their contents, the output's handed back untouched, the scratch at what the point before left — the body runs to a
continuation holding the inputs as they were and each written buffer with its pieces written. The pieces are found
by running the body symbolically. -/

set_option maxHeartbeats 4000000 in
noncomputable def kernelRun1_B (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    Σ' (L6 : List (View.Piece (Elt F) S1x1024x1024 .f32)) (LS0 : List (View.Piece (Elt F) S1024x1024 .f32)) (LS1 : List (View.Piece (Elt F) S1024x1 .f32)), { LS2 : List (View.Piece (Elt F) S1024x1 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.KIReg1RunC.lean ====
import proofs.«101722_j472446402583_2_alg».proof.Proof.KIReg1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage's body at the last key tile

What the body's stores leave in the output's staging buffer and in the three scratch buffers, as lists of written
pieces (last first), together with the proof that on whole memrefs — the six inputs at their contents, the output's at anything, the scratch at what the point before left — the body runs to a
continuation holding the inputs as they were and each written buffer with its pieces written. The pieces are found
by running the body symbolically. -/

set_option maxHeartbeats 4000000 in
noncomputable def kernelRun1_C (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    Σ' (L6 : List (View.Piece (Elt F) S1x1024x1024 .f32)) (LS0 : List (View.Piece (Elt F) S1024x1024 .f32)) (LS1 : List (View.Piece (Elt F) S1024x1 .f32)), { LS2 : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KIReg1.lean ====
import proofs.«101722_j472446402583_2_alg».proof.Proof.KIReg1RunA
import proofs.«101722_j472446402583_2_alg».proof.Proof.KIReg1RunB
import proofs.«101722_j472446402583_2_alg».proof.Proof.KIReg1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage: what its buffers hold point by point, its proof data and its body obligation -/

/-- The output block and the three scratch buffers after a point. -/
abbrev St1 : Type := Vec F S1x1024x1024 .f32 × Vec F S1024x1024 .f32 × Vec F S1024x1 .f32 × Vec F S1024x1 .f32

/-! ## Each case's stores cover the buffers they write -/

theorem scover1_A_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (y : S1024x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.1 S1024x1024.size (by sl_kernel_rfl) y

theorem scover1_A_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.1 S1024x1.size (by sl_kernel_rfl) y

theorem scover1_A_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.2.1 S1024x1.size (by sl_kernel_rfl) y

theorem scover1_B_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1024.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1024x1024.size (by sl_kernel_rfl) y

theorem scover1_B_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x1.size (by sl_kernel_rfl) y

theorem scover1_B_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x1.size (by sl_kernel_rfl) y

theorem scover1_C_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1024x1024.size (by sl_kernel_rfl) y

theorem scover1_C_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x1.size (by sl_kernel_rfl) y

theorem scover1_C_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x1.size (by sl_kernel_rfl) y

theorem cover1_C_6 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) (y : S1x1024x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1 S1x1024x1024.size (by sl_kernel_rfl) y

/-! ## The two conditions from a point's position -/

theorem c0_of (t : Fin cfg1.N) (h : t.val % 4 = 0) : cond1_0 (grid1.coords t) := (hcond1_0 t).mpr h
theorem nc0_of (t : Fin cfg1.N) (h : ¬t.val % 4 = 0) : ¬cond1_0 (grid1.coords t) := fun hc => h ((hcond1_0 t).mp hc)
theorem c1_of (t : Fin cfg1.N) (h : t.val % 4 = 3) : cond1_1 (grid1.coords t) := (hcond1_1 t).mpr h
theorem nc1_of (t : Fin cfg1.N) (h : ¬t.val % 4 = 3) : ¬cond1_1 (grid1.coords t) := fun hc => h ((hcond1_1 t).mp hc)
theorem nc1_of0 (t : Fin cfg1.N) (h : t.val % 4 = 0) : ¬cond1_1 (grid1.coords t) := fun hc => by
  have := (hcond1_1 t).mp hc; omega

section Region1

variable (V : (c : Dev nD) → (b : Ref sig .tc) → Buf (Elt F) ((c : Thread nD τ).loc b))

/-- What the body leaves at a point of this case: each buffer's pieces read back. -/
def leaves1_A (c : Dev nD) (t : Fin cfg1.N) (hc0 : cond1_0 (grid1.coords t)) (hc1 : ¬cond1_1 (grid1.coords t)) : St1 (F := F) :=
  (VO1_6.read (Elt F) (VO1_6.writes (Elt F) VO1_6.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)).2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)).2.2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t)).2.2.2.1))

/-- What the body leaves at a point of this case: each buffer's pieces read back. -/
def leaves1_B (c : Dev nD) (t : Fin cfg1.N) (hc0 : ¬cond1_0 (grid1.coords t)) (hc1 : ¬cond1_1 (grid1.coords t)) (p : St1 (F := F)) : St1 (F := F) :=
  (VO1_6.read (Elt F) (VO1_6.writes (Elt F) VO1_6.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.2.2.1))

/-- What the body leaves at a point of this case: each buffer's pieces read back. -/
def leaves1_C (c : Dev nD) (t : Fin cfg1.N) (hc0 : ¬cond1_0 (grid1.coords t)) (hc1 : cond1_1 (grid1.coords t)) (p : St1 (F := F)) : St1 (F := F) :=
  (VO1_6.read (Elt F) (VO1_6.writes (Elt F) VO1_6.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) (iblk1 V c 5 t) p.2.1 p.2.2.1 p.2.2.2).2.2.2.1))

/-- THE ACCUMULATION: what the output's staging buffer and the three scratch buffers hold after the body at position
    `n`: at a first key tile the reset-and-update, at a middle tile the update of what the point before left, at a last
    tile the update and the read-out. -/
def outsAt1 (c : Dev nD) : (n : ℕ) → n < cfg1.N → St1 (F := F)
  | 0, hn => leaves1_A V c ⟨0, hn⟩ (c0_of ⟨0, hn⟩ (Nat.zero_mod _)) (nc1_of0 ⟨0, hn⟩ (Nat.zero_mod _))
  | n + 1, hn =>
    if h0 : (n + 1) % 4 = 0 then
      leaves1_A V c ⟨n + 1, hn⟩ (c0_of ⟨n + 1, hn⟩ h0) (nc1_of0 ⟨n + 1, hn⟩ h0)
    else if h1 : (n + 1) % 4 = 3 then
      leaves1_C V c ⟨n + 1, hn⟩ (nc0_of ⟨n + 1, hn⟩ h0) (c1_of ⟨n + 1, hn⟩ h1) (outsAt1 c n (Nat.lt_of_succ_lt hn))
    else
      leaves1_B V c ⟨n + 1, hn⟩ (nc0_of ⟨n + 1, hn⟩ h0) (nc1_of ⟨n + 1, hn⟩ h1) (outsAt1 c n (Nat.lt_of_succ_lt hn))

theorem outsAt1_A (c : Dev nD) (t : Fin cfg1.N) (h0 : t.val % 4 = 0) :
    outsAt1 V c t.val t.isLt = leaves1_A V c t (c0_of t h0) (nc1_of0 t h0) := by
  obtain ⟨n, hn⟩ := t
  cases n with
  | zero => rfl
  | succ n => exact dif_pos h0

theorem outsAt1_B (c : Dev nD) (t : Fin cfg1.N) (h0 : ¬t.val % 4 = 0) (h1 : ¬t.val % 4 = 3) :
    outsAt1 V c t.val t.isLt = leaves1_B V c t (nc0_of t h0) (nc1_of t h1) (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans (dif_neg h1)

theorem outsAt1_C (c : Dev nD) (t : Fin cfg1.N) (h0 : ¬t.val % 4 = 0) (h1 : t.val % 4 = 3) :
    outsAt1 V c t.val t.isLt = leaves1_C V c t (nc0_of t h0) (c1_of t h1) (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans (dif_pos h1)

/-- The call's invariant before position `n`: before the first point the class's (every scratch at anything);
    afterwards the three scratch buffers at what the point before left in them, the other scoped buffers at anything
    and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ others1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ others1 c) ∗ (∃ r, prngReg c r)) := by
  cases n with
  | zero => exact absurd rfl hz
  | succ n => rfl

/-! ## The proof data -/

/-- The arrays as the call finds them; after the body each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the point's position says which case it is in; the
    invariant hands the body the three scratch buffers at what the point before left (at anything before the first
    point) and takes them back at this point's contents; off the last key tile the output's buffer is handed back as
    found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 4 = 0
  · skip
    rw [Dat.leavesExact_idle (dat1 V c) 6 t (idleAt1_6 t (nc1_of0 t h0)) (noFlush1_6 t (nc1_of0 t h0))]
    rw [outsAt1_A V c t h0]
    unfold leaves1_A; (try dsimp only)
    by_cases hz : t.val = 0
    · rw [PhiS1_castSucc V c t, PhiS1_zero V c _ _ hz, PhiA1_eq]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ (c0_of t h0) (nc1_of0 t h0) (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ (c0_of t h0) (nc1_of0 t h0) (iblk1 V c 0 t) (iblk1 V c 1 t) (iblk1 V c 2 t) (iblk1 V c 3 t) (iblk1 V c 4 t) (iblk1 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 4 = 3
    · skip
      rw [show (dat1 V c).leavesExact 6 t = owns (c : Thread nD τ) (ms1_6 t) fullShare ((dat1 V c).after 6 t) from by
        unfold Dat.leavesExact; rw [liveAt1_6 t (c1_of t h1)], after1_6]
      rw [outsAt1_C V c t h0 h1]
      unfold leaves1_C; (try dsimp only)
      have hz : t.val ≠ 0 := fun hz => h0 (by rw [hz])
      rw [PhiS1_castSucc V c t, PhiS1_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (nc0_of t h0) (c1_of t h1) (iblk1 V c 0 t) (iblk1 V c 1 t) (iblk1 V c 2 t) (iblk1 V c 3 t) (iblk1 V c 4 t) (iblk1 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _ _ _)
    · skip
      rw [Dat.leavesExact_idle (dat1 V c) 6 t (idleAt1_6 t (nc1_of t h1)) (noFlush1_6 t (nc1_of t h1))]
      rw [outsAt1_B V c t h0 h1]
      unfold leaves1_B; (try dsimp only)
      have hz : t.val ≠ 0 := fun hz => h0 (by rw [hz])
      rw [PhiS1_castSucc V c t, PhiS1_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (nc0_of t h0) (nc1_of t h1) (iblk1 V c 0 t) (iblk1 V c 1 t) (iblk1 V c 2 t) (iblk1 V c 3 t) (iblk1 V c 4 t) (iblk1 V c 5 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands the call (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class invariant back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

end Region1

end Cert.KernelIdeal.Hand

end
-- ==== Proof.KIRun.lean ====
import proofs.«101722_j472446402583_2_alg».proof.Proof.KIReg0
import proofs.«101722_j472446402583_2_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the two calls, one after the other

The buffer contents at each boundary: as launched; after the projection call its three result arrays at what its
write-backs leave; after the attention call its result array at what its write-backs leave. Every other buffer is
carried through unchanged, so each argument array reaches the end as launched, and the result array ends at the
attention call's folded write-backs. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection call. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the attention call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 3).trans (((dat1 (V1 m ρ) c).arrAt_in 3 rfl _).trans (A_eq1 (V1 m ρ) c 3))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := (W2_arr m ρ c 4).trans (((dat1 (V1 m ρ) c).arrAt_in 4 rfl _).trans (A_eq1 (V1 m ρ) c 4))
    _ = W0 m ρ c (Proc.devRef .tc main_arg4) := W1_of_ne m ρ c main_arg4 (by decide)
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := (W2_arr m ρ c 5).trans (((dat1 (V1 m ρ) c).arrAt_in 5 rfl _).trans (A_eq1 (V1 m ρ) c 5))
    _ = W0 m ρ c (Proc.devRef .tc main_arg5) := W1_of_ne m ρ c main_arg5 (by decide)
    _ = m ((c : Thread nD τ).loc main_arg5) := rfl

/-- The result array ends at the attention call's folded write-backs. -/
theorem W2_main_v1 (c : Dev nD) : W2 m ρ c (Proc.devRef .tc main_v1) = (dat1 (V1 m ρ) c).arrAt 6 cfg1.N := W2_arr m ρ c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two calls as segments -/

set_option backward.isDefEq.respectTransparency.types false in
/-- The projection call: entered from every unscoped buffer as launched, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from `W1`, left at `W2`. Its three scratch buffers go into the call's invariant with
    the other scoped buffers and come back out at anything. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin1 (V1 m ρ) c
    rw [show (pdats m ρ 1 c).Φ 0 = (dat1 (V1 m ρ) c).Φ 0 from rfl]
    unfold Pipeline.ΦA at h1
    iintro ⟨Hp, -, Hr⟩
    iapply h1
    isplitl [Hr]; · iexact Hr
    iexact Hp
  hout c := by
    have h1 := hout1 (V1 m ρ) c
    rw [Pipeline.ownSems0_none, show (pdats m ρ 1 c).Φ (Fin.last _) = (dat1 (V1 m ρ) c).Φ (Fin.last cfg1.N) from rfl]
    unfold Pipeline.ΦA at h1
    exact h1.trans (by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- From any memory with zero counters every weakly fair execution of the two calls terminates, nothing faulting, and
    in every final state every unscoped buffer of every core holds the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c)⟩) (run_all m ρ)

/-- THE RUN WITH THE RESULT NAMED: the frame, and the result array at the attention call's folded write-backs. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c)⟩) (run_all m ρ)

end Cert.KernelIdeal.Hand

end
-- ==== Proof.AttnSpec.lean ====
import Mathlib
import Idealize.ShloMosaic.PureOps.Ideal
import Idealize.ShloMosaic.Lib.ValueIdx

/-!
# What the two-stage low-rank attention layer computes, index by index, over the extended reals

Inputs: `x : [4, 2048, 1024]`, a soft mask `mask : [4, 2048, 64]`, two bases `U V : [1024, 64]`, and the
layer-norm scale and shift `γ β : [1024]`.

Stage one, per batch `b` and token `n`: the effective rank `reff = max (∑ᵣ mask[b,n,r]) 1`; the gated projections
`qk[b,n,r] = ((∑_d x[b,n,d]·U[d,r]) · mask[b,n,r]) · reff^(-1/2)` and `kk[b,n,r] = (∑_d x[b,n,d]·V[d,r]) · mask[b,n,r]`.

Stage two, per batch `b` and query `q`: the scores `sc = ∑ᵣ qk[b,q,r]·kk[b,k,r]` against the 2048 keys, met in four
tiles of 512 keys; a running reference point `mE` (from a finite start, raised to each tile's maximum), a running
denominator `lE` and, per feature `d`, a running numerator `aE`, both rescaled by `exp (old point − new point)` at each
tile; then the row `y[d] = x[b,q,d] + aE[d] / lE` is normalised: centred at its mean, scaled by
`(variance + ε)^(-1/2)`, multiplied by `γ` and shifted by `β`.
-/

noncomputable section

namespace Attn

open Idealize.ShloMosaic Idealize.ShloMosaic.ValueIdx Finset

abbrev ArrX : Type := (⟨3, ![4, 2048, 1024]⟩ : Shape).Idx → EReal
abbrev ArrM : Type := (⟨3, ![4, 2048, 64]⟩ : Shape).Idx → EReal
abbrev ArrW : Type := (⟨2, ![1024, 64]⟩ : Shape).Idx → EReal
abbrev ArrG : Type := (⟨1, ![1024]⟩ : Shape).Idx → EReal

/-- The constants, as the binary32 patterns denote them: `1`, the finite start of the running reference point
    (about `-2.38e38`), `-∞` (the seed of a tile's maximum), `1024`, and the layer norm's `ε`. -/
def one : EReal := Ideal.ofBits .f32 0x3F800000#32
def negBig : EReal := Ideal.ofBits .f32 0xFF333332#32
def negInf : EReal := Ideal.ofBits .f32 0xFF800000#32
def nCols : EReal := Ideal.ofBits .f32 0x44800000#32
def eps : EReal := Ideal.ofBits .f32 0x3727C5AC#32

/-- The effective rank of a token, clamped below at one. -/
def reff (mask : ArrM) (b : Fin 4) (n : Fin 2048) : EReal := max (∑ r : Fin 64, mask (ix3 b n r)) one

/-- The gated query projection, already divided by the square root of the effective rank. -/
def qk (x : ArrX) (mask : ArrM) (U : ArrW) (b : Fin 4) (n : Fin 2048) (r : Fin 64) : EReal :=
  ((∑ d : Fin 1024, x (ix3 b n d) * U (ix2 d r)) * mask (ix3 b n r)) * Ideal.rsqrt (reff mask b n)

/-- The gated key projection. -/
def kk (x : ArrX) (mask : ArrM) (V : ArrW) (b : Fin 4) (n : Fin 2048) (r : Fin 64) : EReal :=
  (∑ d : Fin 1024, x (ix3 b n d) * V (ix2 d r)) * mask (ix3 b n r)

/-- The key at position `j` of tile `t` (tiles are counted modulo four so that the function is total). -/
def key (t : ℕ) (j : Fin 512) : Fin 2048 :=
  ⟨(t % 4) * 512 + j.val, by have := j.isLt; have := Nat.mod_lt t (by norm_num : 0 < 4); omega⟩

section Row

variable (x : ArrX) (mask : ArrM) (U V : ArrW) (b : Fin 4) (q : Fin 2048)

/-- The score of query `q` against the key at position `j` of tile `t`. -/
def sc (t : ℕ) (j : Fin 512) : EReal := ∑ r : Fin 64, qk x mask U b q r * kk x mask V b (key t j) r

/-- The running reference point: from the finite start, raised at each tile to the tile's maximum. -/
def mE : ℕ → EReal
  | 0 => negBig
  | t + 1 => max (mE t) (univ.fold max negInf (sc x mask U V b q t))

/-- The running denominator. -/
def lE : ℕ → EReal
  | 0 => 0
  | t + 1 => Ideal.exp (mE x mask U V b q t - mE x mask U V b q (t + 1)) * lE t
      + ∑ j : Fin 512, Ideal.exp (sc x mask U V b q t j - mE x mask U V b q (t + 1))

/-- The running numerator of feature `d`. -/
def aE (d : Fin 1024) : ℕ → EReal
  | 0 => 0
  | t + 1 => Ideal.exp (mE x mask U V b q t - mE x mask U V b q (t + 1)) * aE d t
      + ∑ j : Fin 512, Ideal.exp (sc x mask U V b q t j - mE x mask U V b q (t + 1)) * x (ix3 b (key t j) d)

/-- The residual row before normalisation. -/
def yrow (d : Fin 1024) : EReal :=
  x (ix3 b q d) + Ideal.div (aE x mask U V b q d 4) (lE x mask U V b q 4)

end Row

/-- Layer normalisation of one row of 1024 features. -/
def lnRow (γ β : ArrG) (y : Fin 1024 → EReal) (d : Fin 1024) : EReal :=
  ((y d - Ideal.div (∑ d' : Fin 1024, y d') nCols)
      * Ideal.rsqrt (Ideal.div (∑ d' : Fin 1024, (y d' - Ideal.div (∑ e : Fin 1024, y e) nCols)
          * (y d' - Ideal.div (∑ e : Fin 1024, y e) nCols)) nCols + eps))
    * γ (ix1 d) + β (ix1 d)

/-- The layer's result. -/
def kout (x : ArrX) (mask : ArrM) (U V : ArrW) (γ β : ArrG) : ArrX :=
  fun i => lnRow γ β (fun d => yrow x mask U V (i 0) (i 1) d) (i 2)

end Attn

end
-- ==== Proof.KIPay0.lean ====
import proofs.«101722_j472446402583_2_alg».proof.Proof.Gen.KernelIdeal.Skeleton
import proofs.«101722_j472446402583_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

/-!
# The projection stage's stored values, index by index, over the extended reals

What one grid point of the first stage stores, as functions of the blocks it loads: for a row `p` of the block and
a rank coordinate `r`, the query value is `((∑_d x[p,d]·U[d,r]) · mask[p,r]) · (max (∑_r' mask[p,r']) 1)^(-1/2)`,
the key value is `(∑_d x[p,d]·V[d,r]) · mask[p,r]`, and the copy of `x` is `x[p,d]`: over the extended reals a
change of number format is the identity, a matrix product into a zero accumulator is the plain sum of products,
and a lane sum is the plain sum.
-/

noncomputable section

namespace Cert.KernelIdeal.Hand

open Cert.KernelIdeal Cert.KernelIdeal.Gen
open Idealize.ShloMosaic Idealize.ShloMosaic.ValueIdx Finset

/-! ## Layout steps a row-wise sum with a kept axis needs -/

/-- A vector of length `a` seen as a column `[a, 1]`: entry `(i, 0)` is entry `i`. -/
theorem r0_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes: entry `(i, c)` is the column's entry `(i, 0)`. -/
theorem r0_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The pieces of a payload -/

/-- The block of the mask (or of `x`) with its leading unit axis dropped. -/
theorem k0_pay1_apply (x1 : Vec Ideal S1x1024x64 .f32) (p : Fin 1024) (r : Fin 64) :
    k0_pay1 (F := Ideal) x1 (ix2 p r) = x1 (ix3 (0 : Fin 1) p r) := by
  unfold k0_pay1
  exact shapeCast_1ab_ab_apply x1 _ p r

theorem k0_pay2_apply (x0 : Vec Ideal S1x1024x1024 .f32) (p : Fin 1024) (d : Fin 1024) :
    k0_pay2 (F := Ideal) x0 (ix2 p d) = x0 (ix3 (0 : Fin 1) p d) := by
  unfold k0_pay2
  exact shapeCast_1ab_ab_apply x0 _ p d

/-- A matrix product `[1024, 1024] × [1024, 64]` into the zero accumulator: the sum of products over the shared axis. -/
theorem k0_mm_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem k0_mm_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem k0_mm_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem k0_mm_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

theorem k0_mm_apply (a : FVec Ideal S1024x1024 .bf16) (b : FVec Ideal S1024x64 .bf16) (p : Fin 1024) (r : Fin 64) :
    matmul dot_S1024x1024_S1024x64_S1024x64_1_0_0_1_n_n none a b (constant (F := Ideal) S1024x64 .f32 0x00000000#32) (ix2 p r)
      = ∑ d : Fin 1024, a (ix2 p d) * b (ix2 d r) := by
  refine (Ideal.matmul_constant_zero_apply dot_S1024x1024_S1024x64_S1024x64_1_0_0_1_n_n none a b (ix2 p r)).trans ?_
  rw [← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p r) ((ValueIdx.contrEquiv1 dot_S1024x1024_S1024x64_S1024x64_1_0_0_1_n_n 1024 rfl rfl).symm k) = ix2 p k := funext fun ax => Fin.ext (by
    match ax with
    | ⟨0, _⟩ => exact k0_mm_lhs_0 _ _
    | ⟨1, _⟩ => exact (k0_mm_lhs_1 _ _).trans hk)
  have er : dot_S1024x1024_S1024x64_S1024x64_1_0_0_1_n_n.rhsIdx (ix2 p r) ((ValueIdx.contrEquiv1 dot_S1024x1024_S1024x64_S1024x64_1_0_0_1_n_n 1024 rfl rfl).symm k) = ix2 k r := funext fun ax => Fin.ext (by
    match ax with
    | ⟨0, _⟩ => exact (k0_mm_rhs_0 _ _).trans hk
    | ⟨1, _⟩ => exact k0_mm_rhs_1 _ _)
  rw [el, er]

/-- The sum over the 64 lanes of a `[1024, 64]` block, seeded with zero. -/
theorem k0_lanesum_apply (v : FVec Ideal S1024x64 .f32) (hacc : (0x00000000#32 : BitVec 32) = 0x00000000#32) (p : Fin 1024) :
    multiReduction .add [1] S1024 v 0x00000000#32 reduces_S1024x64_S1024 (.inl rfl) hacc (ix1 p) = ∑ r : Fin 64, v (ix2 p r) := by
  refine (Ideal.multiReduction_add_single v 0x00000000#32 reduces_S1024x64_S1024 (.inl rfl) hacc (ix1 p)).trans ?_
  refine Finset.sum_congr rfl fun k _ => congrArg v (funext fun ax => Fin.ext ?_)
  match ax with
  | ⟨0, _⟩ => rfl
  | ⟨1, _⟩ => rfl

/-- The reciprocal square root of the clamped lane sum of the mask's row, spread over the 64 lanes. -/
theorem k0_rnorm_apply (x1 : Vec Ideal S1x1024x64 .f32) (p : Fin 1024) (r : Fin 64) :
    broadcastTo S1024x64 (rsqrt (maximumf (shapeCast S1024x1 (multiReduction .add [1] S1024 (k0_pay1 (F := Ideal) x1) 0x00000000#32 reduces_S1024x64_S1024 (.inl rfl) rfl) shapeCasts_S1024_S1024x1) (broadcast S1024x1 (Scalar.ofBits (F := Ideal) .f32 0x3F800000#32)))) broadcasts_S1024x1_S1024x64 (ix2 p r)
      = Ideal.rsqrt (max (∑ r' : Fin 64, x1 (ix3 (0 : Fin 1) p r')) Attn.one) := by
  refine (r0_broadcastTo_a1_ab_apply _ _ p r).trans ?_
  show Ideal.rsqrt (max (shapeCast S1024x1 _ shapeCasts_S1024_S1024x1 (ix2 p (0 : Fin 1))) (Ideal.ofBits .f32 0x3F800000#32)) = _
  refine congrArg (fun z => Ideal.rsqrt (max z Attn.one)) ?_
  refine (r0_shapeCast_a_a1_apply _ _ p 0).trans ?_
  refine (k0_lanesum_apply _ rfl p).trans ?_
  exact Finset.sum_congr rfl fun r' _ => k0_pay1_apply x1 p r'

/-- The projection of row `p` on a base, before gating. -/
theorem k0_proj_apply (x0 : Vec Ideal S1x1024x1024 .f32) (w : Vec Ideal S1024x64 .f32) (p : Fin 1024) (r : Fin 64) :
    matmul dot_S1024x1024_S1024x64_S1024x64_1_0_0_1_n_n none (k0_pay2 (F := Ideal) x0) (truncf .bf16 w bitsLt_bf16_f32) (constant (F := Ideal) S1024x64 .f32 0x00000000#32) (ix2 p r)
      = ∑ d : Fin 1024, x0 (ix3 (0 : Fin 1) p d) * w (ix2 d r) := by
  refine (k0_mm_apply _ _ p r).trans ?_
  exact Finset.sum_congr rfl fun d _ => congrArg (· * w (ix2 d r)) (k0_pay2_apply x0 p d)

/-! ## The three stored values -/

/-- The query value at row `p`, rank coordinate `r`. -/
theorem k0_pay3_apply (x0 : Vec Ideal S1x1024x1024 .f32) (x1 : Vec Ideal S1x1024x64 .f32) (x2 : Vec Ideal S1024x64 .f32)
    (u : Fin 1) (p : Fin 1024) (r : Fin 64) :
    k0_pay3 (F := Ideal) x0 x1 x2 (ix3 u p r)
      = ((∑ d : Fin 1024, x0 (ix3 (0 : Fin 1) p d) * x2 (ix2 d r)) * x1 (ix3 (0 : Fin 1) p r))
          * Ideal.rsqrt (max (∑ r' : Fin 64, x1 (ix3 (0 : Fin 1) p r')) Attn.one) := by
  unfold k0_pay3
  refine (shapeCast_ab_1ab_apply _ _ u p r).trans ?_
  show (matmul dot_S1024x1024_S1024x64_S1024x64_1_0_0_1_n_n none (k0_pay2 (F := Ideal) x0) (truncf .bf16 x2 bitsLt_bf16_f32) (constant (F := Ideal) S1024x64 .f32 0x00000000#32) (ix2 p r) * k0_pay1 (F := Ideal) x1 (ix2 p r))
      * (broadcastTo S1024x64 _ broadcasts_S1024x1_S1024x64 (ix2 p r)) = _
  rw [k0_proj_apply x0 x2 p r, k0_pay1_apply x1 p r, k0_rnorm_apply x1 p r]

/-- The key value at row `p`, rank coordinate `r`. -/
theorem k0_pay4_apply (x0 : Vec Ideal S1x1024x1024 .f32) (x1 : Vec Ideal S1x1024x64 .f32) (x3 : Vec Ideal S1024x64 .f32)
    (u : Fin 1) (p : Fin 1024) (r : Fin 64) :
    k0_pay4 (F := Ideal) x0 x1 x3 (ix3 u p r)
      = (∑ d : Fin 1024, x0 (ix3 (0 : Fin 1) p d) * x3 (ix2 d r)) * x1 (ix3 (0 : Fin 1) p r) := by
  unfold k0_pay4
  refine (shapeCast_ab_1ab_apply _ _ u p r).trans ?_
  show matmul dot_S1024x1024_S1024x64_S1024x64_1_0_0_1_n_n none (k0_pay2 (F := Ideal) x0) (truncf .bf16 x3 bitsLt_bf16_f32) (constant (F := Ideal) S1024x64 .f32 0x00000000#32) (ix2 p r) * k0_pay1 (F := Ideal) x1 (ix2 p r) = _
  rw [k0_proj_apply x0 x3 p r, k0_pay1_apply x1 p r]

/-- The copied value of `x` at row `p`, feature `d`. -/
theorem k0_pay5_apply (x0 : Vec Ideal S1x1024x1024 .f32) (u : Fin 1) (p : Fin 1024) (d : Fin 1024) :
    k0_pay5 (F := Ideal) x0 (ix3 u p d) = x0 (ix3 (0 : Fin 1) p d) := by
  unfold k0_pay5
  refine (shapeCast_ab_1ab_apply _ _ u p d).trans ?_
  exact k0_pay2_apply x0 p d

/-! ## The same, against whole arrays the blocks are parts of -/

/-- If row `p` of the blocks is row `n` of batch `b` of the arrays, the stored query value is the specification's. -/
theorem k0_pay3_at (X : Attn.ArrX) (M : Attn.ArrM) (W : Attn.ArrW)
    (x0 : Vec Ideal S1x1024x1024 .f32) (x1 : Vec Ideal S1x1024x64 .f32) (x2 : Vec Ideal S1024x64 .f32)
    (b : Fin 4) (n : Fin 2048) (p : Fin 1024)
    (h0 : ∀ d : Fin 1024, x0 (ix3 (0 : Fin 1) p d) = X (ix3 b n d))
    (h1 : ∀ r : Fin 64, x1 (ix3 (0 : Fin 1) p r) = M (ix3 b n r))
    (h2 : ∀ (d : Fin 1024) (r : Fin 64), x2 (ix2 d r) = W (ix2 d r)) (u : Fin 1) (r : Fin 64) :
    k0_pay3 (F := Ideal) x0 x1 x2 (ix3 u p r) = Attn.qk X M W b n r := by
  rw [k0_pay3_apply x0 x1 x2 u p r]
  unfold Attn.qk Attn.reff
  simp only [h0, h1, h2]

theorem k0_pay4_at (X : Attn.ArrX) (M : Attn.ArrM) (W : Attn.ArrW)
    (x0 : Vec Ideal S1x1024x1024 .f32) (x1 : Vec Ideal S1x1024x64 .f32) (x3 : Vec Ideal S1024x64 .f32)
    (b : Fin 4) (n : Fin 2048) (p : Fin 1024)
    (h0 : ∀ d : Fin 1024, x0 (ix3 (0 : Fin 1) p d) = X (ix3 b n d))
    (h1 : ∀ r : Fin 64, x1 (ix3 (0 : Fin 1) p r) = M (ix3 b n r))
    (h3 : ∀ (d : Fin 1024) (r : Fin 64), x3 (ix2 d r) = W (ix2 d r)) (u : Fin 1) (r : Fin 64) :
    k0_pay4 (F := Ideal) x0 x1 x3 (ix3 u p r) = Attn.kk X M W b n r := by
  rw [k0_pay4_apply x0 x1 x3 u p r]
  unfold Attn.kk
  simp only [h0, h1, h3]

theorem k0_pay5_at (X : Attn.ArrX) (x0 : Vec Ideal S1x1024x1024 .f32) (b : Fin 4) (n : Fin 2048) (p : Fin 1024)
    (h0 : ∀ d : Fin 1024, x0 (ix3 (0 : Fin 1) p d) = X (ix3 b n d)) (u : Fin 1) (d : Fin 1024) :
    k0_pay5 (F := Ideal) x0 (ix3 u p d) = X (ix3 b n d) :=
  (k0_pay5_apply x0 u p d).trans (h0 d)

end Cert.KernelIdeal.Hand

end
-- ==== Proof.KIVal0.lean ====
import proofs.«101722_j472446402583_2_alg».proof.Proof.KIReg0
import proofs.«101722_j472446402583_2_alg».proof.Proof.KIPay0
import proofs.«101722_j472446402583_2_alg».proof.Proof.AttnSpec
import Idealize.ShloMosaic.Lib.Pipeline.Value
import Idealize.ShloMosaic.Lib.Tactic

/-!
# What the projection stage leaves in its three result arrays, over the extended reals

Grid point `t` of the first stage (of 8) works on batch `t / 2` and on rows `1024·(t % 2) … 1024·(t % 2) + 1023`: it
reads those rows of `x` and of the mask and the two bases whole, and writes the same rows of the three results. The
eight blocks tile each result array, so after the stage each array is one function of the arrays the stage started
from: the gated, rank-normalised query projection; the gated key projection; and `x` itself.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section Value0

variable (V : (c : Dev nD) → (b : Ref sig .tc) → Buf (Elt Ideal) ((c : Thread nD τ).loc b))

theorem hz3_0 : (![0, 0, 0] : Fin 3 → Nat) = fun _ => 0 := funext fun a => by fin_cases a <;> rfl
theorem hz2_0 : (![0, 0] : Fin 2 → Nat) = fun _ => 0 := funext fun a => by fin_cases a <;> rfl

/-! ## Which block each point sees -/

/-- The block indices, decided over the eight points: the row-blocked windows sit at batch `t / 2`, half `t % 2`;
    the two bases never move. -/
theorem idx_facts0 : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val / 2 ∧ win0_4.index t (1 : Fin 3) = t.val % 2 ∧ win0_4.index t (2 : Fin 3) = 0)
    ∧ (win0_5.index t (0 : Fin 3) = t.val / 2 ∧ win0_5.index t (1 : Fin 3) = t.val % 2 ∧ win0_5.index t (2 : Fin 3) = 0)
    ∧ (win0_6.index t (0 : Fin 3) = t.val / 2 ∧ win0_6.index t (1 : Fin 3) = t.val % 2 ∧ win0_6.index t (2 : Fin 3) = 0) :=
  (by decide +kernel : ∀ t : Fin grid0.N, _)

/-- The batch point `t` works on, -/
def bat0 (t : Fin cfg0.N) : Fin 4 := ⟨t.val / 2, by have := t.isLt; have hN : cfg0.N = 8 := N_0; omega⟩
/-- and the row of the whole array that row `p` of its block is. -/
def row0 (t : Fin cfg0.N) (p : Fin 1024) : Fin 2048 := ⟨t.val % 2 * 1024 + p.val, by have := p.isLt; omega⟩

/-! ## The input blocks as parts of the arrays -/

theorem read0_0 (c : Dev nD) (t : Fin cfg0.N) (p : Fin 1024) (d : Fin 1024) :
    (iblk0 V c 0 t : Vec Ideal S1x1024x1024 .f32) (ix3 (0 : Fin 1) p d) = (V c main_arg0 : Attn.ArrX) (ix3 (bat0 t) (row0 t p) d) := by
  obtain ⟨⟨e0, e1, e2⟩, -⟩ := idx_facts0 t
  show V c main_arg0 (((cfg0.win 0).blk t).view.emb (ix3 (0 : Fin 1) p d)) = V c main_arg0 _
  refine congrArg (V c main_arg0) (funext fun a => Fin.ext ?_)
  match a with
  | ⟨0, _⟩ => show win0_0.index t (0 : Fin 3) * 1 + 1 * 0 = t.val / 2; omega
  | ⟨1, _⟩ => show win0_0.index t (1 : Fin 3) * 1024 + 1 * p.val = t.val % 2 * 1024 + p.val; omega
  | ⟨2, _⟩ => show win0_0.index t (2 : Fin 3) * 1024 + 1 * d.val = d.val; omega

theorem read0_1 (c : Dev nD) (t : Fin cfg0.N) (p : Fin 1024) (r : Fin 64) :
    (iblk0 V c 1 t : Vec Ideal S1x1024x64 .f32) (ix3 (0 : Fin 1) p r) = (V c main_arg1 : Attn.ArrM) (ix3 (bat0 t) (row0 t p) r) := by
  obtain ⟨-, ⟨e0, e1, e2⟩, -⟩ := idx_facts0 t
  show V c main_arg1 (((cfg0.win 1).blk t).view.emb (ix3 (0 : Fin 1) p r)) = V c main_arg1 _
  refine congrArg (V c main_arg1) (funext fun a => Fin.ext ?_)
  match a with
  | ⟨0, _⟩ => show win0_1.index t (0 : Fin 3) * 1 + 1 * 0 = t.val / 2; omega
  | ⟨1, _⟩ => show win0_1.index t (1 : Fin 3) * 1024 + 1 * p.val = t.val % 2 * 1024 + p.val; omega
  | ⟨2, _⟩ => show win0_1.index t (2 : Fin 3) * 64 + 1 * r.val = r.val; omega

theorem read0_2 (c : Dev nD) (t : Fin cfg0.N) (d : Fin 1024) (r : Fin 64) :
    (iblk0 V c 2 t : Vec Ideal S1024x64 .f32) (ix2 d r) = (V c main_arg2 : Attn.ArrW) (ix2 d r) := by
  obtain ⟨-, -, ⟨e0, e1⟩, -⟩ := idx_facts0 t
  show V c main_arg2 (((cfg0.win 2).blk t).view.emb (ix2 d r)) = V c main_arg2 _
  refine congrArg (V c main_arg2) (funext fun a => Fin.ext ?_)
  match a with
  | ⟨0, _⟩ => show win0_2.index t (0 : Fin 2) * 1024 + 1 * d.val = d.val; omega
  | ⟨1, _⟩ => show win0_2.index t (1 : Fin 2) * 64 + 1 * r.val = r.val; omega

theorem read0_3 (c : Dev nD) (t : Fin cfg0.N) (d : Fin 1024) (r : Fin 64) :
    (iblk0 V c 3 t : Vec Ideal S1024x64 .f32) (ix2 d r) = (V c main_arg3 : Attn.ArrW) (ix2 d r) := by
  obtain ⟨-, -, -, ⟨e0, e1⟩, -⟩ := idx_facts0 t
  show V c main_arg3 (((cfg0.win 3).blk t).view.emb (ix2 d r)) = V c main_arg3 _
  refine congrArg (V c main_arg3) (funext fun a => Fin.ext ?_)
  match a with
  | ⟨0, _⟩ => show win0_3.index t (0 : Fin 2) * 1024 + 1 * d.val = d.val; omega
  | ⟨1, _⟩ => show win0_3.index t (1 : Fin 2) * 64 + 1 * r.val = r.val; omega

/-! ## Result window 4 -/

/-- Row `p` of point `t`'s block of the result is row `row0 t p` of batch `bat0 t` of the array. -/
theorem emb0_4 (t : Fin cfg0.N) (u : Fin 1) (p : Fin 1024) (r : Fin 64) :
    ((cfg0.win 4).blk t).view.emb (ix3 u p r) = (ix3 (bat0 t) (row0 t p) r : S4x2048x64.Idx) := by
  obtain ⟨-, -, -, -, ⟨e0, e1, e2⟩, -⟩ := idx_facts0 t
  have hu : u.val = 0 := by omega
  refine funext fun a => Fin.ext ?_
  match a with
  | ⟨0, _⟩ => show win0_4.index t (0 : Fin 3) * 1 + 1 * u.val = t.val / 2; omega
  | ⟨1, _⟩ => show win0_4.index t (1 : Fin 3) * 1024 + 1 * p.val = t.val % 2 * 1024 + p.val; omega
  | ⟨2, _⟩ => show win0_4.index t (2 : Fin 3) * 64 + 1 * r.val = r.val; omega

/-- What point `t` writes back is its block of the one whole-array function. -/
theorem flushed0_4_eq (c : Dev nD) (t : Fin cfg0.N) :
    (dat0 (F := Ideal) V c).flushed 4 t = ((cfg0.win 4).blk t).view.read (Elt Ideal) (fun i : S4x2048x64.Idx => Attn.qk (V c main_arg0) (V c main_arg1) (V c main_arg2) (i 0) (i 1) (i 2)) := by
  show (cfg0.win 4).cut (grid0.coords t) ((dat0 V c).after 4 t) = _
  rw [after0_4]
  unfold out0_4
  rw [View.canon_unit_zero hz3_0]
  simp only [View.ld_unit_zero (S := S1x1024x1024) hz3_0, View.ld_unit_zero (S := S1x1024x64) hz3_0, View.ld_unit_zero (S := S1024x64) hz2_0]
  refine funext fun (j : S1x1024x64.Idx) => ?_
  obtain ⟨u, p, r, rfl⟩ : ∃ (u : Fin 1) (p : Fin 1024) (r : Fin 64), j = ix3 u p r := ⟨j 0, j 1, j 2, eq_ix3 j⟩
  show k0_pay3 (F := Ideal) (iblk0 V c 0 t) (iblk0 V c 1 t) (iblk0 V c 2 t) (ix3 u p r) = (fun i : S4x2048x64.Idx => Attn.qk (V c main_arg0) (V c main_arg1) (V c main_arg2) (i 0) (i 1) (i 2)) (((cfg0.win 4).blk t).view.emb (ix3 u p r))
  rw [emb0_4 t u p r]
  exact k0_pay3_at (V c main_arg0) (V c main_arg1) (V c main_arg2) (iblk0 V c 0 t) (iblk0 V c 1 t) (iblk0 V c 2 t) (bat0 t) (row0 t p) p (read0_0 V c t p) (read0_1 V c t p) (read0_2 V c t) u r

/-- An index is in point `t`'s block iff each coordinate is in the block's range. -/
theorem mem_blk0_4 (t : Fin cfg0.N) (i : S4x2048x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v0_0).slice (win0_4.rect t)).set ↔ _
  rw [View.set_slice_whole, Rect.mem_set_unit]
  exact Iff.rfl

/-- Every index of the array is in the block of the point of its batch and half. -/
theorem tiles0_4 (i : S4x2048x64.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 64 := (i 2).isLt
  have hN : cfg0.N = 8 := N_0
  obtain ⟨t, ht⟩ : ∃ t : Fin cfg0.N, t.val = (i 0).val * 2 + (i 1).val / 1024 := ⟨⟨(i 0).val * 2 + (i 1).val / 1024, by omega⟩, rfl⟩
  refine ⟨t, flush0_4 t, ?_⟩
  rw [mem_blk0_4]
  obtain ⟨-, -, -, -, ⟨e0, e1, e2⟩, -⟩ := idx_facts0 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-! ## Result window 5 -/

/-- Row `p` of point `t`'s block of the result is row `row0 t p` of batch `bat0 t` of the array. -/
theorem emb0_5 (t : Fin cfg0.N) (u : Fin 1) (p : Fin 1024) (r : Fin 64) :
    ((cfg0.win 5).blk t).view.emb (ix3 u p r) = (ix3 (bat0 t) (row0 t p) r : S4x2048x64.Idx) := by
  obtain ⟨-, -, -, -, -, ⟨e0, e1, e2⟩, -⟩ := idx_facts0 t
  have hu : u.val = 0 := by omega
  refine funext fun a => Fin.ext ?_
  match a with
  | ⟨0, _⟩ => show win0_5.index t (0 : Fin 3) * 1 + 1 * u.val = t.val / 2; omega
  | ⟨1, _⟩ => show win0_5.index t (1 : Fin 3) * 1024 + 1 * p.val = t.val % 2 * 1024 + p.val; omega
  | ⟨2, _⟩ => show win0_5.index t (2 : Fin 3) * 64 + 1 * r.val = r.val; omega

/-- What point `t` writes back is its block of the one whole-array function. -/
theorem flushed0_5_eq (c : Dev nD) (t : Fin cfg0.N) :
    (dat0 (F := Ideal) V c).flushed 5 t = ((cfg0.win 5).blk t).view.read (Elt Ideal) (fun i : S4x2048x64.Idx => Attn.kk (V c main_arg0) (V c main_arg1) (V c main_arg3) (i 0) (i 1) (i 2)) := by
  show (cfg0.win 5).cut (grid0.coords t) ((dat0 V c).after 5 t) = _
  rw [after0_5]
  unfold out0_5
  rw [View.canon_unit_zero hz3_0]
  simp only [View.ld_unit_zero (S := S1x1024x1024) hz3_0, View.ld_unit_zero (S := S1x1024x64) hz3_0, View.ld_unit_zero (S := S1024x64) hz2_0]
  refine funext fun (j : S1x1024x64.Idx) => ?_
  obtain ⟨u, p, r, rfl⟩ : ∃ (u : Fin 1) (p : Fin 1024) (r : Fin 64), j = ix3 u p r := ⟨j 0, j 1, j 2, eq_ix3 j⟩
  show k0_pay4 (F := Ideal) (iblk0 V c 0 t) (iblk0 V c 1 t) (iblk0 V c 3 t) (ix3 u p r) = (fun i : S4x2048x64.Idx => Attn.kk (V c main_arg0) (V c main_arg1) (V c main_arg3) (i 0) (i 1) (i 2)) (((cfg0.win 5).blk t).view.emb (ix3 u p r))
  rw [emb0_5 t u p r]
  exact k0_pay4_at (V c main_arg0) (V c main_arg1) (V c main_arg3) (iblk0 V c 0 t) (iblk0 V c 1 t) (iblk0 V c 3 t) (bat0 t) (row0 t p) p (read0_0 V c t p) (read0_1 V c t p) (read0_3 V c t) u r

/-- An index is in point `t`'s block iff each coordinate is in the block's range. -/
theorem mem_blk0_5 (t : Fin cfg0.N) (i : S4x2048x64.Idx) :
    i ∈ ((cfg0.win 5).blk t).view.set ↔ ∀ a : Fin 3, win0_5.index t a * S1x1024x64.size a ≤ (i a).val ∧ (i a).val < win0_5.index t a * S1x1024x64.size a + S1x1024x64.size a := by
  show i ∈ ((View.whole main_v0_1).slice (win0_5.rect t)).set ↔ _
  rw [View.set_slice_whole, Rect.mem_set_unit]
  exact Iff.rfl

/-- Every index of the array is in the block of the point of its batch and half. -/
theorem tiles0_5 (i : S4x2048x64.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 64 := (i 2).isLt
  have hN : cfg0.N = 8 := N_0
  obtain ⟨t, ht⟩ : ∃ t : Fin cfg0.N, t.val = (i 0).val * 2 + (i 1).val / 1024 := ⟨⟨(i 0).val * 2 + (i 1).val / 1024, by omega⟩, rfl⟩
  refine ⟨t, flush0_5 t, ?_⟩
  rw [mem_blk0_5]
  obtain ⟨-, -, -, -, -, ⟨e0, e1, e2⟩, -⟩ := idx_facts0 t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

/-! ## Result window 6 -/

/-- Row `p` of point `t`'s block of the result is row `row0 t p` of batch `bat0 t` of the array. -/
theorem emb0_6 (t : Fin cfg0.N) (u : Fin 1) (p : Fin 1024) (r : Fin 1024) :
    ((cfg0.win 6).blk t).view.emb (ix3 u p r) = (ix3 (bat0 t) (row0 t p) r : S4x2048x1024.Idx) := by
  obtain ⟨-, -, -, -, -, -, ⟨e0, e1, e2⟩⟩ := idx_facts0 t
  have hu : u.val = 0 := by omega
  refine funext fun a => Fin.ext ?_
  match a with
  | ⟨0, _⟩ => show win0_6.index t (0 : Fin 3) * 1 + 1 * u.val = t.val / 2; omega
  | ⟨1, _⟩ => show win0_6.index t (1 : Fin 3) * 1024 + 1 * p.val = t.val % 2 * 1024 + p.val; omega
  | ⟨2, _⟩ => show win0_6.index t (2 : Fin 3) * 1024 + 1 * r.val = r.val; omega

/-- What point `t` writes back is its block of the one whole-array function. -/
theorem flushed0_6_eq (c : Dev nD) (t : Fin cfg0.N) :
    (dat0 (F := Ideal) V c).flushed 6 t = ((cfg0.win 6).blk t).view.read (Elt Ideal) (fun i : S4x2048x1024.Idx => (V c main_arg0 : Attn.ArrX) i) := by
  show (cfg0.win 6).cut (grid0.coords t) ((dat0 V c).after 6 t) = _
  rw [after0_6]
  unfold out0_6
  rw [View.canon_unit_zero hz3_0]
  simp only [View.ld_unit_zero (S := S1x1024x1024) hz3_0, View.ld_unit_zero (S := S1x1024x64) hz3_0, View.ld_unit_zero (S := S1024x64) hz2_0]
  refine funext fun (j : S1x1024x1024.Idx) => ?_
  obtain ⟨u, p, r, rfl⟩ : ∃ (u : Fin 1) (p : Fin 1024) (r : Fin 1024), j = ix3 u p r := ⟨j 0, j 1, j 2, eq_ix3 j⟩
  show k0_pay5 (F := Ideal) (iblk0 V c 0 t) (ix3 u p r) = (fun i : S4x2048x1024.Idx => (V c main_arg0 : Attn.ArrX) i) (((cfg0.win 6).blk t).view.emb (ix3 u p r))
  rw [emb0_6 t u p r]
  exact k0_pay5_at (V c main_arg0) (iblk0 V c 0 t) (bat0 t) (row0 t p) p (read0_0 V c t p) u r

/-- An index is in point `t`'s block iff each coordinate is in the block's range. -/
theorem mem_blk0_6 (t : Fin cfg0.N) (i : S4x2048x1024.Idx) :
    i ∈ ((cfg0.win 6).blk t).view.set ↔ ∀ a : Fin 3, win0_6.index t a * S1x1024x1024.size a ≤ (i a).val ∧ (i a).val < win0_6.index t a * S1x1024x1024.size a + S1x1024x1024.size a := by
  show i ∈ ((View.whole main_v0_2).slice (win0_6.rect t)).set ↔ _
  rw [View.set_slice_whole, Rect.mem_set_unit]
  exact Iff.rfl

/-- Every index of the array is in the block of the point of its batch and half. -/
theorem tiles0_6 (i : S4x2048x1024.Idx) : ∃ t : Fin cfg0.N, (cfg0.win 6).flush t = true ∧ i ∈ ((cfg0.win 6).blk t).view.set := by
  have h0 : (i 0).val < 4 := (i 0).isLt
  have h1 : (i 1).val < 2048 := (i 1).isLt
  have h2 : (i 2).val < 1024 := (i 2).isLt
  have hN : cfg0.N = 8 := N_0
  obtain ⟨t, ht⟩ : ∃ t : Fin cfg0.N, t.val = (i 0).val * 2 + (i 1).val / 1024 := ⟨⟨(i 0).val * 2 + (i 1).val / 1024, by omega⟩, rfl⟩
  refine ⟨t, flush0_6 t, ?_⟩
  rw [mem_blk0_6]
  obtain ⟨-, -, -, -, -, -, ⟨e0, e1, e2⟩⟩ := idx_facts0 t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

/-! ## The three arrays after the stage -/

/-- The query projection: gated by the mask and divided by the square root of the token's effective rank. -/
theorem arr0_4 (c : Dev nD) : (dat0 (F := Ideal) V c).arrAt 4 cfg0.N = fun i => Attn.qk (V c main_arg0) (V c main_arg1) (V c main_arg2) (i 0) (i 1) (i 2) :=
  (dat0 (F := Ideal) V c).arrAt_eq_of_cover 4 _ (fun t _ => flushed0_4_eq V c t) tiles0_4

/-- The key projection, gated by the mask. -/
theorem arr0_5 (c : Dev nD) : (dat0 (F := Ideal) V c).arrAt 5 cfg0.N = fun i => Attn.kk (V c main_arg0) (V c main_arg1) (V c main_arg3) (i 0) (i 1) (i 2) :=
  (dat0 (F := Ideal) V c).arrAt_eq_of_cover 5 _ (fun t _ => flushed0_5_eq V c t) tiles0_5

/-- The copy of `x`: over the extended reals the narrower format changes nothing. -/
theorem arr0_6 (c : Dev nD) : (dat0 (F := Ideal) V c).arrAt 6 cfg0.N = fun i => (V c main_arg0 : Attn.ArrX) i :=
  (dat0 (F := Ideal) V c).arrAt_eq_of_cover 6 _ (fun t _ => flushed0_6_eq V c t) tiles0_6

end Value0

end Cert.KernelIdeal.Hand

end
-- ==== Proof.KIValueArgs.lean ====
import proofs.«101722_j472446402583_2_alg».proof.Proof.KIRun
import proofs.«101722_j472446402583_2_alg».proof.Proof.KIVal0
import proofs.«101722_j472446402583_2_alg».proof.Proof.AttnSpec

/-!
# What the attention call finds in the arrays it reads, in terms of the launch contents

Between the two calls six arrays matter. Three were written by the projection call: they hold the gated,
rank-normalised query projection, the gated key projection, and `x` itself, all as functions of the launch contents
of `x`, the mask and the two bases. The other three — `x` and the layer norm's scale and shift — are untouched by
the projection call and still hold their launch contents.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- `x` is read, never written, by the projection call. -/
theorem V1_main_arg0 (c : Dev nD) : V1 m ρ c main_arg0 = m ((c.tc : Thread nD τ).loc main_arg0) :=
  (W1_arr m ρ c 0).trans (((dat0 (V0 m ρ) c).arrAt_in 0 rfl _).trans (A_eq0 (V0 m ρ) c 0))

/-- The layer norm's scale and shift are no operand of the projection call. -/
theorem V1_main_arg4 (c : Dev nD) : V1 m ρ c main_arg4 = m ((c.tc : Thread nD τ).loc main_arg4) :=
  W1_of_ne m ρ c main_arg4 (by decide)
theorem V1_main_arg5 (c : Dev nD) : V1 m ρ c main_arg5 = m ((c.tc : Thread nD τ).loc main_arg5) :=
  W1_of_ne m ρ c main_arg5 (by decide)

/-- The query projection the projection call leaves. -/
theorem V1_main_v0_0 (c : Dev nD) : (V1 m ρ c main_v0_0 : Attn.ArrM)
    = fun i => Attn.qk (m ((c.tc : Thread nD τ).loc main_arg0)) (m ((c.tc : Thread nD τ).loc main_arg1)) (m ((c.tc : Thread nD τ).loc main_arg2)) (i 0) (i 1) (i 2) :=
  (W1_arr m ρ c 4).trans (arr0_4 (V0 m ρ) c)

/-- The key projection it leaves. -/
theorem V1_main_v0_1 (c : Dev nD) : (V1 m ρ c main_v0_1 : Attn.ArrM)
    = fun i => Attn.kk (m ((c.tc : Thread nD τ).loc main_arg0)) (m ((c.tc : Thread nD τ).loc main_arg1)) (m ((c.tc : Thread nD τ).loc main_arg3)) (i 0) (i 1) (i 2) :=
  (W1_arr m ρ c 5).trans (arr0_5 (V0 m ρ) c)

/-- The copy of `x` it leaves is `x`. -/
theorem V1_main_v0_2 (c : Dev nD) : (V1 m ρ c main_v0_2 : Attn.ArrX) = (m ((c.tc : Thread nD τ).loc main_arg0)) :=
  (W1_arr m ρ c 6).trans (arr0_6 (V0 m ρ) c)

end Cert.KernelIdeal.Hand

end
-- ==== Proof.KIReg1Val.lean ====
import proofs.«101722_j472446402583_2_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention stage: its buffers' contents as values

One key tile updates the three scratch buffers by three pure functions of the query block `q`, the key block `k`,
the value block `v` and the buffers' previous contents: the numerator `A`, the reference point `M`, the
denominator `L`. At a first key tile the previous contents are the reset values; at the last key tile the output
block is the read-out of the updated numerator and denominator. So the contents after every point are a chain of
these updates along the key tiles of the point's (batch, query tile). -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The updated numerator: `exp (M − M') · A + P · v`, `M'` the updated reference point and `P = exp (scores − M')`. -/
def upd0 (q : Vec F S1x1024x64 .bf16) (k : Vec F S1x512x64 .bf16) (v : Vec F S1x512x1024 .bf16)
    (A : Vec F S1024x1024 .f32) (M : Vec F S1024x1 .f32) : Vec F S1024x1024 .f32 :=
  k1_pay1 (k1_pay12 q k M v) A (k1_pay13 q k M)
/-- The updated reference point: the larger of `M` and the tile's row maximum. -/
def upd1 (q : Vec F S1x1024x64 .bf16) (k : Vec F S1x512x64 .bf16) (M : Vec F S1024x1 .f32) : Vec F S1024x1 .f32 :=
  k1_pay2 (k1_pay8 q k M)
/-- The updated denominator: `exp (M − M') · L + ∑ P`. -/
def upd2 (q : Vec F S1x1024x64 .bf16) (k : Vec F S1x512x64 .bf16) (M L : Vec F S1024x1 .f32) : Vec F S1024x1 .f32 :=
  k1_pay11 q k M L

/-! ## Each case's pieces, read back -/

theorem sval1_A_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) :
    VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5).2.1) = upd0 x0 x1 x2 (k1_pay4 (F := F)) (k1_pay5 (F := F)) := by
  rw [View.read_writes_eq_canon _ _ _ (scover1_A_0 c i arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  refine (View.canon_cons_unit_zero (S := S1024x1024) hz2 _ _ _).trans ?_
  simp only [View.readCov_unit_zero (S := S1024x1024) _ hz2, View.readCov_unit_zero (S := S1024x1) _ hz2]
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

theorem sval1_A_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) :
    VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4 x5).2.2.1) = upd1 x0 x1 (k1_pay5 (F := F)) := by
  rw [View.read_writes_eq_canon _ _ _ (scover1_A_1 c i arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  refine (View.canon_cons_unit_zero (S := S1024x1) hz2 _ _ _).trans ?_
  simp only [View.readCov_unit_zero (S := S1024x1024) _ hz2, View.readCov_unit_zero (S := S1024x1) _ hz2]
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

theorem sval1_A_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) :
    VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4 x5).2.2.2.1) = upd2 x0 x1 (k1_pay5 (F := F)) (k1_pay6 (F := F)) := by
  rw [View.read_writes_eq_canon _ _ _ (scover1_A_2 c i arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  refine (View.canon_cons_unit_zero (S := S1024x1) hz2 _ _ _).trans ?_
  simp only [View.readCov_unit_zero (S := S1024x1024) _ hz2, View.readCov_unit_zero (S := S1024x1) _ hz2]
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

theorem sval1_B_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1) = upd0 x0 x1 x2 xs0 xs1 := by
  rw [View.read_writes_eq_canon _ _ _ (scover1_B_0 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_B
  dsimp only
  sl_unfold_words
  refine (View.canon_unit_zero (S := S1024x1024) hz2 _ _).trans ?_
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

theorem sval1_B_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1) = upd1 x0 x1 xs1 := by
  rw [View.read_writes_eq_canon _ _ _ (scover1_B_1 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_B
  dsimp only
  sl_unfold_words
  refine (View.canon_unit_zero (S := S1024x1) hz2 _ _).trans ?_
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

theorem sval1_B_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : ¬cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1) = upd2 x0 x1 xs1 xs2 := by
  rw [View.read_writes_eq_canon _ _ _ (scover1_B_2 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_B
  dsimp only
  sl_unfold_words
  refine (View.canon_unit_zero (S := S1024x1) hz2 _ _).trans ?_
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

theorem sval1_C_0 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1) = upd0 x0 x1 x2 xs0 xs1 := by
  rw [View.read_writes_eq_canon _ _ _ (scover1_C_0 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_C
  dsimp only
  sl_unfold_words
  refine (View.canon_unit_zero (S := S1024x1024) hz2 _ _).trans ?_
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

theorem sval1_C_1 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1) = upd1 x0 x1 xs1 := by
  rw [View.read_writes_eq_canon _ _ _ (scover1_C_1 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_C
  dsimp only
  sl_unfold_words
  refine (View.canon_unit_zero (S := S1024x1) hz2 _ _).trans ?_
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

theorem sval1_C_2 (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1) = upd2 x0 x1 xs1 xs2 := by
  rw [View.read_writes_eq_canon _ _ _ (scover1_C_2 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_C
  dsimp only
  sl_unfold_words
  refine (View.canon_unit_zero (S := S1024x1) hz2 _ _).trans ?_
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

/-- At the last key tile the output block is the read-out of the UPDATED numerator and denominator. -/
theorem oval1_C (c : Dev nD) (i : grid1.Coords) (arg3 : Memref sig .tc .vmem S1x1024x64 .bf16) (harg3 : arg3.IsWhole) (arg4 : Memref sig .tc .vmem S1x512x64 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1024x1 .f32) (harg11 : arg11.IsWhole) (arg12 : Memref sig .tc .vmem S1024x1 .f32) (harg12 : arg12.IsWhole) (hc0 : ¬cond1_0 i) (hc1 : cond1_1 i)
    (x0 : Vec F S1x1024x64 .bf16) (x1 : Vec F S1x512x64 .bf16) (x2 : Vec F S1x512x1024 .bf16) (x3 : Vec F S1x1024x1024 .f32) (x4 : Vec F S1024 .f32) (x5 : Vec F S1024 .f32) (xs0 : Vec F S1024x1024 .f32) (xs1 : Vec F S1024x1 .f32) (xs2 : Vec F S1024x1 .f32) :
    VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1)
      = k1_pay3 (upd0 x0 x1 x2 xs0 xs1) (upd2 x0 x1 xs1 xs2) x3 x4 x5 := by
  rw [View.read_writes_eq_canon _ _ _ (cover1_C_6 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_C
  dsimp only
  sl_unfold_words
  refine (View.canon_unit_zero (S := S1x1024x1024) hz3 _ _).trans ?_
  simp only [View.readCov_unit_zero (S := S1024x1024) _ hz2, View.readCov_unit_zero (S := S1024x1) _ hz2]
  simp only [View.readAt_eq_ld, harg3.read_unread, harg4.read_unread, harg5.read_unread, harg6.read_unread, harg7.read_unread, harg8.read_unread, harg10.read_unread, harg11.read_unread, harg12.read_unread, View.ld_unit_zero (S := S1x1024x64) hz3, View.ld_unit_zero (S := S1x512x64) hz3, View.ld_unit_zero (S := S1x512x1024) hz3, View.ld_unit_zero (S := S1x1024x1024) hz3, View.ld_unit_zero (S := S1024x1024) hz2, View.ld_unit_zero (S := S1024x1) hz2, View.ld_unit_zero (S := S1024) hz1]
  rfl

section Region1

variable (V : (c : Dev nD) → (b : Ref sig .tc) → Buf (Elt F) ((c : Thread nD τ).loc b))

/-- The three scratch buffers after one key tile at point `t`, from their contents before it. -/
def step1 (c : Dev nD) (t : Fin cfg1.N) (p : Vec F S1024x1024 .f32 × Vec F S1024x1 .f32 × Vec F S1024x1 .f32) :
    Vec F S1024x1024 .f32 × Vec F S1024x1 .f32 × Vec F S1024x1 .f32 :=
  (upd0 (iblk1 V c 0 t) (iblk1 V c 1 t) (iblk1 V c 2 t) p.1 p.2.1,
   upd1 (iblk1 V c 0 t) (iblk1 V c 1 t) p.2.1,
   upd2 (iblk1 V c 0 t) (iblk1 V c 1 t) p.2.1 p.2.2)

/-- The reset values. -/
def reset1 : Vec F S1024x1024 .f32 × Vec F S1024x1 .f32 × Vec F S1024x1 .f32 := (k1_pay4, k1_pay5, k1_pay6)

theorem leaves1_A_scratch (c : Dev nD) (t : Fin cfg1.N) (hc0 : cond1_0 (grid1.coords t)) (hc1 : ¬cond1_1 (grid1.coords t)) :
    (leaves1_A V c t hc0 hc1).2 = step1 V c t reset1 := by
  unfold leaves1_A step1 reset1
  dsimp only
  rw [sval1_A_0, sval1_A_1, sval1_A_2]

theorem leaves1_B_scratch (c : Dev nD) (t : Fin cfg1.N) (hc0 : ¬cond1_0 (grid1.coords t)) (hc1 : ¬cond1_1 (grid1.coords t)) (p : St1 (F := F)) :
    (leaves1_B V c t hc0 hc1 p).2 = step1 V c t p.2 := by
  unfold leaves1_B step1
  dsimp only
  rw [sval1_B_0, sval1_B_1, sval1_B_2]

theorem leaves1_C_scratch (c : Dev nD) (t : Fin cfg1.N) (hc0 : ¬cond1_0 (grid1.coords t)) (hc1 : cond1_1 (grid1.coords t)) (p : St1 (F := F)) :
    (leaves1_C V c t hc0 hc1 p).2 = step1 V c t p.2 := by
  unfold leaves1_C step1
  dsimp only
  rw [sval1_C_0, sval1_C_1, sval1_C_2]

theorem leaves1_C_out (c : Dev nD) (t : Fin cfg1.N) (hc0 : ¬cond1_0 (grid1.coords t)) (hc1 : cond1_1 (grid1.coords t)) (p : St1 (F := F)) :
    (leaves1_C V c t hc0 hc1 p).1
      = k1_pay3 (step1 V c t p.2).1 (step1 V c t p.2).2.2 (iblk1 V c 3 t) (iblk1 V c 4 t) (iblk1 V c 5 t) := by
  unfold leaves1_C step1
  dsimp only
  rw [oval1_C]

/-- THE CHAIN: the scratch buffers after position `n`, in closed form: at a first key tile one update of the reset
    values, otherwise one update of what the position before left. -/
def chain1 (c : Dev nD) : (n : ℕ) → n < cfg1.N → Vec F S1024x1024 .f32 × Vec F S1024x1 .f32 × Vec F S1024x1 .f32
  | 0, h => step1 V c ⟨0, h⟩ reset1
  | n + 1, h => if (n + 1) % 4 = 0 then step1 V c ⟨n + 1, h⟩ reset1 else step1 V c ⟨n + 1, h⟩ (chain1 c n (Nat.lt_of_succ_lt h))

/-- What the run found in the scratch buffers after each point is the chain: by induction on the point. -/
theorem outsAt1_scratch (c : Dev nD) : ∀ (n : ℕ) (h : n < cfg1.N), (outsAt1 V c n h).2 = chain1 V c n h
  | 0, h => by
    rw [outsAt1_A V c ⟨0, h⟩ (Nat.zero_mod _), leaves1_A_scratch]; rfl
  | n + 1, h => by
    by_cases h0 : (n + 1) % 4 = 0
    · rw [outsAt1_A V c ⟨n + 1, h⟩ h0, leaves1_A_scratch]
      exact (if_pos h0).symm
    · by_cases h1 : (n + 1) % 4 = 3
      · rw [outsAt1_C V c ⟨n + 1, h⟩ h0 h1, leaves1_C_scratch]
        show step1 V c ⟨n + 1, h⟩ (outsAt1 V c n _).2 = _
        rw [outsAt1_scratch c n]
        exact (if_neg h0).symm
      · rw [outsAt1_B V c ⟨n + 1, h⟩ h0 h1, leaves1_B_scratch]
        show step1 V c ⟨n + 1, h⟩ (outsAt1 V c n _).2 = _
        rw [outsAt1_scratch c n]
        exact (if_neg h0).symm

/-- At a last key tile the output's staging buffer holds the read-out of that point's numerator and denominator. -/
theorem outsAt1_out (c : Dev nD) (t : Fin cfg1.N) (h1 : t.val % 4 = 3) :
    (outsAt1 V c t.val t.isLt).1
      = k1_pay3 (chain1 V c t.val t.isLt).1 (chain1 V c t.val t.isLt).2.2 (iblk1 V c 3 t) (iblk1 V c 4 t) (iblk1 V c 5 t) := by
  have h0 : ¬t.val % 4 = 0 := by omega
  have hs := outsAt1_scratch V c t.val t.isLt
  rw [outsAt1_C V c t h0 h1] at hs ⊢
  rw [leaves1_C_scratch] at hs
  rw [leaves1_C_out, hs]

end Region1

end Cert.KernelIdeal.Hand

end
-- ==== Proof.KIStep1.lean ====
import proofs.«101722_j472446402583_2_alg».proof.Proof.Gen.KernelIdeal.Skeleton
import proofs.«101722_j472446402583_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

/-!
# The attention stage's arithmetic, read at an index

One grid point of the attention stage holds a block of 1024 queries `q`, a tile of 512 keys `k` with their rows `v` of
`x`, and three running buffers: the reference point `M`, the denominator `L` (one entry per query) and the numerator
`A` (one row of 1024 features per query). The tile's score of query `r` against key `j` is `sloc r j = ∑ᵨ q[r,ρ]·k[j,ρ]`.
The step raises `M` to the tile's row maximum, rescales `L` and `A` by `exp (old M − new M)` and adds the tile's
exponentials (weighted by `v` for `A`). At the first tile the buffers are reset to `0`, the finite start and `0`; at the
last tile the row `x + A / L` is normalised.
-/

set_option pp.maxSteps 5000
set_option pp.deepTerms false

noncomputable section

namespace Cert.KernelIdeal.Hand

open Cert.KernelIdeal Cert.KernelIdeal.Gen Idealize.ShloMosaic Idealize.ShloMosaic.ValueIdx Finset

/-! ## Layout operations at an index: the column forms -/

section Layout

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A reduction along the rows, at a row -/

/-- A row index with column `k` put back is `(r, k)`. -/
theorem lift_row {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- The sum along each row, at row `r`: the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  exact Finset.sum_congr rfl fun k _ => congrArg src (lift_row h r k)

/-- The reciprocal square root of a vector, at an index. -/
theorem rsqrt_apply {s : Shape} {φ : FTy} (x : FVec Ideal s φ) (i : s.Idx) : rsqrt x i = Ideal.rsqrt (x i) := rfl

/-- The maximum along each row from the seed `-∞`, at row `r`. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r)
      = (univ : Finset (Fin b)).fold max Attn.negInf (fun j => src (ix2 r j)) := by
  refine (Ideal.multiReduction_maximumf_single src 0xFF800000#32 h hφ hacc (ix1 r)).trans ?_
  have hf : (src ∘ h.lift (ix1 r)) = fun j : Fin b => src (ix2 r j) :=
    funext fun k => congrArg src (lift_row h r k)
  rw [hf]
  rfl

/-! ## The two matrix products at an index -/

/-- The product of a `[1024, 64]` block with a `[64, 512]` block into the zero block, at `(r, c)`. -/
theorem matmulQK_apply {φ₁ φ₂ : FTy} (l : FVec Ideal ⟨2, ![1024, 64]⟩ φ₁) (w : FVec Ideal ⟨2, ![64, 512]⟩ φ₂) (r : Fin 1024) (c : Fin 512) :
    FloatOps.matmul dot_S1024x64_S64x512_S1024x512_1_0_0_1_n_n none l w (constant ⟨2, ![1024, 512]⟩ .f32 0x00000000#32) (ix2 r c)
      = ∑ κ : Fin 64, l (ix2 r κ) * w (ix2 κ c) := by
  rw [Ideal.matmul_constant_zero_apply, ← Equiv.sum_comp (contrEquiv1 dot_S1024x64_S64x512_S1024x512_1_0_0_1_n_n 64 rfl rfl).symm]
  refine Finset.sum_congr rfl fun κ _ => ?_
  have hk := contrEquiv1_symm_val dot_S1024x64_S64x512_S1024x512_1_0_0_1_n_n 64 rfl rfl κ
  have l0 : ∀ p : dot_S1024x64_S64x512_S1024x512_1_0_0_1_n_n.contr.Idx, (dot_S1024x64_S64x512_S1024x512_1_0_0_1_n_n.lhsIdx (ix2 r c) p 0).val = r.val := fun p => by
    unfold DotDims.lhsIdx
    rw [dif_neg (show ¬(0 : Fin (⟨2, ![1024, 64]⟩ : Shape).rank) ∈ dot_S1024x64_S64x512_S1024x512_1_0_0_1_n_n.lhsBatch by decide),
      dif_pos (show (0 : Fin (⟨2, ![1024, 64]⟩ : Shape).rank) ∈ dot_S1024x64_S64x512_S1024x512_1_0_0_1_n_n.lhsNonContracting by decide)]
    rfl
  have r1 : ∀ p : dot_S1024x64_S64x512_S1024x512_1_0_0_1_n_n.contr.Idx, (dot_S1024x64_S64x512_S1024x512_1_0_0_1_n_n.rhsIdx (ix2 r c) p 1).val = c.val := fun p => by
    unfold DotDims.rhsIdx
    rw [dif_neg (show ¬(1 : Fin (⟨2, ![64, 512]⟩ : Shape).rank) ∈ dot_S1024x64_S64x512_S1024x512_1_0_0_1_n_n.rhsBatch by decide),
      dif_pos (show (1 : Fin (⟨2, ![64, 512]⟩ : Shape).rank) ∈ dot_S1024x64_S64x512_S1024x512_1_0_0_1_n_n.rhsNonContracting by decide)]
    rfl
  have el : dot_S1024x64_S64x512_S1024x512_1_0_0_1_n_n.lhsIdx (ix2 r c) ((contrEquiv1 dot_S1024x64_S64x512_S1024x512_1_0_0_1_n_n 64 rfl rfl).symm κ) = ix2 r κ :=
    funext fun a => Fin.ext (by
      match a with
      | ⟨0, _⟩ => exact l0 _
      | ⟨1, _⟩ => exact (dot_S1024x64_S64x512_S1024x512_1_0_0_1_n_n.lhsIdx_val_of_single rfl _ _).trans hk)
  have er : dot_S1024x64_S64x512_S1024x512_1_0_0_1_n_n.rhsIdx (ix2 r c) ((contrEquiv1 dot_S1024x64_S64x512_S1024x512_1_0_0_1_n_n 64 rfl rfl).symm κ) = ix2 κ c :=
    funext fun a => Fin.ext (by
      match a with
      | ⟨0, _⟩ => exact (dot_S1024x64_S64x512_S1024x512_1_0_0_1_n_n.rhsIdx_val_of_single rfl _ _).trans hk
      | ⟨1, _⟩ => exact r1 _)
  rw [el, er]

/-- The product of a `[1024, 512]` block with a `[512, 1024]` block into the zero block, at `(r, c)`. -/
theorem matmulPV_apply {φ₁ φ₂ : FTy} (l : FVec Ideal ⟨2, ![1024, 512]⟩ φ₁) (w : FVec Ideal ⟨2, ![512, 1024]⟩ φ₂) (r : Fin 1024) (c : Fin 1024) :
    FloatOps.matmul dot_S1024x512_S512x1024_S1024x1024_1_0_0_1_n_n none l w (constant ⟨2, ![1024, 1024]⟩ .f32 0x00000000#32) (ix2 r c)
      = ∑ κ : Fin 512, l (ix2 r κ) * w (ix2 κ c) := by
  rw [Ideal.matmul_constant_zero_apply, ← Equiv.sum_comp (contrEquiv1 dot_S1024x512_S512x1024_S1024x1024_1_0_0_1_n_n 512 rfl rfl).symm]
  refine Finset.sum_congr rfl fun κ _ => ?_
  have hk := contrEquiv1_symm_val dot_S1024x512_S512x1024_S1024x1024_1_0_0_1_n_n 512 rfl rfl κ
  have l0 : ∀ p : dot_S1024x512_S512x1024_S1024x1024_1_0_0_1_n_n.contr.Idx, (dot_S1024x512_S512x1024_S1024x1024_1_0_0_1_n_n.lhsIdx (ix2 r c) p 0).val = r.val := fun p => by
    unfold DotDims.lhsIdx
    rw [dif_neg (show ¬(0 : Fin (⟨2, ![1024, 512]⟩ : Shape).rank) ∈ dot_S1024x512_S512x1024_S1024x1024_1_0_0_1_n_n.lhsBatch by decide),
      dif_pos (show (0 : Fin (⟨2, ![1024, 512]⟩ : Shape).rank) ∈ dot_S1024x512_S512x1024_S1024x1024_1_0_0_1_n_n.lhsNonContracting by decide)]
    rfl
  have r1 : ∀ p : dot_S1024x512_S512x1024_S1024x1024_1_0_0_1_n_n.contr.Idx, (dot_S1024x512_S512x1024_S1024x1024_1_0_0_1_n_n.rhsIdx (ix2 r c) p 1).val = c.val := fun p => by
    unfold DotDims.rhsIdx
    rw [dif_neg (show ¬(1 : Fin (⟨2, ![512, 1024]⟩ : Shape).rank) ∈ dot_S1024x512_S512x1024_S1024x1024_1_0_0_1_n_n.rhsBatch by decide),
      dif_pos (show (1 : Fin (⟨2, ![512, 1024]⟩ : Shape).rank) ∈ dot_S1024x512_S512x1024_S1024x1024_1_0_0_1_n_n.rhsNonContracting by decide)]
    rfl
  have el : dot_S1024x512_S512x1024_S1024x1024_1_0_0_1_n_n.lhsIdx (ix2 r c) ((contrEquiv1 dot_S1024x512_S512x1024_S1024x1024_1_0_0_1_n_n 512 rfl rfl).symm κ) = ix2 r κ :=
    funext fun a => Fin.ext (by
      match a with
      | ⟨0, _⟩ => exact l0 _
      | ⟨1, _⟩ => exact (dot_S1024x512_S512x1024_S1024x1024_1_0_0_1_n_n.lhsIdx_val_of_single rfl _ _).trans hk)
  have er : dot_S1024x512_S512x1024_S1024x1024_1_0_0_1_n_n.rhsIdx (ix2 r c) ((contrEquiv1 dot_S1024x512_S512x1024_S1024x1024_1_0_0_1_n_n 512 rfl rfl).symm κ) = ix2 κ c :=
    funext fun a => Fin.ext (by
      match a with
      | ⟨0, _⟩ => exact (dot_S1024x512_S512x1024_S1024x1024_1_0_0_1_n_n.rhsIdx_val_of_single rfl _ _).trans hk
      | ⟨1, _⟩ => exact r1 _)
  rw [el, er]

/-! ## The step -/

section Step

variable (q : Vec Ideal S1x1024x64 .bf16) (k : Vec Ideal S1x512x64 .bf16) (v : Vec Ideal S1x512x1024 .bf16)
  (A : Vec Ideal S1024x1024 .f32) (M L : Vec Ideal S1024x1 .f32) (xq : Vec Ideal S1x1024x1024 .f32)
  (g bt : Vec Ideal S1024 .f32)

/-- The tile's score of query `r` against key `j`. -/
def sloc (r : Fin 1024) (j : Fin 512) : EReal := ∑ ρ : Fin 64, q (ix3 0 r ρ) * k (ix3 0 j ρ)

/-- The scores. -/
theorem pay7_at (r : Fin 1024) (j : Fin 512) : k1_pay7 (F := Ideal) q k (ix2 r j) = sloc q k r j := by
  unfold k1_pay7
  refine (matmulQK_apply _ _ r j).trans ?_
  refine Finset.sum_congr rfl fun ρ _ => ?_
  rw [shapeCast_1ab_ab_apply, transpose_ix2_apply, shapeCast_1ab_ab_apply]

/-- The new reference point: the old one raised to the tile's row maximum. -/
theorem pay8_at (r : Fin 1024) :
    k1_pay8 (F := Ideal) q k M (ix2 r 0) = max (M (ix2 r 0)) (Finset.univ.fold max Attn.negInf (sloc q k r)) := by
  unfold k1_pay8
  refine congrArg (max (M (ix2 r 0))) ?_
  refine (shapeCast_a_a1_apply _ _ r 0).trans ?_
  refine (rowMax_apply _ _ _ _ r).trans ?_
  exact congrArg (fun f => Finset.fold max Attn.negInf f Finset.univ) (funext fun j => pay7_at q k r j)

/-- The rescaling factor. -/
theorem pay9_at (r : Fin 1024) :
    k1_pay9 (F := Ideal) q k M (ix2 r 0) = Ideal.exp (M (ix2 r 0) - k1_pay8 (F := Ideal) q k M (ix2 r 0)) := rfl

/-- The tile's exponentials. -/
theorem pay10_at (r : Fin 1024) (j : Fin 512) :
    k1_pay10 (F := Ideal) q k M (ix2 r j) = Ideal.exp (sloc q k r j - k1_pay8 (F := Ideal) q k M (ix2 r 0)) := by
  unfold k1_pay10
  refine congrArg Ideal.exp ?_
  exact congrArg₂ (· - ·) (pay7_at q k r j) (broadcastTo_a1_ab_apply _ _ r j)

/-- A cast to the same shape changes nothing. -/
theorem pay2_at (X : FVec Ideal S1024x1 .f32) (r : Fin 1024) : k1_pay2 (F := Ideal) X (ix2 r 0) = X (ix2 r 0) := by
  unfold k1_pay2
  exact congrFun (shapeCast_self _ _) _

/-- The new denominator. -/
theorem pay11_at (r : Fin 1024) :
    k1_pay11 (F := Ideal) q k M L (ix2 r 0)
      = Ideal.exp (M (ix2 r 0) - k1_pay8 (F := Ideal) q k M (ix2 r 0)) * L (ix2 r 0)
        + ∑ j : Fin 512, Ideal.exp (sloc q k r j - k1_pay8 (F := Ideal) q k M (ix2 r 0)) := by
  unfold k1_pay11
  refine (congrFun (shapeCast_self _ _) _).trans ?_
  refine congrArg₂ (· + ·) rfl ?_
  refine (shapeCast_a_a1_apply _ _ r 0).trans ?_
  refine (rowSum_apply _ _ _ _ r).trans ?_
  exact Finset.sum_congr rfl fun j _ => pay10_at q k M r j

/-- The tile's exponentials times the rows of `v`. -/
theorem pay12_at (r d : Fin 1024) :
    k1_pay12 (F := Ideal) q k M v (ix2 r d)
      = ∑ j : Fin 512, Ideal.exp (sloc q k r j - k1_pay8 (F := Ideal) q k M (ix2 r 0)) * v (ix3 0 j d) := by
  unfold k1_pay12
  refine (matmulPV_apply _ _ r d).trans ?_
  refine Finset.sum_congr rfl fun j _ => ?_
  exact congrArg₂ (· * ·) (pay10_at q k M r j) (shapeCast_1ab_ab_apply _ _ j d)

/-- The rescaling factor, broadcast along the row. -/
theorem pay13_at (r d : Fin 1024) :
    k1_pay13 (F := Ideal) q k M (ix2 r d) = Ideal.exp (M (ix2 r 0) - k1_pay8 (F := Ideal) q k M (ix2 r 0)) := by
  unfold k1_pay13
  exact broadcastTo_a1_ab_apply _ _ r d

/-- The new numerator. -/
theorem pay1_at (r d : Fin 1024) :
    k1_pay1 (F := Ideal) (k1_pay12 q k M v) A (k1_pay13 q k M) (ix2 r d)
      = Ideal.exp (M (ix2 r 0) - k1_pay8 (F := Ideal) q k M (ix2 r 0)) * A (ix2 r d)
        + ∑ j : Fin 512, Ideal.exp (sloc q k r j - k1_pay8 (F := Ideal) q k M (ix2 r 0)) * v (ix3 0 j d) := by
  unfold k1_pay1
  refine (congrFun (shapeCast_self _ _) _).trans ?_
  exact congrArg₂ (· + ·) (congrArg (· * A (ix2 r d)) (pay13_at q k M r d)) (pay12_at q k v M r d)

/-! ## The resets -/

theorem pay4_at (r d : Fin 1024) : k1_pay4 (F := Ideal) (ix2 r d) = 0 := by
  unfold k1_pay4
  refine (congrFun (shapeCast_self _ _) _).trans ?_
  exact Ideal.ofBits_zero_f32

theorem pay5_at (r : Fin 1024) : k1_pay5 (F := Ideal) (ix2 r 0) = Attn.negBig := by
  unfold k1_pay5
  exact congrFun (shapeCast_self _ _) _

theorem pay6_at (r : Fin 1024) : k1_pay6 (F := Ideal) (ix2 r 0) = 0 := by
  unfold k1_pay6
  refine (congrFun (shapeCast_self _ _) _).trans ?_
  exact Ideal.ofBits_zero_f32

/-! ## The read-out: the row `x + A / L`, normalised -/

theorem pay3_at (r d : Fin 1024) :
    k1_pay3 (F := Ideal) A L xq g bt (ix3 0 r d)
      = Attn.lnRow g bt (fun d' => xq (ix3 0 r d') + Ideal.div (A (ix2 r d')) (L (ix2 r 0))) d := by
  unfold k1_pay3
  simp only [shapeCast_ab_1ab_apply, addf_apply, mulf_apply, subf_apply, divf_apply, broadcastTo_1b_ab_apply,
    shapeCast_a_1a_apply, broadcastTo_a1_ab_apply, shapeCast_a_a1_apply, rowSum_apply (a := 1024) (b := 1024),
    shapeCast_1ab_ab_apply, broadcast_apply, rsqrt_apply]
  rfl

end Step

end Cert.KernelIdeal.Hand

end
-- ==== Proof.KIVal1Blocks.lean ====
import proofs.«101722_j472446402583_2_alg».proof.Proof.KIReg1
import proofs.«101722_j472446402583_2_alg».proof.Proof.AttnSpec
import Idealize.ShloMosaic.Lib.Pipeline.Value
import Idealize.ShloMosaic.Lib.ValueIdx
import Idealize.ShloMosaic.Lib.Tactic

/-!
# The attention stage's blocks as parts of whole arrays, over the extended reals

The second stage visits the grid (batch, query tile, key tile) = 4 × 2 × 4 in row-major order: point `t` (of 32) is
at batch `t / 8`, query tile `(t / 4) % 2` and key tile `t % 4`. At that point the query projection, `x` and the
result are seen through rows `1024·((t / 4) % 2) … + 1023` of the batch, the key projection and the value copy through
rows `512·(t % 4) … + 511`, and the layer norm's scale and shift whole. The result's block is written back only at
the last key tile (`t % 4 = 3`); the eight blocks written back tile the result array, so the array ends holding
any whole-array function whose blocks those are.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

section Value1

variable (V : (c : Dev nD) → (b : Ref sig .tc) → Buf (Elt Ideal) ((c : Thread nD τ).loc b))

/-! ## Which block each point sees -/

/-- The block indices, decided over the 32 points. -/
theorem idx_facts1 : ∀ t : Fin cfg1.N,
    (win1_0.index t (0 : Fin 3) = t.val / 8 ∧ win1_0.index t (1 : Fin 3) = t.val / 4 % 2 ∧ win1_0.index t (2 : Fin 3) = 0)
    ∧ (win1_1.index t (0 : Fin 3) = t.val / 8 ∧ win1_1.index t (1 : Fin 3) = t.val % 4 ∧ win1_1.index t (2 : Fin 3) = 0)
    ∧ (win1_2.index t (0 : Fin 3) = t.val / 8 ∧ win1_2.index t (1 : Fin 3) = t.val % 4 ∧ win1_2.index t (2 : Fin 3) = 0)
    ∧ (win1_3.index t (0 : Fin 3) = t.val / 8 ∧ win1_3.index t (1 : Fin 3) = t.val / 4 % 2 ∧ win1_3.index t (2 : Fin 3) = 0)
    ∧ win1_4.index t (0 : Fin 1) = 0
    ∧ win1_5.index t (0 : Fin 1) = 0
    ∧ (win1_6.index t (0 : Fin 3) = t.val / 8 ∧ win1_6.index t (1 : Fin 3) = t.val / 4 % 2 ∧ win1_6.index t (2 : Fin 3) = 0) :=
  (by decide +kernel : ∀ t : Fin grid1.N, _)

/-- The batch point `t` works on, -/
def bat1 (t : Fin cfg1.N) : Fin 4 := ⟨t.val / 8, by have := t.isLt; have hN : cfg1.N = 32 := N_1; omega⟩
/-- and the row of the whole array that row `r` of its query tile is. -/
def row1 (t : Fin cfg1.N) (r : Fin 1024) : Fin 2048 := ⟨t.val / 4 % 2 * 1024 + r.val, by have := r.isLt; omega⟩

/-! ## The input blocks as parts of the arrays -/

theorem read1_0 (c : Dev nD) (t : Fin cfg1.N) (r : Fin 1024) (ρ : Fin 64) :
    (iblk1 V c 0 t : Vec Ideal S1x1024x64 .bf16) (ix3 (0 : Fin 1) r ρ) = (V c main_v0_0 : Attn.ArrM) (ix3 (bat1 t) (row1 t r) ρ) := by
  obtain ⟨⟨e0, e1, e2⟩, -, -, -, -, -, -⟩ := idx_facts1 t
  show V c main_v0_0 (((cfg1.win 0).blk t).view.emb (ix3 (0 : Fin 1) r ρ)) = V c main_v0_0 _
  refine congrArg (V c main_v0_0) (funext fun a => Fin.ext ?_)
  match a with
  | ⟨0, _⟩ => show win1_0.index t (0 : Fin 3) * 1 + 1 * 0 = t.val / 8; omega
  | ⟨1, _⟩ => show win1_0.index t (1 : Fin 3) * 1024 + 1 * r.val = t.val / 4 % 2 * 1024 + r.val; omega
  | ⟨2, _⟩ => show win1_0.index t (2 : Fin 3) * 64 + 1 * ρ.val = ρ.val; omega

theorem read1_1 (c : Dev nD) (t : Fin cfg1.N) (j : Fin 512) (ρ : Fin 64) :
    (iblk1 V c 1 t : Vec Ideal S1x512x64 .bf16) (ix3 (0 : Fin 1) j ρ) = (V c main_v0_1 : Attn.ArrM) (ix3 (bat1 t) (Attn.key (t.val % 4) j) ρ) := by
  obtain ⟨-, ⟨e0, e1, e2⟩, -, -, -, -, -⟩ := idx_facts1 t
  show V c main_v0_1 (((cfg1.win 1).blk t).view.emb (ix3 (0 : Fin 1) j ρ)) = V c main_v0_1 _
  refine congrArg (V c main_v0_1) (funext fun a => Fin.ext ?_)
  match a with
  | ⟨0, _⟩ => show win1_1.index t (0 : Fin 3) * 1 + 1 * 0 = t.val / 8; omega
  | ⟨1, _⟩ => show win1_1.index t (1 : Fin 3) * 512 + 1 * j.val = t.val % 4 % 4 * 512 + j.val; omega
  | ⟨2, _⟩ => show win1_1.index t (2 : Fin 3) * 64 + 1 * ρ.val = ρ.val; omega

theorem read1_2 (c : Dev nD) (t : Fin cfg1.N) (j : Fin 512) (d : Fin 1024) :
    (iblk1 V c 2 t : Vec Ideal S1x512x1024 .bf16) (ix3 (0 : Fin 1) j d) = (V c main_v0_2 : Attn.ArrX) (ix3 (bat1 t) (Attn.key (t.val % 4) j) d) := by
  obtain ⟨-, -, ⟨e0, e1, e2⟩, -, -, -, -⟩ := idx_facts1 t
  show V c main_v0_2 (((cfg1.win 2).blk t).view.emb (ix3 (0 : Fin 1) j d)) = V c main_v0_2 _
  refine congrArg (V c main_v0_2) (funext fun a => Fin.ext ?_)
  match a with
  | ⟨0, _⟩ => show win1_2.index t (0 : Fin 3) * 1 + 1 * 0 = t.val / 8; omega
  | ⟨1, _⟩ => show win1_2.index t (1 : Fin 3) * 512 + 1 * j.val = t.val % 4 % 4 * 512 + j.val; omega
  | ⟨2, _⟩ => show win1_2.index t (2 : Fin 3) * 1024 + 1 * d.val = d.val; omega

theorem read1_3 (c : Dev nD) (t : Fin cfg1.N) (r : Fin 1024) (d : Fin 1024) :
    (iblk1 V c 3 t : Vec Ideal S1x1024x1024 .f32) (ix3 (0 : Fin 1) r d) = (V c main_arg0 : Attn.ArrX) (ix3 (bat1 t) (row1 t r) d) := by
  obtain ⟨-, -, -, ⟨e0, e1, e2⟩, -, -, -⟩ := idx_facts1 t
  show V c main_arg0 (((cfg1.win 3).blk t).view.emb (ix3 (0 : Fin 1) r d)) = V c main_arg0 _
  refine congrArg (V c main_arg0) (funext fun a => Fin.ext ?_)
  match a with
  | ⟨0, _⟩ => show win1_3.index t (0 : Fin 3) * 1 + 1 * 0 = t.val / 8; omega
  | ⟨1, _⟩ => show win1_3.index t (1 : Fin 3) * 1024 + 1 * r.val = t.val / 4 % 2 * 1024 + r.val; omega
  | ⟨2, _⟩ => show win1_3.index t (2 : Fin 3) * 1024 + 1 * d.val = d.val; omega

theorem read1_4 (c : Dev nD) (t : Fin cfg1.N) (d : Fin 1024) :
    (iblk1 V c 4 t : Vec Ideal S1024 .f32) (ix1 d) = (V c main_arg4 : Attn.ArrG) (ix1 d) := by
  obtain ⟨-, -, -, -, e0, -, -⟩ := idx_facts1 t
  show V c main_arg4 (((cfg1.win 4).blk t).view.emb (ix1 d)) = V c main_arg4 _
  refine congrArg (V c main_arg4) (funext fun a => Fin.ext ?_)
  match a with
  | ⟨0, _⟩ => show win1_4.index t (0 : Fin 1) * 1024 + 1 * d.val = d.val; omega

theorem read1_5 (c : Dev nD) (t : Fin cfg1.N) (d : Fin 1024) :
    (iblk1 V c 5 t : Vec Ideal S1024 .f32) (ix1 d) = (V c main_arg5 : Attn.ArrG) (ix1 d) := by
  obtain ⟨-, -, -, -, -, e0, -⟩ := idx_facts1 t
  show V c main_arg5 (((cfg1.win 5).blk t).view.emb (ix1 d)) = V c main_arg5 _
  refine congrArg (V c main_arg5) (funext fun a => Fin.ext ?_)
  match a with
  | ⟨0, _⟩ => show win1_5.index t (0 : Fin 1) * 1024 + 1 * d.val = d.val; omega

/-! ## The result array -/

/-- Row `r` of point `t`'s block of the result is row `row1 t r` of batch `bat1 t` of the array. -/
theorem emb1_6 (t : Fin cfg1.N) (u : Fin 1) (r : Fin 1024) (d : Fin 1024) :
    ((cfg1.win 6).blk t).view.emb (ix3 u r d) = (ix3 (bat1 t) (row1 t r) d : S4x2048x1024.Idx) := by
  obtain ⟨-, -, -, -, -, -, ⟨e0, e1, e2⟩⟩ := idx_facts1 t
  have hu : u.val = 0 := by omega
  refine funext fun a => Fin.ext ?_
  match a with
  | ⟨0, _⟩ => show win1_6.index t (0 : Fin 3) * 1 + 1 * u.val = t.val / 8; omega
  | ⟨1, _⟩ => show win1_6.index t (1 : Fin 3) * 1024 + 1 * r.val = t.val / 4 % 2 * 1024 + r.val; omega
  | ⟨2, _⟩ => show win1_6.index t (2 : Fin 3) * 1024 + 1 * d.val = d.val; omega

/-- An index is in point `t`'s block iff each coordinate is in the block's range. -/
theorem mem_blk1_6 (t : Fin cfg1.N) (i : S4x2048x1024.Idx) :
    i ∈ ((cfg1.win 6).blk t).view.set ↔ ∀ a : Fin 3, win1_6.index t a * S1x1024x1024.size a ≤ (i a).val ∧ (i a).val < win1_6.index t a * S1x1024x1024.size a + S1x1024x1024.size a := by
  show i ∈ ((View.whole main_v1).slice (win1_6.rect t)).set ↔ _
  rw [View.set_slice_whole, Rect.mem_set_unit]
  exact Iff.rfl

/-- Every index of the result array is in the block written back at the last key tile of its batch and query tile. -/
theorem tiles1_6 (i : S4x2048x1024.Idx) : ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 1024 := (i 2).isLt
  have hN : cfg1.N = 32 := N_1
  obtain ⟨t, ht⟩ : ∃ t : Fin cfg1.N, t.val = ((i 0).val * 2 + (i 1).val / 1024) * 4 + 3 := ⟨⟨((i 0).val * 2 + (i 1).val / 1024) * 4 + 3, by omega⟩, rfl⟩
  refine ⟨t, (flush1_6 t).mpr (by omega), ?_⟩
  rw [mem_blk1_6]
  obtain ⟨-, -, -, -, -, -, ⟨e0, e1, e2⟩⟩ := idx_facts1 t
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 1024 ≤ (i 2).val ∧ (i 2).val < win1_6.index t (2 : Fin 3) * 1024 + 1024; omega

/-- If at every last key tile the result's block is the corresponding block of one whole-array function `G`, the
    result array ends holding `G`. -/
theorem arr1_6_of (c : Dev nD) (G : Attn.ArrX)
    (hG : ∀ (t : Fin cfg1.N), t.val % 4 = 3 → ∀ (r d : Fin 1024),
      ((dat1 (F := Ideal) V c).after 6 t : Vec Ideal S1x1024x1024 .f32) (ix3 (0 : Fin 1) r d) = G (ix3 (bat1 t) (row1 t r) d)) :
    (dat1 (F := Ideal) V c).arrAt 6 cfg1.N = fun i => G i := by
  refine (dat1 (F := Ideal) V c).arrAt_eq_of_cover 6 G (fun t hf => ?_) tiles1_6
  have h3 : t.val % 4 = 3 := (flush1_6 t).mp hf
  show (cfg1.win 6).cut (grid1.coords t) ((dat1 V c).after 6 t) = _
  refine funext fun (j : S1x1024x1024.Idx) => ?_
  obtain ⟨u, r, d, rfl⟩ : ∃ (u : Fin 1) (r : Fin 1024) (d : Fin 1024), j = ix3 u r d := ⟨j 0, j 1, j 2, eq_ix3 j⟩
  obtain rfl : u = (0 : Fin 1) := Fin.ext (by omega)
  show ((dat1 (F := Ideal) V c).after 6 t : Vec Ideal S1x1024x1024 .f32) (ix3 (0 : Fin 1) r d) = G (((cfg1.win 6).blk t).view.emb (ix3 (0 : Fin 1) r d))
  rw [emb1_6 t 0 r d]
  exact hG t h3 r d

end Value1

end Cert.KernelIdeal.Hand

end
-- ==== Proof.AttnStage.lean ====
import proofs.«101722_j472446402583_2_alg».proof.Proof.AttnSpec

/-!
# The attention stage by itself

The second stage sees only arrays: the gated queries `Q` and keys `K` ([4, 2048, 64]), the values `Xb` and the
residual `X` ([4, 2048, 1024]), and the layer norm's `γ`, `β`. Its running reference point, denominator and
numerator are the recurrences of `AttnSpec` over an ARBITRARY score function `S` (tile, position) and value function
`W`; at the scores `∑ᵣ Q[b,q,r]·K[b,k,r]` and the values `Xb[b,k,d]` they give the stage's result `out1`, and at the
first stage's `Q = qk`, `K = kk`, `Xb = x` that is the whole layer's `kout`.
-/

noncomputable section

namespace Attn

open Idealize.ShloMosaic Idealize.ShloMosaic.ValueIdx Finset

section Gen

variable (S : ℕ → Fin 512 → EReal)

/-- The running reference point over any scores. -/
def mG : ℕ → EReal
  | 0 => negBig
  | t + 1 => max (mG t) (univ.fold max negInf (S t))

/-- The running denominator over any scores. -/
def lG : ℕ → EReal
  | 0 => 0
  | t + 1 => Ideal.exp (mG S t - mG S (t + 1)) * lG t + ∑ j : Fin 512, Ideal.exp (S t j - mG S (t + 1))

/-- The running numerator over any scores and values. -/
def aG (W : ℕ → Fin 512 → EReal) : ℕ → EReal
  | 0 => 0
  | t + 1 => Ideal.exp (mG S t - mG S (t + 1)) * aG W t + ∑ j : Fin 512, Ideal.exp (S t j - mG S (t + 1)) * W t j

end Gen

/-- The score of query `q` against the key at position `j` of tile `t`, from the two projected arrays. -/
def sc1 (Q K : ArrM) (b : Fin 4) (q : Fin 2048) (t : ℕ) (j : Fin 512) : EReal :=
  ∑ r : Fin 64, Q (ix3 b q r) * K (ix3 b (key t j) r)

/-- The attention stage's result. -/
def out1 (Q K : ArrM) (Xb X : ArrX) (γ β : ArrG) : ArrX :=
  fun i => lnRow γ β (fun d => X (ix3 (i 0) (i 1) d)
    + Ideal.div (aG (sc1 Q K (i 0) (i 1)) (fun t j => Xb (ix3 (i 0) (key t j) d)) 4) (lG (sc1 Q K (i 0) (i 1)) 4)) (i 2)

section Tie

variable (x : ArrX) (mask : ArrM) (U V : ArrW) (b : Fin 4) (q : Fin 2048)

theorem sc_eq_sc1 : sc x mask U V b q
    = sc1 (fun i => qk x mask U (i 0) (i 1) (i 2)) (fun i => kk x mask V (i 0) (i 1) (i 2)) b q := rfl

theorem mE_eq_mG (t : ℕ) : mE x mask U V b q t = mG (sc x mask U V b q) t := by
  induction t with
  | zero => rfl
  | succ t ih => simp only [mE, mG, ih]

theorem lE_eq_lG (t : ℕ) : lE x mask U V b q t = lG (sc x mask U V b q) t := by
  induction t with
  | zero => rfl
  | succ t ih => simp only [lE, lG, ih, mE_eq_mG]

theorem aE_eq_aG (d : Fin 1024) (t : ℕ) :
    aE x mask U V b q d t = aG (sc x mask U V b q) (fun t j => x (ix3 b (key t j) d)) t := by
  induction t with
  | zero => rfl
  | succ t ih => simp only [aE, aG, ih, mE_eq_mG]

end Tie

/-- The whole layer is the attention stage at the first stage's results. -/
theorem kout_eq_out1 (x : ArrX) (mask : ArrM) (U V : ArrW) (γ β : ArrG) :
    kout x mask U V γ β
      = out1 (fun i => qk x mask U (i 0) (i 1) (i 2)) (fun i => kk x mask V (i 0) (i 1) (i 2)) x x γ β := by
  funext i
  unfold kout out1 yrow
  refine congrArg (fun f => lnRow γ β f (i 2)) (funext fun d => ?_)
  exact congrArg₂ (fun a l => x (ix3 (i 0) (i 1) d) + Ideal.div a l)
    (aE_eq_aG x mask U V (i 0) (i 1) d 4) (lE_eq_lG x mask U V (i 0) (i 1) 4)

end Attn

end
-- ==== Proof.KIVal1.lean ====
import proofs.«101722_j472446402583_2_alg».proof.Proof.KIReg1Val
import proofs.«101722_j472446402583_2_alg».proof.Proof.KIStep1
import proofs.«101722_j472446402583_2_alg».proof.Proof.KIVal1Blocks
import proofs.«101722_j472446402583_2_alg».proof.Proof.AttnStage
import Idealize.ShloMosaic.Lib.Pipeline.Value
import Idealize.ShloMosaic.Lib.ValueIdx

/-! # The attention stage's result array, over the extended reals

At a point `t` = (batch `b`, query tile, key tile `k`) the three scratch buffers hold, row by row, the running
numerator, reference point and denominator of `AttnStage` after `k + 1` key tiles, for the query of that row: the
one-tile update read at an index IS the recurrences' step, the tile's scores being the layer's scores at the
point's batch, row and key tile; so by induction along the key tiles the buffers hold the recurrences, and at the
last key tile the output block is the normalised residual row. -/

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Region1

variable (V : (c : Dev nD) → (b : Ref sig .tc) → Buf (Elt Ideal) ((c : Thread nD τ).loc b))

/-- The arrays the stage reads, as index functions. -/
abbrev arQ (c : Dev nD) : Attn.ArrM := V c main_v0_0
abbrev arK (c : Dev nD) : Attn.ArrM := V c main_v0_1
abbrev arXb (c : Dev nD) : Attn.ArrX := V c main_v0_2
abbrev arX (c : Dev nD) : Attn.ArrX := V c main_arg0
abbrev arGam (c : Dev nD) : Attn.ArrG := V c main_arg4
abbrev arBet (c : Dev nD) : Attn.ArrG := V c main_arg5

/-- The scores of the query in row `r` of point `t`'s query tile, against all key tiles. -/
abbrev scAt (c : Dev nD) (t : Fin cfg1.N) (r : Fin 1024) : ℕ → Fin 512 → EReal :=
  Attn.sc1 (arQ V c) (arK V c) (bat1 t) (row1 t r)
/-- The values of feature `d` in point `t`'s batch, by key tile and position. -/
abbrev valAt (c : Dev nD) (t : Fin cfg1.N) (d : Fin 1024) : ℕ → Fin 512 → EReal :=
  fun t' j => arXb V c (ix3 (bat1 t) (Attn.key t' j) d)

/-- The tile's scores are the layer's scores at the point's batch, row and key tile. -/
theorem sloc_eq (c : Dev nD) (t : Fin cfg1.N) (r : Fin 1024) :
    sloc (iblk1 V c 0 t) (iblk1 V c 1 t) r = scAt V c t r (t.val % 4) := by
  funext j
  exact Finset.sum_congr rfl fun ρ _ => congrArg₂ (· * ·) (read1_0 V c t r ρ) (read1_1 V c t j ρ)

/-- ONE KEY TILE, read at an index: if the scratch buffers hold the recurrences after `k` tiles, they hold them after
    `k + 1` once the body has run at a point of key tile `k`. -/
theorem step1_at (c : Dev nD) (t : Fin cfg1.N)
    (p : Vec Ideal S1024x1024 .f32 × Vec Ideal S1024x1 .f32 × Vec Ideal S1024x1 .f32) (k : ℕ) (hk : t.val % 4 = k)
    (hA : ∀ r d : Fin 1024, p.1 (ix2 r d) = Attn.aG (scAt V c t r) (valAt V c t d) k)
    (hM : ∀ r : Fin 1024, p.2.1 (ix2 r 0) = Attn.mG (scAt V c t r) k)
    (hL : ∀ r : Fin 1024, p.2.2 (ix2 r 0) = Attn.lG (scAt V c t r) k) :
    (∀ r d : Fin 1024, (step1 V c t p).1 (ix2 r d) = Attn.aG (scAt V c t r) (valAt V c t d) (k + 1))
      ∧ (∀ r : Fin 1024, (step1 V c t p).2.1 (ix2 r 0) = Attn.mG (scAt V c t r) (k + 1))
      ∧ (∀ r : Fin 1024, (step1 V c t p).2.2 (ix2 r 0) = Attn.lG (scAt V c t r) (k + 1)) := by
  have hm8 : ∀ r : Fin 1024, k1_pay8 (F := Ideal) (iblk1 V c 0 t) (iblk1 V c 1 t) p.2.1 (ix2 r 0)
      = Attn.mG (scAt V c t r) (k + 1) := fun r => by
    rw [pay8_at, hM r, sloc_eq V c t r, hk]; rfl
  refine ⟨fun r d => ?_, fun r => ?_, fun r => ?_⟩
  · show upd0 (iblk1 V c 0 t) (iblk1 V c 1 t) (iblk1 V c 2 t) p.1 p.2.1 (ix2 r d) = _
    unfold upd0
    rw [pay1_at, hm8 r, hM r, hA r d]
    show _ = Ideal.exp (Attn.mG (scAt V c t r) k - Attn.mG (scAt V c t r) (k + 1)) * Attn.aG (scAt V c t r) (valAt V c t d) k
      + ∑ j : Fin 512, Ideal.exp (scAt V c t r k j - Attn.mG (scAt V c t r) (k + 1)) * valAt V c t d k j
    refine congrArg₂ (· + ·) rfl (Finset.sum_congr rfl fun j _ => ?_)
    rw [sloc_eq V c t r, hk]
    exact congrArg₂ (· * ·) rfl ((read1_2 V c t j d).trans (by rw [hk]))
  · show upd1 (iblk1 V c 0 t) (iblk1 V c 1 t) p.2.1 (ix2 r 0) = _
    unfold upd1
    rw [pay2_at, hm8 r]
  · show upd2 (iblk1 V c 0 t) (iblk1 V c 1 t) p.2.1 p.2.2 (ix2 r 0) = _
    unfold upd2
    rw [pay11_at, hm8 r, hM r, hL r]
    show _ = Ideal.exp (Attn.mG (scAt V c t r) k - Attn.mG (scAt V c t r) (k + 1)) * Attn.lG (scAt V c t r) k
      + ∑ j : Fin 512, Ideal.exp (scAt V c t r k j - Attn.mG (scAt V c t r) (k + 1))
    refine congrArg₂ (· + ·) rfl (Finset.sum_congr rfl fun j _ => ?_)
    rw [sloc_eq V c t r, hk]

/-- The reset values are the recurrences before any tile. -/
theorem reset1_at (c : Dev nD) (t : Fin cfg1.N) :
    (∀ r d : Fin 1024, (reset1 (F := Ideal)).1 (ix2 r d) = Attn.aG (scAt V c t r) (valAt V c t d) 0)
      ∧ (∀ r : Fin 1024, (reset1 (F := Ideal)).2.1 (ix2 r 0) = Attn.mG (scAt V c t r) 0)
      ∧ (∀ r : Fin 1024, (reset1 (F := Ideal)).2.2 (ix2 r 0) = Attn.lG (scAt V c t r) 0) :=
  ⟨fun r d => pay4_at r d, fun r => pay5_at r, fun r => pay6_at r⟩

/-- Two consecutive points of one (batch, query tile) see the same batch and the same rows. -/
theorem bat1_succ (n : ℕ) (h : n + 1 < cfg1.N) (h0 : ¬(n + 1) % 4 = 0) :
    bat1 ⟨n + 1, h⟩ = bat1 ⟨n, Nat.lt_of_succ_lt h⟩ := by
  apply Fin.ext; unfold bat1; dsimp only; omega
theorem row1_succ (n : ℕ) (h : n + 1 < cfg1.N) (h0 : ¬(n + 1) % 4 = 0) (r : Fin 1024) :
    row1 ⟨n + 1, h⟩ r = row1 ⟨n, Nat.lt_of_succ_lt h⟩ r := by
  apply Fin.ext; unfold row1; dsimp only; omega

/-- THE CHAIN AT AN INDEX: after position `n` the scratch buffers hold the recurrences after `n % 4 + 1` key tiles. -/
theorem chain1_at (c : Dev nD) : ∀ (n : ℕ) (h : n < cfg1.N),
    (∀ r d : Fin 1024, (chain1 V c n h).1 (ix2 r d) = Attn.aG (scAt V c ⟨n, h⟩ r) (valAt V c ⟨n, h⟩ d) (n % 4 + 1))
      ∧ (∀ r : Fin 1024, (chain1 V c n h).2.1 (ix2 r 0) = Attn.mG (scAt V c ⟨n, h⟩ r) (n % 4 + 1))
      ∧ (∀ r : Fin 1024, (chain1 V c n h).2.2 (ix2 r 0) = Attn.lG (scAt V c ⟨n, h⟩ r) (n % 4 + 1))
  | 0, h => by
    obtain ⟨hA, hM, hL⟩ := reset1_at V c ⟨0, h⟩
    exact step1_at V c ⟨0, h⟩ reset1 0 rfl hA hM hL
  | n + 1, h => by
    by_cases h0 : (n + 1) % 4 = 0
    · rw [show chain1 V c (n + 1) h = step1 V c ⟨n + 1, h⟩ reset1 from if_pos h0, h0]
      obtain ⟨hA, hM, hL⟩ := reset1_at V c ⟨n + 1, h⟩
      exact step1_at V c ⟨n + 1, h⟩ reset1 0 h0 hA hM hL
    · rw [show chain1 V c (n + 1) h = step1 V c ⟨n + 1, h⟩ (chain1 V c n (Nat.lt_of_succ_lt h)) from if_neg h0]
      obtain ⟨hA, hM, hL⟩ := chain1_at c n (Nat.lt_of_succ_lt h)
      have hk : (n + 1) % 4 = n % 4 + 1 := by omega
      have hb := bat1_succ n h h0
      have hr := row1_succ n h h0
      rw [hk]
      refine step1_at V c ⟨n + 1, h⟩ _ (n % 4 + 1) hk ?_ ?_ ?_
      · intro r d; rw [hA r d]; unfold scAt valAt; rw [hb, hr r]
      · intro r; rw [hM r]; unfold scAt; rw [hb, hr r]
      · intro r; rw [hL r]; unfold scAt; rw [hb, hr r]

/-- At a last key tile the output block is the stage's result at the point's batch and rows. -/
theorem after1_6_at (c : Dev nD) (t : Fin cfg1.N) (h3 : t.val % 4 = 3) (r d : Fin 1024) :
    ((dat1 (F := Ideal) V c).after 6 t : Vec Ideal S1x1024x1024 .f32) (ix3 0 r d)
      = Attn.out1 (arQ V c) (arK V c) (arXb V c) (arX V c) (arGam V c) (arBet V c) (ix3 (bat1 t) (row1 t r) d) := by
  rw [after1_6, outsAt1_out V c t h3]
  obtain ⟨hA, hM, hL⟩ := chain1_at V c t.val t.isLt
  rw [pay3_at]
  have hg : (iblk1 V c 4 t : Vec Ideal S1024 .f32) = arGam V c := funext fun i => by rw [eq_ix1 i]; exact read1_4 V c t (i 0)
  have hb : (iblk1 V c 5 t : Vec Ideal S1024 .f32) = arBet V c := funext fun i => by rw [eq_ix1 i]; exact read1_5 V c t (i 0)
  rw [hg, hb]
  unfold Attn.out1
  refine congrArg (fun f => Attn.lnRow (arGam V c) (arBet V c) f d) (funext fun d' => ?_)
  rw [hA r d', hL r, h3]
  exact congrArg₂ (· + ·) (read1_3 V c t r d') rfl

/-- THE STAGE'S RESULT ARRAY. -/
theorem arr1_6 (c : Dev nD) : (dat1 (F := Ideal) V c).arrAt 6 cfg1.N
    = fun i => Attn.out1 (arQ V c) (arK V c) (arXb V c) (arX V c) (arGam V c) (arBet V c) i :=
  arr1_6_of V c _ fun t h3 r d => after1_6_at V c t h3 r d

end Region1

end Cert.KernelIdeal.Hand

end
-- ==== Proof.KIValue.lean ====
import proofs.«101722_j472446402583_2_alg».proof.Proof.KIValueArgs
import proofs.«101722_j472446402583_2_alg».proof.Proof.KIVal1
import proofs.«101722_j472446402583_2_alg».proof.Proof.AttnStage

/-!
# The layer's result, from the launch contents, over the extended reals

The attention call turns the six arrays it reads into its result array by one function of them (`Attn.out1`). What
it reads are the projection call's three results — the gated, rank-normalised queries, the gated keys, and `x` — and
three untouched arguments; the attention stage at the first stage's results is the whole layer (`Attn.kout`). So
every weakly fair execution of the two calls ends with the result array at `Attn.kout` of the six argument arrays as
launched, and with the arguments unchanged.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The attention stage's result depends on its six arrays only. -/
theorem attn_out1_congr {Q Q' K K' : Attn.ArrM} {Xb Xb' X X' : Attn.ArrX} {γ γ' β β' : Attn.ArrG}
    (hQ : Q = Q') (hK : K = K') (hXb : Xb = Xb') (hX : X = X') (hγ : γ = γ') (hβ : β = β') :
    (fun i => Attn.out1 Q K Xb X γ β i) = Attn.out1 Q' K' Xb' X' γ' β' := by
  subst hQ hK hXb hX hγ hβ; rfl

variable (m : (ℓ : Loc nD τ sig) → Buf (Elt Ideal) ℓ) (ρ : Dev nD → PrngReg)

/-- The result array after the two calls is the layer's result at the launch contents of the six arguments. -/
theorem kernel_value (c : Dev nD) : (dat1 (F := Ideal) (V1 m ρ) c).arrAt 6 cfg1.N
    = Attn.kout (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  (arr1_6 (V1 m ρ) c).trans
    ((attn_out1_congr (V1_main_v0_0 m ρ c) (V1_main_v0_1 m ρ c) (V1_main_v0_2 m ρ c) (V1_main_arg0 m ρ c)
        (V1_main_arg4 m ρ c) (V1_main_arg5 m ρ c)).trans
      (Attn.kout_eq_out1 _ _ _ _ _ _).symm)

/-- The run of the two calls with the result read: the result array at the layer's result, the arguments unchanged. -/
theorem kernel_run : θ_run defs (onTc (τ := τ) (main (F := Ideal))) ⟨m, fun _ => 0, ρ⟩ (fun r => ∀ c : Dev nD,
      r.2.mem ((c.tc : Thread nD τ).loc main_v1)
        = Attn.kout (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (kernel_value m ρ c), (h c).2⟩) (run_value m ρ)

end Cert.KernelIdeal.Hand

end
-- ==== Proof.RefSpec.lean ====
import Mathlib
import Idealize.ShloMosaic.PureOps.Ideal
import Idealize.ShloMosaic.Lib.ValueIdx
import proofs.«101722_j472446402583_2_alg».proof.Proof.AttnSpec

/-!
# The same layer computed in one piece: plain softmax attention over all 2048 keys

Per batch `b` and query `q`: the gated projections `qraw = (x·U)·mask` and `kk = (x·V)·mask`; the score against key
`k` is `(∑ᵣ qraw[b,q,r]·kk[b,k,r]) / √reff[b,q]`; the row of scores is turned into softmax weights the usual way (the
largest score, taken from the seed `-∞`, is subtracted, the exponentials are divided by their sum); the weights
average the rows of `x`; the residual row `x[b,q,·] + average` is then normalised by `lnRow`.
-/

noncomputable section

namespace Attn

open Idealize.ShloMosaic Idealize.ShloMosaic.ValueIdx Finset

/-- The gated query projection, before any scaling. -/
def qraw (x : ArrX) (mask : ArrM) (U : ArrW) (b : Fin 4) (n : Fin 2048) (r : Fin 64) : EReal :=
  (∑ d : Fin 1024, x (ix3 b n d) * U (ix2 d r)) * mask (ix3 b n r)

section Row

variable (x : ArrX) (mask : ArrM) (U V : ArrW) (b : Fin 4) (q : Fin 2048)

/-- The score of query `q` against key `k`: the product of the gated projections over the square root of the
    effective rank. -/
def rsc (k : Fin 2048) : EReal :=
  Ideal.div (∑ r : Fin 64, qraw x mask U b q r * kk x mask V b k r) (Ideal.sqrt (reff mask b q))

/-- The largest score of the row (the maximum is taken from the seed `-∞`, and once more against `-∞`). -/
def rmax : EReal := max negInf (univ.fold max negInf (rsc x mask U V b q))

/-- The softmax denominator of the row. -/
def rden : EReal := ∑ k : Fin 2048, Ideal.exp (rsc x mask U V b q k - rmax x mask U V b q)

/-- The softmax weight of key `k`. -/
def rwt (k : Fin 2048) : EReal :=
  Ideal.div (Ideal.exp (rsc x mask U V b q k - rmax x mask U V b q)) (rden x mask U V b q)

/-- The residual row before normalisation. -/
def ryrow (d : Fin 1024) : EReal :=
  x (ix3 b q d) + ∑ k : Fin 2048, rwt x mask U V b q k * x (ix3 b k d)

end Row

/-- The layer's result, computed in one piece. -/
def rout (x : ArrX) (mask : ArrM) (U V : ArrW) (γ β : ArrG) : ArrX :=
  fun i => lnRow γ β (fun d => ryrow x mask U V (i 0) (i 1) d) (i 2)

end Attn

end
-- ==== Proof.RefScores.lean ====
import proofs.«101722_j472446402583_2_alg».proof.Proof.Gen.ReferenceIdeal.Read
import proofs.«101722_j472446402583_2_alg».proof.Proof.RefSpec

/-!
# The one-piece computation, read off the reference program stage by stage (part one: the scores)

Each lemma reads one intermediate array of the reference program at an index and identifies it with the
corresponding quantity of the one-piece description: the gated projections, the effective rank, the scores.
-/

set_option pp.maxSteps 5000
set_option pp.deepTerms false

noncomputable section

namespace Cert.ReferenceIdeal.RefValue

open Cert.ReferenceIdeal Cert.ReferenceIdeal.Read Idealize.ShloMosaic Idealize.ShloMosaic.ValueIdx Finset Attn

variable (x : ArrX) (mask : ArrM) (U V : ArrW)

/-- The gated query projection. -/
theorem v1_at (i : S4x2048x64.Idx) :
    val_main_v1 (F := Ideal) x mask U i = qraw x mask U (i 0) (i 1) (i 2) := by
  obtain ⟨b, n, r, rfl⟩ : ∃ b n r, i = ix3 b n r := ⟨i 0, i 1, i 2, eq_ix3 i⟩
  rw [val_main_v1_apply, val_main_v0_apply]
  have el : ∀ k, lidx_main_v0 (ix3 b n r) k = ix3 b n k := fun k => by
    funext a; match a with | ⟨0, _⟩ => rfl | ⟨1, _⟩ => rfl | ⟨2, _⟩ => rfl
  have er : ∀ k, ridx_main_v0 (ix3 b n r) k = ix2 k r := fun k => by
    funext a; match a with | ⟨0, _⟩ => rfl | ⟨1, _⟩ => rfl
  simp only [el, er, Ideal.mulf_def]
  rfl

/-- The gated key projection. -/
theorem v3_at (i : S4x2048x64.Idx) :
    val_main_v3 (F := Ideal) x mask V i = kk x mask V (i 0) (i 1) (i 2) := by
  obtain ⟨b, n, r, rfl⟩ : ∃ b n r, i = ix3 b n r := ⟨i 0, i 1, i 2, eq_ix3 i⟩
  rw [val_main_v3_apply, val_main_v2_apply]
  have el : ∀ k, lidx_main_v2 (ix3 b n r) k = ix3 b n k := fun k => by
    funext a; match a with | ⟨0, _⟩ => rfl | ⟨1, _⟩ => rfl | ⟨2, _⟩ => rfl
  have er : ∀ k, ridx_main_v2 (ix3 b n r) k = ix2 k r := fun k => by
    funext a; match a with | ⟨0, _⟩ => rfl | ⟨1, _⟩ => rfl
  simp only [el, er, Ideal.mulf_def]
  rfl

/-- The effective rank. -/
theorem v7_at (i : S4x2048x1.Idx) : val_main_v7 (F := Ideal) mask i = reff mask (i 0) (i 1) := by
  obtain ⟨b, n, z, rfl⟩ : ∃ b n z, i = ix3 b n z := ⟨i 0, i 1, i 2, eq_ix3 i⟩
  rw [val_main_v7_apply, val_main_v5_apply, val_main_v4_apply, val_main_v6_apply, val_main_cst_0_apply,
    val_main_cst_apply]
  have e : ∀ k, idx_main_v4 (idx_main_v5 (ix3 b n z)) k = ix3 b n k := fun k => by
    funext a; match a with | ⟨0, _⟩ => rfl | ⟨1, _⟩ => rfl | ⟨2, _⟩ => rfl
  simp only [e, Ideal.maximumf_def, Ideal.ofBits_def, Ideal.ofBits_zero_f32, zero_add]
  rfl

/-- The score of a query against a key. -/
theorem v11_at (i : S4x2048x2048.Idx) :
    val_main_v11 (F := Ideal) x mask U V i = rsc x mask U V (i 0) (i 1) (i 2) := by
  obtain ⟨b, q, k, rfl⟩ : ∃ b q k, i = ix3 b q k := ⟨i 0, i 1, i 2, eq_ix3 i⟩
  rw [val_main_v11_apply, val_main_v8_apply, val_main_v10_apply, val_main_v9_apply, v7_at]
  simp only [v1_at, v3_at, Ideal.hostDivf_def, Ideal.hostUnary_sqrt_def]
  rfl

end Cert.ReferenceIdeal.RefValue

end
-- ==== Proof.RefValue.lean ====
import proofs.«101722_j472446402583_2_alg».proof.Proof.RefScores

/-!
# The one-piece computation, read off the reference program stage by stage (part two: softmax, residual, normalisation)

The row maximum, the exponentials, their sum, the softmax weights, the weighted average of the rows of `x`, the
residual row and its normalisation; and the conclusion: the reference program's result is `Attn.rout`.
-/

set_option pp.maxSteps 5000
set_option pp.deepTerms false

noncomputable section

namespace Cert.ReferenceIdeal.RefValue

open Cert.ReferenceIdeal Cert.ReferenceIdeal.Read Idealize.ShloMosaic Idealize.ShloMosaic.ValueIdx Finset Attn

variable (x : ArrX) (mask : ArrM) (U V : ArrW) (γ β : ArrG)

/-- A (batch, query) index with key `k` put back on the last axis is (batch, query, k). -/
private theorem lift_key (h : S4x2048x2048.Reduces [2] S4x2048) (b : Fin 4) (q : Fin 2048)
    (k : Fin (S4x2048x2048.size 2)) : h.lift (ix2 b q) k = ix3 b q (⟨k.val, k.isLt⟩ : Fin 2048) := by
  funext c; apply Fin.ext
  fin_cases c <;> rfl

/-- The maximum over the keys, from the seed `-∞`. -/
theorem v12_at (i : S4x2048.Idx) :
    val_main_v12 (F := Ideal) x mask U V i = univ.fold max negInf (rsc x mask U V (i 0) (i 1)) := by
  obtain ⟨b, q, rfl⟩ : ∃ b q, i = ix2 b q := ⟨i 0, i 1, eq_ix2 i⟩
  have h : S4x2048x2048.Reduces [2] S4x2048 := by decide
  unfold val_main_v12
  rw [Host.reduce_eq_fold_single FloatOps.maximumf _ _ _ h]
  have hf : (val_main_v11 (F := Ideal) x mask U V ∘ h.lift (ix2 b q)) = rsc x mask U V b q := by
    funext k
    show val_main_v11 (F := Ideal) x mask U V (h.lift (ix2 b q) k) = _
    rw [lift_key, v11_at]
    rfl
  rw [hf]
  rfl

/-- The row maximum. -/
theorem v14_at (i : S4x2048.Idx) :
    val_main_v14 (F := Ideal) x mask U V i = rmax x mask U V (i 0) (i 1) := by
  rw [val_main_v14_apply, val_main_v13_apply, val_main_cst_2_apply, v12_at]
  rfl

/-- The exponential of a score minus the row maximum. -/
theorem v18_at (i : S4x2048x2048.Idx) :
    val_main_v18 (F := Ideal) x mask U V i
      = Ideal.exp (rsc x mask U V (i 0) (i 1) (i 2) - rmax x mask U V (i 0) (i 1)) := by
  rw [val_main_v18_apply, val_main_v17_apply, val_main_v16_apply, val_main_v15_apply, v11_at, v14_at]
  rfl

/-- The softmax denominator. -/
theorem v19_at (i : S4x2048.Idx) :
    val_main_v19 (F := Ideal) x mask U V i = rden x mask U V (i 0) (i 1) := by
  obtain ⟨b, q, rfl⟩ : ∃ b q, i = ix2 b q := ⟨i 0, i 1, eq_ix2 i⟩
  rw [val_main_v19_apply, val_main_cst_3_apply]
  simp only [v18_at, Ideal.ofBits_def, Ideal.ofBits_zero_f32, zero_add]
  rfl

/-- The softmax weight. -/
theorem v22_at (i : S4x2048x2048.Idx) :
    val_main_v22 (F := Ideal) x mask U V i = rwt x mask U V (i 0) (i 1) (i 2) := by
  rw [val_main_v22_apply, val_main_v21_apply, val_main_v20_apply, v18_at, v19_at]
  rfl

/-- The residual row. -/
theorem v24_at (i : S4x2048x1024.Idx) :
    val_main_v24 (F := Ideal) x mask U V i = ryrow x mask U V (i 0) (i 1) (i 2) := by
  obtain ⟨b, q, d, rfl⟩ : ∃ b q d, i = ix3 b q d := ⟨i 0, i 1, i 2, eq_ix3 i⟩
  rw [val_main_v24_apply, val_main_v23_apply]
  have er : ∀ k, ridx_main_v23 (ix3 b q d) k = ix3 b k d := fun k => by
    funext a; match a with | ⟨0, _⟩ => rfl | ⟨1, _⟩ => rfl | ⟨2, _⟩ => rfl
  simp only [v22_at, er, Ideal.addf_def]
  rfl

/-- **The reference program computes `Attn.rout`.** -/
theorem ref_eq_rout : val_main_v48 (F := Ideal) x mask U V γ β = rout x mask U V γ β := by
  funext i
  obtain ⟨b, q, d, rfl⟩ : ∃ b q d, i = ix3 b q d := ⟨i 0, i 1, i 2, eq_ix3 i⟩
  simp only [val_main_v48_apply, val_main_v47_apply, val_main_v46_apply, val_main_v45_apply, val_main_v44_apply,
    val_main_v43_apply, val_main_v42_apply, val_main_v41_apply, val_main_v40_apply, val_main_v39_apply,
    val_main_v38_apply, val_main_cst_8_apply, val_main_v37_apply, val_main_v36_apply, val_main_v35_apply,
    val_main_v34_apply, val_main_cst_7_apply, val_main_v33_apply, val_main_v32_apply, val_main_cst_6_apply,
    val_main_v31_apply, val_main_v30_apply, val_main_v29_apply, val_main_v28_apply, val_main_v27_apply,
    val_main_cst_5_apply, val_main_v26_apply, val_main_v25_apply, val_main_cst_4_apply, v24_at,
    Ideal.addf_def, Ideal.subf_def, Ideal.mulf_def, Ideal.hostDivf_def, Ideal.hostUnary_rsqrt_def,
    Ideal.ofBits_def, Ideal.ofBits_zero_f32, zero_add]
  have eγ : idx_main_v43 (idx_main_v44 (ix3 b q d)) = ix1 d := by
    funext a; match a with | ⟨0, _⟩ => rfl
  have eβ : idx_main_v46 (idx_main_v47 (ix3 b q d)) = ix1 d := by
    funext a; match a with | ⟨0, _⟩ => rfl
  rw [eγ, eβ]
  rfl

end Cert.ReferenceIdeal.RefValue

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«101722_j472446402583_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.Finite.lean ====
import proofs.«101722_j472446402583_2_alg».proof.Pre_finite_inputs
import proofs.«101722_j472446402583_2_alg».proof.Proof.LibFiniteAll
import proofs.«101722_j472446402583_2_alg».proof.Proof.AttnSpec

/-!
# Finite inputs are real numbers

The precondition is the conjunction, over the six argument arrays, of "every entry has absolute value below `+∞`",
computed as one word. If that word is `1`, each of the six conjuncts is `1`, and an array all of whose entries pass the
test consists of real numbers.
-/

noncomputable section

namespace Attn

open Idealize.ShloMosaic Cert.LibRealSum Cert.Lib.FiniteAll

/-- Under the precondition every entry of each of the six argument arrays is a real number. -/
theorem finite_inputs [Cert.Pre_finite_inputs.Facts] (a0 : ArrX) (a1 : ArrM) (a2 a3 : ArrW) (a4 a5 : ArrG)
    (hpre : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h := congrFun hpre ValueIdx.ix0
  dsimp only [Cert.Pre_finite_inputs.fn, Cert.Pre_finite_inputs.fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real a0 _ _ _ _ h0, all_real a1 _ _ _ _ h1, all_real a2 _ _ _ _ h2, all_real a3 _ _ _ _ h3,
    all_real a4 _ _ _ _ h4, all_real a5 _ _ _ _ h5⟩

end Attn

end
-- ==== Proof.LibOnlineSoftmax.lean ====
import Mathlib
import Idealize.ShloMosaic.PureOps.Ideal

/-!
# The online softmax recurrence

A softmax-weighted average `(∑ₖ exp (sₖ - M) · vₖ) / (∑ₖ exp (sₖ - M))` over keys `k` can be computed
tile by tile.  The keys are split into tiles `t = 0, 1, …` of `n` positions each; a running reference
point `m t`, a running denominator and a running numerator are kept, and on meeting tile `t` the two
running sums are rescaled from the old reference point to the new one:

* `den (t+1) = exp (m t - m (t+1)) · den t + ∑ⱼ exp (s t j - m (t+1))`
* `num (t+1) = exp (m t - m (t+1)) · num t + ∑ⱼ exp (s t j - m (t+1)) · v t j`

starting from `den 0 = num 0 = 0`.  Because `exp x · exp y = exp (x + y)`, after `t` tiles
`den t = ∑_{t' < t} ∑ⱼ exp (s t' j - m t)` and likewise for `num`; the quotient `num T / den T` does
not depend on the reference points at all, and equals the softmax-weighted average taken with ANY real
reference point `M` (the common factor `exp (M - m T)` cancels).  Nothing here uses that `m` is a
running maximum: that choice only keeps the exponentials small.

The first part is over `ℝ`.  The second part transfers the statement to extended reals: sequences of
extended reals that satisfy the same recurrences written with the exact operations on `EReal` (`+`, `*`,
`-`, the exponential `Ideal.exp`, the division `Ideal.div`) and whose inputs are real numbers.  There
every step needs finiteness (on `EReal`, distributivity and cancellation fail at `±∞`), which is why the
inputs carry real witnesses.
-/

open Finset
open Idealize.ShloMosaic

namespace OnlineSoftmax

variable {n : ℕ}

/-! ## Over the reals -/

/-- The running numerator: rescale by `exp (old point - new point)`, then add the new tile's weighted terms. -/
noncomputable def num (s v : ℕ → Fin n → ℝ) (m : ℕ → ℝ) : ℕ → ℝ
  | 0 => 0
  | t + 1 => Real.exp (m t - m (t + 1)) * num s v m t + ∑ j, Real.exp (s t j - m (t + 1)) * v t j

/-- The running denominator: the same with every weight `1`. -/
noncomputable def den (s : ℕ → Fin n → ℝ) (m : ℕ → ℝ) : ℕ → ℝ
  | 0 => 0
  | t + 1 => Real.exp (m t - m (t + 1)) * den s m t + ∑ j, Real.exp (s t j - m (t + 1))

/-- Moving the reference point of a sum of exponentials from `a` to `b` costs the factor `exp (b - a)`. -/
theorem sum_exp_shift (s v : ℕ → Fin n → ℝ) (a b : ℝ) (T : ℕ) :
    ∑ t ∈ range T, ∑ j, Real.exp (s t j - a) * v t j
      = Real.exp (b - a) * ∑ t ∈ range T, ∑ j, Real.exp (s t j - b) * v t j := by
  rw [mul_sum]
  refine sum_congr rfl fun t _ => ?_
  rw [mul_sum]
  refine sum_congr rfl fun j _ => ?_
  rw [← mul_assoc, ← Real.exp_add]
  congr 2
  ring

/-- After `t` tiles the running numerator is the sum over all keys met so far, at the current reference point. -/
theorem num_eq (s v : ℕ → Fin n → ℝ) (m : ℕ → ℝ) (t : ℕ) :
    num s v m t = ∑ t' ∈ range t, ∑ j, Real.exp (s t' j - m t) * v t' j := by
  induction t with
  | zero => simp [num]
  | succ t ih => rw [num, ih, sum_range_succ, ← sum_exp_shift s v (m (t + 1)) (m t) t]

theorem den_eq_num (s : ℕ → Fin n → ℝ) (m : ℕ → ℝ) (t : ℕ) : den s m t = num s (fun _ _ => 1) m t := by
  induction t with
  | zero => rfl
  | succ t ih => simp only [den, num, ih, mul_one]

/-- After `t` tiles the running denominator is the sum of the exponentials of all keys met so far. -/
theorem den_eq (s : ℕ → Fin n → ℝ) (m : ℕ → ℝ) (t : ℕ) :
    den s m t = ∑ t' ∈ range t, ∑ j, Real.exp (s t' j - m t) := by
  rw [den_eq_num, num_eq]; simp only [mul_one]

/-- A sum of exponentials over a nonempty set of keys is positive. -/
theorem sum_exp_pos (hn : 0 < n) (s : ℕ → Fin n → ℝ) (a : ℝ) {T : ℕ} (hT : 0 < T) :
    0 < ∑ t ∈ range T, ∑ j, Real.exp (s t j - a) := by
  haveI : NeZero n := ⟨hn.ne'⟩
  exact sum_pos (fun _ _ => sum_pos (fun _ _ => Real.exp_pos _) univ_nonempty) (nonempty_range_iff.mpr hT.ne')

theorem den_pos (hn : 0 < n) (s : ℕ → Fin n → ℝ) (m : ℕ → ℝ) {T : ℕ} (hT : 0 < T) : 0 < den s m T := by
  rw [den_eq]; exact sum_exp_pos hn s _ hT

/-- **Online softmax, over the reals.**  The running numerator times the reciprocal of the running
    denominator is the softmax-weighted average with any reference point `M`, in the form
    `∑ₖ (exp (sₖ - M) / ∑ᵢ exp (sᵢ - M)) · vₖ`. -/
theorem num_mul_inv_den (s v : ℕ → Fin n → ℝ) (m : ℕ → ℝ) (T : ℕ) (M : ℝ) :
    num s v m T * (1 / den s m T)
      = ∑ t ∈ range T, ∑ j, Real.exp (s t j - M) / (∑ t' ∈ range T, ∑ i, Real.exp (s t' i - M)) * v t j := by
  rw [num_eq, den_eq_num, num_eq, sum_exp_shift s v (m T) M, sum_exp_shift s (fun _ _ => 1) (m T) M]
  simp only [mul_one]
  rw [mul_one_div, mul_div_mul_left _ _ (Real.exp_pos _).ne', sum_div]
  refine sum_congr rfl fun t _ => ?_
  rw [sum_div]
  refine sum_congr rfl fun j _ => ?_
  ring

/-! ## Over the extended reals, with real inputs -/

/-- The inclusion of the reals in the extended reals commutes with finite sums. -/
theorem coe_sum {ι : Type*} (A : Finset ι) (f : ι → ℝ) :
    ((∑ i ∈ A, f i : ℝ) : EReal) = ∑ i ∈ A, (f i : EReal) := by
  classical
  induction A using Finset.induction_on with
  | empty => simp
  | insert a A ha ih => rw [sum_insert ha, sum_insert ha, EReal.coe_add, ih]

/-- The exact exponential of a difference of two reals. -/
theorem exp_coe_sub_coe (a b : ℝ) : Ideal.exp ((a : EReal) - (b : EReal)) = ((Real.exp (a - b) : ℝ) : EReal) := by
  rw [← EReal.coe_sub, Ideal.exp_coe]

/-- The exact quotient by a nonzero real is the product with the reciprocal. -/
theorem div_coe_coe (a : ℝ) {b : ℝ} (hb : b ≠ 0) : Ideal.div (a : EReal) (b : EReal) = ((a * (1 / b) : ℝ) : EReal) := by
  rw [Ideal.div_coe hb, EReal.coe_mul]

/-- A maximum, taken from a seed below `+∞`, of finitely many reals is below `+∞`. -/
theorem fold_max_coe_ne_top {b : EReal} (hb : b ≠ ⊤) (f : Fin n → ℝ) :
    (univ.fold max b fun j => (f j : EReal)) ≠ ⊤ := by
  rw [← lt_top_iff_ne_top, Finset.fold_max_lt]
  exact ⟨lt_top_iff_ne_top.mpr hb, fun j _ => EReal.coe_lt_top _⟩

/-- A maximum of a nonempty family of reals is above `-∞`, whatever the seed. -/
theorem fold_max_coe_ne_bot (hn : 0 < n) (b : EReal) (f : Fin n → ℝ) :
    (univ.fold max b fun j => (f j : EReal)) ≠ ⊥ := by
  rw [← bot_lt_iff_ne_bot, Finset.lt_fold_max]
  exact Or.inr ⟨⟨0, hn⟩, mem_univ _, EReal.bot_lt_coe _⟩

/-- The running maximum stays real: starting at a real seed, taking at each tile the larger of the old
    value and the tile's maximum (itself seeded below `+∞`, e.g. at `-∞`) never leaves the reals. -/
theorem running_max_real {T : ℕ} (S : ℕ → Fin n → EReal) (s : ℕ → Fin n → ℝ)
    (hS : ∀ t < T, ∀ j, S t j = (s t j : ℝ)) {b : EReal} (hb : b ≠ ⊤)
    (mE : ℕ → EReal) (m₀ : ℝ) (hm0 : mE 0 = (m₀ : ℝ))
    (hm : ∀ t < T, mE (t + 1) = max (mE t) (univ.fold max b (S t))) :
    ∀ t ≤ T, mE t = (((mE t).toReal : ℝ) : EReal) := by
  have key : ∀ t ≤ T, mE t ≠ ⊥ ∧ mE t ≠ ⊤ := by
    intro t
    induction t with
    | zero => intro _; rw [hm0]; exact ⟨EReal.coe_ne_bot _, EReal.coe_ne_top _⟩
    | succ t ih =>
      intro ht
      have ht' : t < T := ht
      obtain ⟨h1, h2⟩ := ih ht'.le
      have hX : univ.fold max b (S t) = univ.fold max b fun j => ((s t j : ℝ) : EReal) :=
        Finset.fold_congr fun j _ => hS t ht' j
      rw [hm t ht', hX]
      refine ⟨ne_bot_of_le_ne_bot h1 (le_max_left _ _), ne_of_lt (max_lt (lt_top_iff_ne_top.mpr h2) ?_)⟩
      exact lt_top_iff_ne_top.mpr (fold_max_coe_ne_top hb _)
  intro t ht
  exact (EReal.coe_toReal (key t ht).2 (key t ht).1).symm

/-- The running numerator over the extended reals is the real one, when every input is real. -/
theorem ereal_num {T : ℕ} (S V : ℕ → Fin n → EReal) (s v : ℕ → Fin n → ℝ)
    (hS : ∀ t < T, ∀ j, S t j = (s t j : ℝ)) (hV : ∀ t < T, ∀ j, V t j = (v t j : ℝ))
    (mE aE : ℕ → EReal) (m : ℕ → ℝ) (hm : ∀ t ≤ T, mE t = (m t : ℝ)) (ha0 : aE 0 = 0)
    (ha : ∀ t < T, aE (t + 1)
      = Ideal.exp (mE t - mE (t + 1)) * aE t + ∑ j, Ideal.exp (S t j - mE (t + 1)) * V t j) :
    ∀ t ≤ T, aE t = ((num s v m t : ℝ) : EReal) := by
  intro t
  induction t with
  | zero => intro _; rw [ha0]; rfl
  | succ t ih =>
    intro ht
    have ht' : t < T := ht
    rw [ha t ht', ih ht'.le, hm t ht'.le, hm (t + 1) ht, num, EReal.coe_add, EReal.coe_mul, coe_sum,
      exp_coe_sub_coe]
    congr 1
    refine sum_congr rfl fun j _ => ?_
    rw [hS t ht' j, hV t ht' j, exp_coe_sub_coe, EReal.coe_mul]

/-- The running denominator over the extended reals is the real one, when every input is real. -/
theorem ereal_den {T : ℕ} (S : ℕ → Fin n → EReal) (s : ℕ → Fin n → ℝ)
    (hS : ∀ t < T, ∀ j, S t j = (s t j : ℝ))
    (mE lE : ℕ → EReal) (m : ℕ → ℝ) (hm : ∀ t ≤ T, mE t = (m t : ℝ)) (hl0 : lE 0 = 0)
    (hl : ∀ t < T, lE (t + 1)
      = Ideal.exp (mE t - mE (t + 1)) * lE t + ∑ j, Ideal.exp (S t j - mE (t + 1))) :
    ∀ t ≤ T, lE t = ((den s m t : ℝ) : EReal) := by
  intro t
  induction t with
  | zero => intro _; rw [hl0]; rfl
  | succ t ih =>
    intro ht
    have ht' : t < T := ht
    rw [hl t ht', ih ht'.le, hm t ht'.le, hm (t + 1) ht, den, EReal.coe_add, EReal.coe_mul, coe_sum,
      exp_coe_sub_coe]
    congr 1
    refine sum_congr rfl fun j _ => ?_
    rw [hS t ht' j, exp_coe_sub_coe]

/-- The value of the online softmax over the extended reals is the real one. -/
theorem online_softmax_value {T : ℕ} (hn : 0 < n) (hT : 0 < T)
    (S V : ℕ → Fin n → EReal) (s v : ℕ → Fin n → ℝ)
    (hS : ∀ t < T, ∀ j, S t j = (s t j : ℝ)) (hV : ∀ t < T, ∀ j, V t j = (v t j : ℝ))
    (mE lE aE : ℕ → EReal) (m : ℕ → ℝ) (hm : ∀ t ≤ T, mE t = (m t : ℝ))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j) :
    aE T * Ideal.div 1 (lE T) = ((num s v m T * (1 / den s m T) : ℝ) : EReal) := by
  rw [ereal_num S V s v hS hV mE aE m hm ha0 ha T le_rfl, ereal_den S s hS mE lE m hm hl0 hl T le_rfl,
    ← EReal.coe_one, div_coe_coe 1 (den_pos hn s m hT).ne', one_mul, ← EReal.coe_mul]

/-- **Online softmax, over the extended reals.**  Let the scores `S` and the values `V` of `T ≥ 1` tiles of
    `n ≥ 1` keys be real numbers, let `mE` be any sequence of real reference points, and let `lE`, `aE` start
    at `0` and satisfy the rescaling recurrences written with the exact operations.  Then the final numerator
    times the exact quotient `1 / (final denominator)` is the softmax-weighted average of the values in
    the normalised form `∑ₖ (exp (Sₖ - M) / ∑ᵢ exp (Sᵢ - M)) · Vₖ`, for any real `M`. -/
theorem online_softmax {T : ℕ} (hn : 0 < n) (hT : 0 < T)
    (S V : ℕ → Fin n → EReal) (s v : ℕ → Fin n → ℝ)
    (hS : ∀ t < T, ∀ j, S t j = (s t j : ℝ)) (hV : ∀ t < T, ∀ j, V t j = (v t j : ℝ))
    (mE lE aE : ℕ → EReal) (m : ℕ → ℝ) (hm : ∀ t ≤ T, mE t = (m t : ℝ))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j)
    (M : ℝ) :
    aE T * Ideal.div 1 (lE T)
      = ∑ t ∈ range T, ∑ j,
          Ideal.div (Ideal.exp (S t j - (M : EReal))) (∑ t' ∈ range T, ∑ i, Ideal.exp (S t' i - (M : EReal)))
            * V t j := by
  have hZ : 0 < ∑ t' ∈ range T, ∑ i, Real.exp (s t' i - M) := sum_exp_pos hn s M hT
  have hZE : (∑ t' ∈ range T, ∑ i, Ideal.exp (S t' i - (M : EReal)))
      = ((∑ t' ∈ range T, ∑ i, Real.exp (s t' i - M) : ℝ) : EReal) := by
    rw [coe_sum]
    refine sum_congr rfl fun t ht => ?_
    rw [coe_sum]
    refine sum_congr rfl fun j _ => ?_
    rw [hS t (mem_range.mp ht) j, exp_coe_sub_coe]
  rw [online_softmax_value hn hT S V s v hS hV mE lE aE m hm hl0 ha0 hl ha, num_mul_inv_den s v m T M,
    hZE, coe_sum]
  refine sum_congr rfl fun t ht => ?_
  rw [coe_sum]
  refine sum_congr rfl fun j _ => ?_
  rw [hS t (mem_range.mp ht) j, hV t (mem_range.mp ht) j, exp_coe_sub_coe, div_coe_coe _ hZ.ne', ← EReal.coe_mul]
  congr 1
  ring

/-! ### The same, with finiteness stated as the existence of a real value -/

/-- An extended real that is some real number is its own real part. -/
theorem eq_coe_toReal {x : EReal} (h : ∃ r : ℝ, x = (r : EReal)) : x = ((x.toReal : ℝ) : EReal) := by
  obtain ⟨r, rfl⟩ := h
  rw [EReal.toReal_coe]

/-- The running maximum of real scores from a real seed is real at every tile. -/
theorem running_max_of_real {T : ℕ} (S : ℕ → Fin n → EReal)
    (hS : ∀ t < T, ∀ j, ∃ r : ℝ, S t j = (r : EReal)) {b : EReal} (hb : b ≠ ⊤)
    (mE : ℕ → EReal) (hm0 : ∃ r : ℝ, mE 0 = (r : EReal))
    (hm : ∀ t < T, mE (t + 1) = max (mE t) (univ.fold max b (S t))) :
    ∀ t ≤ T, ∃ r : ℝ, mE t = (r : EReal) := by
  obtain ⟨m₀, hm0⟩ := hm0
  intro t ht
  exact ⟨_, running_max_real S (fun t j => (S t j).toReal) (fun t ht j => eq_coe_toReal (hS t ht j)) hb mE m₀ hm0 hm
    t ht⟩

/-- **Online softmax, over the extended reals, inputs known to be real.**  As `online_softmax`, with the
    finiteness of the scores, the values, the reference points and `M` stated as `∃ r : ℝ, _ = r`; the
    result is moreover a real number. -/
theorem online_softmax_of_real {T : ℕ} (hn : 0 < n) (hT : 0 < T)
    (S V : ℕ → Fin n → EReal)
    (hS : ∀ t < T, ∀ j, ∃ r : ℝ, S t j = (r : EReal)) (hV : ∀ t < T, ∀ j, ∃ r : ℝ, V t j = (r : EReal))
    (mE lE aE : ℕ → EReal) (hm : ∀ t ≤ T, ∃ r : ℝ, mE t = (r : EReal))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j)
    (M : EReal) (hM : ∃ r : ℝ, M = (r : EReal)) :
    aE T * Ideal.div 1 (lE T)
        = ∑ t ∈ range T, ∑ j,
            Ideal.div (Ideal.exp (S t j - M)) (∑ t' ∈ range T, ∑ i, Ideal.exp (S t' i - M)) * V t j
      ∧ ∃ r : ℝ, aE T * Ideal.div 1 (lE T) = (r : EReal) := by
  obtain ⟨Mr, rfl⟩ := hM
  have hS' : ∀ t < T, ∀ j, S t j = (((S t j).toReal : ℝ) : EReal) := fun t ht j => eq_coe_toReal (hS t ht j)
  have hV' : ∀ t < T, ∀ j, V t j = (((V t j).toReal : ℝ) : EReal) := fun t ht j => eq_coe_toReal (hV t ht j)
  have hm' : ∀ t ≤ T, mE t = (((mE t).toReal : ℝ) : EReal) := fun t ht => eq_coe_toReal (hm t ht)
  exact ⟨online_softmax hn hT S V _ _ hS' hV' mE lE aE _ hm' hl0 ha0 hl ha Mr,
    _, online_softmax_value hn hT S V _ _ hS' hV' mE lE aE _ hm' hl0 ha0 hl ha⟩

/-! ## Splitting a key index into (tile, position) -/

/-- A sum over `T · n` consecutive keys is the sum over `T` tiles of the sums over the `n` positions of a tile. -/
theorem sum_fin_mul {α : Type*} [AddCommMonoid α] (T n : ℕ) (f : ℕ → α) :
    ∑ k : Fin (T * n), f k.val = ∑ t ∈ range T, ∑ j : Fin n, f (t * n + j.val) := by
  rw [← Fin.sum_univ_eq_sum_range (fun t => ∑ j : Fin n, f (t * n + j.val)) T, ← Fintype.sum_prod_type']
  refine (Fintype.sum_equiv finProdFinEquiv _ _ fun p => ?_).symm
  simp [finProdFinEquiv, mul_comm, add_comm]

end OnlineSoftmax
-- ==== Proof.BridgeScores.lean ====
import Mathlib
import Idealize.ShloMosaic.PureOps.Ideal
import Idealize.ShloMosaic.PureOps.Ideal.Laws
import proofs.«101722_j472446402583_2_alg».proof.Proof.LibRealSum
import proofs.«101722_j472446402583_2_alg».proof.Proof.LibOnlineSoftmax
import proofs.«101722_j472446402583_2_alg».proof.Proof.RefSpec

/-!
# The tiled computation and the one-piece computation agree on real inputs

Three facts, all needing the inputs to be real numbers (on the extended reals distributivity and cancellation fail
at `±∞`):

* the scores agree: multiplying the query projection by `reff^(-1/2)` before the product over the 64 ranks is the same as
  dividing the product by `√reff`, because `reff ≥ 1` is a positive real and a real factor can be pulled out of a sum of reals;
* the running reference point, denominator and numerator over the four tiles of 512 keys give the softmax-weighted
  average over all 2048 keys (the online softmax recurrence, with the 2048 keys split as 4 × 512);
* hence the residual rows agree, and the normalisation, being the same function of the row on both sides, is not opened.
-/

set_option pp.maxSteps 5000
set_option pp.deepTerms false

noncomputable section

namespace Attn

open Idealize.ShloMosaic Idealize.ShloMosaic.ValueIdx Finset Cert.LibRealSum

/-! ## The constants -/

theorem one_eq : one = 1 := by
  unfold one
  simp [Ideal.ofBits, Ideal.ieee]
  rw [← EReal.coe_mul]
  norm_num

theorem negInf_eq : negInf = ⊥ := by
  unfold negInf
  simp [Ideal.ofBits, Ideal.ieee]

theorem negBig_real : ∃ r : ℝ, negBig = (r : EReal) := by
  unfold negBig
  simp [Ideal.ofBits, Ideal.ieee]
  exact ⟨-(11744050 * 2 ^ 104), by push_cast; rfl⟩

/-! ## Splitting the 2048 keys into four tiles of 512 -/

/-- A sum over the four tiles of the sums over a tile's 512 positions is the sum over all 2048 keys. -/
theorem sum_keys {α : Type*} [AddCommMonoid α] (F : Fin 2048 → α) :
    ∑ t ∈ range 4, ∑ j : Fin 512, F (key t j) = ∑ k : Fin 2048, F k := by
  let g : ℕ → α := fun n => if h : n < 2048 then F ⟨n, h⟩ else 0
  have hg : ∀ k : Fin 2048, g k.val = F k := fun k => by
    show (if h : k.val < 2048 then F ⟨k.val, h⟩ else 0) = F k
    rw [dif_pos k.isLt]
  have hkey : ∀ t ∈ range 4, ∀ j : Fin 512, F (key t j) = g (t * 512 + j.val) := fun t ht j => by
    have ht4 : t < 4 := mem_range.mp ht
    have hlt : t * 512 + j.val < 2048 := by have := j.isLt; omega
    show F (key t j) = (if h : t * 512 + j.val < 2048 then F ⟨t * 512 + j.val, h⟩ else 0)
    rw [dif_pos hlt]
    congr 1
    apply Fin.ext
    show (t % 4) * 512 + j.val = t * 512 + j.val
    rw [Nat.mod_eq_of_lt ht4]
  calc ∑ t ∈ range 4, ∑ j : Fin 512, F (key t j)
      = ∑ t ∈ range 4, ∑ j : Fin 512, g (t * 512 + j.val) :=
        sum_congr rfl fun t ht => sum_congr rfl fun j _ => hkey t ht j
    _ = ∑ k : Fin (4 * 512), g k.val := (OnlineSoftmax.sum_fin_mul 4 512 g).symm
    _ = ∑ k : Fin 2048, F k := Finset.sum_congr rfl fun k _ => hg k

section Real

variable {x : ArrX} {mask : ArrM} {U V : ArrW}
variable (hx : ∀ i, IsReal (x i)) (hm : ∀ i, IsReal (mask i)) (hU : ∀ i, IsReal (U i)) (hV : ∀ i, IsReal (V i))

include hm in
/-- The effective rank is a positive real number. -/
theorem reff_pos (b : Fin 4) (n : Fin 2048) : ∃ R : ℝ, 0 < R ∧ reff mask b n = (R : EReal) := by
  obtain ⟨ρ, hρ⟩ := isReal_sum univ (fun r : Fin 64 => mask (ix3 b n r)) (fun r _ => hm _)
  refine ⟨max ρ 1, lt_max_of_lt_right one_pos, ?_⟩
  unfold reff
  rw [hρ, one_eq, ← EReal.coe_one]
  exact (EReal.coe_strictMono.monotone.map_max).symm

include hx hm hU in
theorem qraw_real (b : Fin 4) (n : Fin 2048) (r : Fin 64) : IsReal (qraw x mask U b n r) :=
  (isReal_sum _ _ fun _ _ => (hx _).mul (hU _)).mul (hm _)

include hx hm hV in
theorem kk_real (b : Fin 4) (n : Fin 2048) (r : Fin 64) : IsReal (kk x mask V b n r) :=
  (isReal_sum _ _ fun _ _ => (hx _).mul (hV _)).mul (hm _)

include hx hm hU hV in
/-- Every score of the one-piece computation is a real number. -/
theorem rsc_real (b : Fin 4) (q k : Fin 2048) : IsReal (rsc x mask U V b q k) := by
  obtain ⟨R, hR, hRe⟩ := reff_pos hm b q
  unfold rsc
  rw [hRe, Ideal.sqrt_coe, if_neg (not_lt.mpr hR.le), Ideal.div_coe (Real.sqrt_pos.mpr hR).ne']
  exact (isReal_sum _ _ fun r _ => (qraw_real hx hm hU b q r).mul (kk_real hx hm hV b k r)).mul (isReal_coe _)

include hx hm hU hV in
/-- The scores agree: scaling the query projection by `reff^(-1/2)` first, or dividing the product by `√reff`. -/
theorem sc_eq_rsc (b : Fin 4) (q : Fin 2048) (t : ℕ) (j : Fin 512) :
    sc x mask U V b q t j = rsc x mask U V b q (key t j) := by
  obtain ⟨R, hR, hRe⟩ := reff_pos hm b q
  have hs : 0 < Real.sqrt R := Real.sqrt_pos.mpr hR
  choose a ha using fun r => qraw_real hx hm hU b q r
  choose c hc using fun r => kk_real hx hm hV b (key t j) r
  unfold sc rsc qk
  rw [hRe, Ideal.rsqrt_coe, if_neg (not_lt.mpr hR.le), if_neg hR.ne', Ideal.sqrt_coe, if_neg (not_lt.mpr hR.le),
    Ideal.div_coe hs.ne']
  change ∑ r : Fin 64, (qraw x mask U b q r * (((Real.sqrt R)⁻¹ : ℝ) : EReal)) * kk x mask V b (key t j) r
      = (∑ r : Fin 64, qraw x mask U b q r * kk x mask V b (key t j) r) * ((1 / Real.sqrt R : ℝ) : EReal)
  simp only [ha, hc, ← EReal.coe_mul, ← coe_finset_sum]
  congr 1
  rw [Finset.sum_mul]
  refine sum_congr rfl fun r _ => ?_
  rw [one_div]
  ring

include hx hm hU hV in
/-- The largest score of a row is a real number. -/
theorem rmax_real (b : Fin 4) (q : Fin 2048) : IsReal (rmax x mask U V b q) := by
  choose s hs using fun k => rsc_real hx hm hU hV b q k
  have e : rsc x mask U V b q = fun k => ((s k : ℝ) : EReal) := funext hs
  unfold rmax
  rw [negInf_eq, e, max_eq_right bot_le]
  exact ⟨_, (EReal.coe_toReal (OnlineSoftmax.fold_max_coe_ne_top bot_ne_top s)
    (OnlineSoftmax.fold_max_coe_ne_bot (by norm_num) ⊥ s)).symm⟩

end Real

end Attn

end
-- ==== Proof.BridgeSoftmax.lean ====
import proofs.«101722_j472446402583_2_alg».proof.Proof.BridgeScores

/-!
# The online softmax over four tiles of 512 keys is the softmax over the 2048 keys

With real inputs the scores are real, the running reference point stays real (it starts at a real number and is
only ever raised to a maximum of reals), and the rescaling recurrences of the running denominator and numerator
compute, after the fourth tile, the sums of exponentials over all keys at the final reference point. Their quotient
does not depend on the reference point, so it is the softmax-weighted average taken at the row maximum.
-/

set_option pp.maxSteps 5000
set_option pp.deepTerms false

noncomputable section

namespace Attn

open Idealize.ShloMosaic Idealize.ShloMosaic.ValueIdx Finset Cert.LibRealSum

section Real

variable {x : ArrX} {mask : ArrM} {U V : ArrW}
variable (hx : ∀ i, IsReal (x i)) (hm : ∀ i, IsReal (mask i)) (hU : ∀ i, IsReal (U i)) (hV : ∀ i, IsReal (V i))

include hx hm hU hV in
/-- The residual rows of the two computations agree. -/
theorem ryrow_eq_yrow (b : Fin 4) (q : Fin 2048) (d : Fin 1024) :
    ryrow x mask U V b q d = yrow x mask U V b q d := by
  have hS : ∀ t < 4, ∀ j, ∃ r : ℝ, sc x mask U V b q t j = (r : EReal) := fun t _ j => by
    rw [sc_eq_rsc hx hm hU hV]; exact rsc_real hx hm hU hV b q _
  have hVr : ∀ t < 4, ∀ j : Fin 512, ∃ r : ℝ, x (ix3 b (key t j) d) = (r : EReal) := fun _ _ _ => hx _
  have hmE : ∀ t ≤ 4, ∃ r : ℝ, mE x mask U V b q t = (r : EReal) :=
    OnlineSoftmax.running_max_of_real (sc x mask U V b q) hS (b := negInf)
      (by rw [negInf_eq]; exact bot_ne_top) (mE x mask U V b q) negBig_real (fun t _ => rfl)
  obtain ⟨hval, -⟩ := OnlineSoftmax.online_softmax_of_real (n := 512) (T := 4) (by norm_num) (by norm_num)
    (sc x mask U V b q) (fun t j => x (ix3 b (key t j) d)) hS hVr (mE x mask U V b q) (lE x mask U V b q)
    (aE x mask U V b q d) hmE rfl rfl (fun t _ => rfl) (fun t _ => rfl) (rmax x mask U V b q)
    (rmax_real hx hm hU hV b q)
  have hS' : ∀ t < 4, ∀ j, sc x mask U V b q t j = (((sc x mask U V b q t j).toReal : ℝ) : EReal) :=
    fun t ht j => OnlineSoftmax.eq_coe_toReal (hS t ht j)
  have hm' : ∀ t ≤ 4, mE x mask U V b q t = (((mE x mask U V b q t).toReal : ℝ) : EReal) :=
    fun t ht => OnlineSoftmax.eq_coe_toReal (hmE t ht)
  have hl4 := OnlineSoftmax.ereal_den (sc x mask U V b q) _ hS' (mE x mask U V b q) (lE x mask U V b q) _ hm' rfl
    (fun t _ => rfl) 4 le_rfl
  have hpos := OnlineSoftmax.den_pos (n := 512) (by norm_num) (fun t j => (sc x mask U V b q t j).toReal)
    (fun t => (mE x mask U V b q t).toReal) (T := 4) (by norm_num)
  have hdiv : Ideal.div (aE x mask U V b q d 4) (lE x mask U V b q 4)
      = aE x mask U V b q d 4 * Ideal.div 1 (lE x mask U V b q 4) := by
    rw [hl4, Ideal.div_coe hpos.ne', Ideal.div_coe hpos.ne', one_mul]
  have hden : (∑ t' ∈ range 4, ∑ i : Fin 512, Ideal.exp (sc x mask U V b q t' i - rmax x mask U V b q))
      = rden x mask U V b q := by
    simp only [sc_eq_rsc hx hm hU hV]
    exact sum_keys (fun k => Ideal.exp (rsc x mask U V b q k - rmax x mask U V b q))
  unfold ryrow yrow
  congr 1
  rw [hdiv, hval, hden, ← sum_keys (fun k => rwt x mask U V b q k * x (ix3 b k d))]
  refine sum_congr rfl fun t _ => sum_congr rfl fun j _ => ?_
  rw [sc_eq_rsc hx hm hU hV]
  rfl

include hx hm hU hV in
/-- **On real inputs the one-piece computation and the tiled computation give the same result.** -/
theorem rout_eq_kout (γ β : ArrG) : rout x mask U V γ β = kout x mask U V γ β := by
  funext i
  exact congrArg (fun y => lnRow γ β y (i 2)) (funext fun d => ryrow_eq_yrow hx hm hU hV (i 0) (i 1) d)

end Real

end Attn

end
-- ==== Proof.Bridge.lean ====
import proofs.«101722_j472446402583_2_alg».proof.Pre_finite_inputs
import proofs.«101722_j472446402583_2_alg».proof.Proof.RefValue
import proofs.«101722_j472446402583_2_alg».proof.Proof.Finite
import proofs.«101722_j472446402583_2_alg».proof.Proof.BridgeSoftmax

/-!
# The reference program's result is the tiled computation's, under the precondition

The precondition makes every input a real number; the reference program computes the one-piece description; on real
inputs the one-piece and the tiled descriptions agree.
-/

noncomputable section

namespace Attn

open Idealize.ShloMosaic

/-- Under the precondition, the array the reference program leaves in its result buffer is `Attn.kout` of the six
    argument arrays. -/
theorem ref_eq_kout [Cert.Pre_finite_inputs.Facts] (a0 : ArrX) (a1 : ArrM) (a2 a3 : ArrW) (a4 a5 : ArrG)
    (hpre : Cert.Pre_finite_inputs.fn (F := Ideal) a0 a1 a2 a3 a4 a5 = fun _ => 1#1) :
    Cert.ReferenceIdeal.Read.val_main_v48 (F := Ideal) a0 a1 a2 a3 a4 a5 = kout a0 a1 a2 a3 a4 a5 := by
  obtain ⟨h0, h1, h2, h3, -, -⟩ := finite_inputs a0 a1 a2 a3 a4 a5 hpre
  rw [Cert.ReferenceIdeal.RefValue.ref_eq_rout]
  exact rout_eq_kout h0 h1 h2 h3 a4 a5

section Run

open Cert.ReferenceIdeal Cert.ReferenceIdeal.Gen Idealize.ShloMosaic.TcCoe Idealize.SL.Sem Idealize.ShloMosaic.StableHlo

/-- The same, for the composed term the reference program's run leaves in its result buffer, from any memory `m`
    whose six argument arrays satisfy the precondition. -/
theorem ref_run_eq_kout [Cert.Pre_finite_inputs.Facts] (m : (ℓ : Loc nD τ sig) → Buf (Elt Ideal) ℓ) (c : Dev nD)
    (hpre : Cert.Pre_finite_inputs.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) = fun _ => 1#1) :
    Cert.ReferenceIdeal.Value.res_main_v48 (F := Ideal) m c
      = kout (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [Cert.ReferenceIdeal.Read.val_main_v48_eq]
  exact ref_eq_kout _ _ _ _ _ _ hpre

end Run

end Attn

end
-- ==== Proof.lean ====
/- A low-rank attention layer — gated low-rank query and key projections, scores normalised by the square root of
   each token's effective rank, a softmax over 2048 keys, a residual connection and a layer norm — computed by two
   kernels, against its one-piece reference.

   The first kernel writes, row block by row block, the gated query projection already divided by the square root of
   the effective rank, the gated key projection, and a copy of `x`. The second meets the keys in four tiles of 512 and
   keeps, per query row, a running reference point, a running denominator and a running numerator, rescaled at each
   tile; at the last tile it divides, adds the residual row and normalises it. Over the extended reals, for finite
   inputs, the tiled recurrences compute the same softmax-weighted sum as the one-piece formula, a change of number format is the identity,
   and dividing the scores by the square root of the rank is multiplying the queries by its reciprocal: the two
   programs end with equal results, element by element.

   Each program also runs to completion without a fault and leaves its argument arrays as launched; the idealized
   kernel is the kernel's own text read over the extended reals, so nothing is owed for the passage between them. -/
import proofs.«101722_j472446402583_2_alg».proof.Defs
import proofs.«101722_j472446402583_2_alg».proof.Proof.Gen.Kernel
import proofs.«101722_j472446402583_2_alg».proof.Proof.Gen.KernelIdeal
import proofs.«101722_j472446402583_2_alg».proof.Proof.Gen.ReferenceIdeal
import proofs.«101722_j472446402583_2_alg».proof.Proof.Gen.Pre_finite_inputs
import proofs.«101722_j472446402583_2_alg».proof.Proof.Gen.ReferenceIdeal.Run
import proofs.«101722_j472446402583_2_alg».proof.Proof.KRun
import proofs.«101722_j472446402583_2_alg».proof.Proof.KIValue
import proofs.«101722_j472446402583_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Hand.frame m ρ

/-- So does its reading over the extended reals. -/
theorem frame_kernelIdeal : Cert.frame_KernelIdeal := fun m ρ _ => Cert.KernelIdeal.Hand.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories agreeing on the six arguments, all finite: the two kernels leave the layer's result `Attn.kout` of the
    arguments in the result array, and so does the reference. -/
theorem algebraic : Cert.algebraic_KernelIdeal_ReferenceIdeal := by
  intro m ρ m' ρ' hpre hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  have hp : Cert.Pre_finite_inputs.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = fun _ => 1#1 := by
    rw [a0, a1, a2, a3, a4, a5]; exact hpre c
  rw [Attn.ref_run_eq_kout m' c hp, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
